-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S192x2048 : Shape := ⟨2, ![192, 2048]⟩
abbrev S192x192x2048 : Shape := ⟨3, ![192, 192, 2048]⟩
abbrev S128x2048 : Shape := ⟨2, ![128, 2048]⟩
abbrev S128 : Shape := ⟨1, ![128]⟩
abbrev S128x128 : Shape := ⟨2, ![128, 128]⟩
abbrev S2048x128 : Shape := ⟨2, ![2048, 128]⟩
abbrev S2048 : Shape := ⟨1, ![2048]⟩
abbrev S_ : Shape := ⟨0, ![]⟩

class Facts : Prop where
  bcast_S_S192x2048 : S_.BroadcastsInDim S192x2048 (![] : Fin 0 → Fin S192x2048.rank)
  reducesTo_S192x2048_S_d0_1 : S192x2048.ReducesTo [0, 1] S_
  h_S_ : 0 < S_.numel
  bcast_S_S192x192x2048 : S_.BroadcastsInDim S192x192x2048 (![] : Fin 0 → Fin S192x192x2048.rank)
  reducesTo_S192x192x2048_S_d0_1_2 : S192x192x2048.ReducesTo [0, 1, 2] S_
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2048x128 : S_.BroadcastsInDim S2048x128 (![] : Fin 0 → Fin S2048x128.rank)
  reducesTo_S2048x128_S_d0_1 : S2048x128.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S2048x128 .f32) (main_arg13 : FVec F S2048 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S2048x128 .f32 := Host.absf main_arg12
  let main_cst_22 : FVec F S_ .f32 := constant S_ .f32 0x7F800000#32
  let main_v60 : FVec F S2048x128 .f32 := broadcastInDim S2048x128 ![] bcast_S_S2048x128 main_cst_22
  let main_v61 : IVec S2048x128 1 := cmpf .olt main_v59 main_v60
  let main_c_23 : IVec S_ 1 := constantI S_ 1 1#1
  let main_v62 : IVec S_ 1 := (fun x v => Host.reduce IntOp.andi x v reducesTo_S2048x128_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_v63 main_v67

def fn_part2 {F : FTy → Type} [FloatOps F] (main_arg7 : FVec F S2048 .f32) (main_arg8 : FVec F S128x2048 .f32) (main_arg9 : FVec F S128 .f32) (main_arg10 : FVec F S128x128 .f32) (main_arg11 : FVec F S128 .f32) (main_arg12 : FVec F S2048x128 .f32) (main_arg13 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S128x2048 .f32 := Host.absf main_arg8
  let main_cst_14 : FVec F S_ .f32 := constant S_ .f32 0x7F800000#32
  let main_v40 : FVec F S128x2048 .f32 := broadcastInDim S128x2048 ![] bcast_S_S128x2048 main_cst_14
  let main_v41 : IVec S128x2048 1 := cmpf .olt main_v39 main_v40
  let main_c_15 : IVec S_ 1 := constantI S_ 1 1#1
  let main_v42 : IVec S_ 1 := (fun x v => Host.reduce IntOp.andi x v reducesTo_S128x2048_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S2048x128 .f32) (main_arg7 : FVec F S2048 .f32) (main_arg8 : FVec F S128x2048 .f32) (main_arg9 : FVec F S128 .f32) (main_arg10 : FVec F S128x128 .f32) (main_arg11 : FVec F S128 .f32) (main_arg12 : FVec F S2048x128 .f32) (main_arg13 : FVec F S2048 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2048x128 .f32 := Host.absf main_arg6
  let main_cst_10 : FVec F S_ .f32 := constant S_ .f32 0x7F800000#32
  let main_v30 : FVec F S2048x128 .f32 := broadcastInDim S2048x128 ![] bcast_S_S2048x128 main_cst_10
  let main_v31 : IVec S2048x128 1 := cmpf .olt main_v29 main_v30
  let main_c_11 : IVec S_ 1 := constantI S_ 1 1#1
  let main_v32 : IVec S_ 1 := (fun x v => Host.reduce IntOp.andi x v reducesTo_S2048x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S192x2048 .f32) (main_arg1 : FVec F S192x192x2048 .f32) (main_arg2 : FVec F S128x2048 .f32) (main_arg3 : FVec F S128 .f32) (main_arg4 : FVec F S128x128 .f32) (main_arg5 : FVec F S128 .f32) (main_arg6 : FVec F S2048x128 .f32) (main_arg7 : FVec F S2048 .f32) (main_arg8 : FVec F S128x2048 .f32) (main_arg9 : FVec F S128 .f32) (main_arg10 : FVec F S128x128 .f32) (main_arg11 : FVec F S128 .f32) (main_arg12 : FVec F S2048x128 .f32) (main_arg13 : FVec F S2048 .f32) : IVec S_ 1 :=
  let main_v0 : FVec F S192x2048 .f32 := Host.absf main_arg0
  let main_cst : FVec F S_ .f32 := constant S_ .f32 0x7F800000#32
  let main_v1 : FVec F S192x2048 .f32 := broadcastInDim S192x2048 ![] bcast_S_S192x2048 main_cst
  let main_v2 : IVec S192x2048 1 := cmpf .olt main_v0 main_v1
  let main_c : IVec S_ 1 := constantI S_ 1 1#1
  let main_v3 : IVec S_ 1 := (fun x v => Host.reduce IntOp.andi x v reducesTo_S192x2048_S_d0_1 h_S_) main_v2 main_c
  let main_v4 : FVec F S192x192x2048 .f32 := Host.absf main_arg1
  let main_cst_0 : FVec F S_ .f32 := constant S_ .f32 0x7F800000#32
  let main_v5 : FVec F S192x192x2048 .f32 := broadcastInDim S192x192x2048 ![] bcast_S_S192x192x2048 main_cst_0
  let main_v6 : IVec S192x192x2048 1 := cmpf .olt main_v4 main_v5
  let main_c_1 : IVec S_ 1 := constantI S_ 1 1#1
  let main_v7 : IVec S_ 1 := (fun x v => Host.reduce IntOp.andi x v reducesTo_S192x192x2048_S_d0_1_2 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S192x2048 : Shape := ⟨2, ![192, 2048]⟩
abbrev S192x192x2048 : Shape := ⟨3, ![192, 192, 2048]⟩
abbrev S128x2048 : Shape := ⟨2, ![128, 2048]⟩
abbrev S128 : Shape := ⟨1, ![128]⟩
abbrev S128x128 : Shape := ⟨2, ![128, 128]⟩
abbrev S2048x128 : Shape := ⟨2, ![2048, 128]⟩
abbrev S2048 : Shape := ⟨1, ![2048]⟩
abbrev S1x128 : Shape := ⟨2, ![1, 128]⟩
abbrev S1x2048 : Shape := ⟨2, ![1, 2048]⟩
abbrev S1x192 : Shape := ⟨2, ![1, 192]⟩
abbrev S192x128 : Shape := ⟨2, ![192, 128]⟩
abbrev S192 : Shape := ⟨1, ![192]⟩
abbrev S192x1 : Shape := ⟨2, ![192, 1]⟩
abbrev S192x192 : Shape := ⟨2, ![192, 192]⟩
abbrev S32x192x512 : Shape := ⟨3, ![32, 192, 512]⟩
abbrev S32x192 : Shape := ⟨2, ![32, 192]⟩
abbrev S192x512 : Shape := ⟨2, ![192, 512]⟩
abbrev S1x192x512 : Shape := ⟨3, ![1, 192, 512]⟩

abbrev nBuf : Space → Nat
  | .hbm => 31
  | .vmem => 26
  | .smem => 0
  | _ => 0

abbrev bufTy : (tb : Table) → Fin (tcTables nBuf tb) → BufTy
  | .hbm, ⟨0, _⟩ => ⟨S192x2048, .f32⟩
  | .hbm, ⟨1, _⟩ => ⟨S192x192x2048, .f32⟩
  | .hbm, ⟨2, _⟩ => ⟨S128x2048, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2048x128, .f32⟩
  | .hbm, ⟨7, _⟩ => ⟨S2048, .f32⟩
  | .hbm, ⟨8, _⟩ => ⟨S128x2048, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S2048x128, .f32⟩
  | .hbm, ⟨13, _⟩ => ⟨S2048, .f32⟩
  | .hbm, ⟨14, _⟩ => ⟨S2048x128, .f32⟩
  | .hbm, ⟨15, _⟩ => ⟨S128x128, .f32⟩
  | .hbm, ⟨16, _⟩ => ⟨S128x2048, .f32⟩
  | .hbm, ⟨17, _⟩ => ⟨S2048x128, .f32⟩
  | .hbm, ⟨18, _⟩ => ⟨S128x128, .f32⟩
  | .hbm, ⟨19, _⟩ => ⟨S128x2048, .f32⟩
  | .hbm, ⟨20, _⟩ => ⟨S1x128, .f32⟩
  | .hbm, ⟨21, _⟩ => ⟨S1x128, .f32⟩
  | .hbm, ⟨22, _⟩ => ⟨S1x2048, .f32⟩
  | .hbm, ⟨23, _⟩ => ⟨S1x128, .f32⟩
  | .hbm, ⟨24, _⟩ => ⟨S1x128, .f32⟩
  | .hbm, ⟨25, _⟩ => ⟨S1x2048, .f32⟩
  | .hbm, ⟨26, _⟩ => ⟨S192x2048, .f32⟩
  | .hbm, ⟨27, _⟩ => ⟨S192x2048, .f32⟩
  | .hbm, ⟨28, _⟩ => ⟨S1x192, .f32⟩
  | .hbm, ⟨29, _⟩ => ⟨S192x192x2048, .f32⟩
  | .hbm, ⟨30, _⟩ => ⟨S192x192, .f32⟩
  | .local _ .vmem, ⟨0, _⟩ => ⟨S192x2048, .f32⟩
  | .local _ .vmem, ⟨1, _⟩ => ⟨S2048x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S128x2048, .f32⟩
  | .local _ .vmem, ⟨6, _⟩ => ⟨S1x2048, .f32⟩
  | .local _ .vmem, ⟨7, _⟩ => ⟨S2048x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S128x2048, .f32⟩
  | .local _ .vmem, ⟨12, _⟩ => ⟨S1x2048, .f32⟩
  | .local _ .vmem, ⟨13, _⟩ => ⟨S192x2048, .f32⟩
  | .local _ .vmem, ⟨14, _⟩ => ⟨S192x2048, .f32⟩
  | .local _ .vmem, ⟨15, _⟩ => ⟨S1x192, .f32⟩
  | .local _ .vmem, ⟨16, _⟩ => ⟨S32x192x512, .f32⟩
  | .local _ .vmem, ⟨17, _⟩ => ⟨S32x192x512, .f32⟩
  | .local _ .vmem, ⟨18, _⟩ => ⟨S192x2048, .f32⟩
  | .local _ .vmem, ⟨19, _⟩ => ⟨S192x2048, .f32⟩
  | .local _ .vmem, ⟨20, _⟩ => ⟨S1x192, .f32⟩
  | .local _ .vmem, ⟨21, _⟩ => ⟨S32x192x512, .f32⟩
  | .local _ .vmem, ⟨22, _⟩ => ⟨S32x192x512, .f32⟩
  | .local _ .vmem, ⟨23, _⟩ => ⟨S32x192, .f32⟩
  | .local _ .vmem, ⟨24, _⟩ => ⟨S32x192, .f32⟩
  | .local _ .vmem, ⟨25, _⟩ => ⟨S32x192, .f32⟩
  | _, _ => ⟨S192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v13_0 : Ref sig .tc := ⟨.hbm, 29, rfl⟩
abbrev main_v13_1 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem4_1 : DmaSem sig := 22
abbrev cc1_sem5_0 : DmaSem sig := 23
abbrev cc1_sem5_1 : DmaSem sig := 24

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S192x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S192x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev grid1 : Pipeline.Grid := ⟨2, ![6, 4], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, v5.toNat]
def k1_cond2 (i : grid1.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32_12 : BitVec 32 := 0#32
  let v28 : BitVec 1 := Scalar.cmpi .ne v27 c0_i32_12
  v28

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S32x192x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S192x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S192x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S32x192x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S32x192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  transposes_S128x2048_S2048x128_1_0 : S128x2048.Transposes [1, 0] S2048x128
  transposes_S128x128_S128x128_1_0 : S128x128.Transposes [1, 0] S128x128
  transposes_S2048x128_S128x2048_1_0 : S2048x128.Transposes [1, 0] S128x2048
  shapeCasts_S128_S1x128 : S128.ShapeCasts S1x128
  shapeCasts_S2048_S1x2048 : S2048.ShapeCasts S1x2048
  inb_S192x2048_S192x2048_0_0 : ∀ a, (![0, 0] : Fin 2 → Nat) a + S192x2048.size a ≤ S192x2048.size a
  h_S192x2048 : 0 < S192x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S192x128 : S1x128.Broadcasts S192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S192x2048 : S1x2048.Broadcasts S192x2048
  reduces_S192x2048_S192 : S192x2048.Reduces [1] S192
  shapeCasts_S192_S192x1 : S192.ShapeCasts S192x1
  shapeCasts_S192x1_S1x192 : S192x1.ShapeCasts S1x192
  inb_S1x192_S1x192_0_0 : ∀ a, (![0, 0] : Fin 2 → Nat) a + S1x192.size a ≤ S1x192.size a
  h_S1x192 : 0 < S1x192.numel
  inb_S32x192_S32x192_0_0 : ∀ a, (![0, 0] : Fin 2 → Nat) a + S32x192.size a ≤ S32x192.size a
  h_S32x192 : 0 < S32x192.numel
  shapeCasts_S32x192_S32x192 : S32x192.ShapeCasts S32x192
  h_S192x512 : 0 < S192x512.numel
  shapeCasts_S192x512_S192x512 : S192x512.ShapeCasts S192x512
  inb_S32x192x512_S32x192x512_0_0_0 : ∀ a, (![0, 0, 0] : Fin 3 → Nat) a + S32x192x512.size a ≤ S32x192x512.size a
  h_S32x192x512 : 0 < S32x192x512.numel
  shapeCasts_S192x512_S1x192x512 : S192x512.ShapeCasts S1x192x512
  broadcasts_S1x192x512_S32x192x512 : S1x192x512.Broadcasts S32x192x512
  reduces_S32x192x512_S32x192 : S32x192x512.Reduces [2] S32x192
  shapeCasts_S1x192_S1x192 : S1x192.ShapeCasts S1x192
  broadcasts_S1x192_S32x192 : S1x192.Broadcasts S32x192
  dot_S192x2048_S2048x128_S192x128_1_0_0_1_n_n_wf : DotDims.WF S192x2048 S2048x128 S192x128 [1] [0] [0] [1] [] []
  dot_S192x128_S128x128_S192x128_1_0_0_1_n_n_wf : DotDims.WF S192x128 S128x128 S192x128 [1] [0] [0] [1] [] []
  dot_S192x128_S128x2048_S192x2048_1_0_0_1_n_n_wf : DotDims.WF S192x128 S128x2048 S192x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S192x2048.size a ≤ S192x2048.size a
  hwx0_0 : ∀ i : grid0.Coords, EltTy.bits .f32 = 32 ∨ (Rect.block (s := S192x2048) S192x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .f32 = 32 ∨ (Rect.block (s := S2048x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S128x2048.size a
  hwx0_5 : ∀ i : grid0.Coords, EltTy.bits .f32 = 32 ∨ (Rect.block (s := S128x2048) S128x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S2048x128.size a
  hwx0_7 : ∀ i : grid0.Coords, EltTy.bits .f32 = 32 ∨ (Rect.block (s := S2048x128) S2048x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S128x2048.size a
  hwx0_11 : ∀ i : grid0.Coords, EltTy.bits .f32 = 32 ∨ (Rect.block (s := S128x2048) S128x2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x2048.size a
  hwx0_12 : ∀ i : grid0.Coords, EltTy.bits .f32 = 32 ∨ (Rect.block (s := S1x2048) S1x2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S192x2048.size a ≤ S192x2048.size a
  hwx0_13 : ∀ i : grid0.Coords, EltTy.bits .f32 = 32 ∨ (Rect.block (s := S192x2048) S192x2048.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S192x2048.size a ≤ S192x2048.size a
  hwx0_14 : ∀ i : grid0.Coords, EltTy.bits .f32 = 32 ∨ (Rect.block (s := S192x2048) S192x2048.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x192.size a ≤ S1x192.size a
  hwx0_15 : ∀ i : grid0.Coords, EltTy.bits .f32 = 32 ∨ (Rect.block (s := S1x192) S1x192.size (cc0_transform_15 i) (hinb0_15 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S192x512.size a ≤ S192x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x192x512.size a ≤ S192x192x2048.size a
  hwx1_0 : ∀ i : grid1.Coords, EltTy.bits .f32 = 32 ∨ (Rect.block (s := S192x192x2048) S32x192x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S192x2048.size a ≤ S192x2048.size a
  hwx1_1 : ∀ i : grid1.Coords, EltTy.bits .f32 = 32 ∨ (Rect.block (s := S192x2048) S192x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x2048.size a ≤ S192x2048.size a
  hwx1_2 : ∀ i : grid1.Coords, EltTy.bits .f32 = 32 ∨ (Rect.block (s := S192x2048) S192x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x192.size a ≤ S1x192.size a
  hwx1_3 : ∀ i : grid1.Coords, EltTy.bits .f32 = 32 ∨ (Rect.block (s := S1x192) S1x192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x192x512.size a ≤ S192x192x2048.size a
  hwx1_4 : ∀ i : grid1.Coords, EltTy.bits .f32 = 32 ∨ (Rect.block (s := S192x192x2048) S32x192x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x192.size a ≤ S192x192.size a
  hwx1_5 : ∀ i : grid1.Coords, EltTy.bits .f32 = 32 ∨ (Rect.block (s := S192x192) S32x192.size (cc1_transform_5 i) (hinb1_5 i)).WholeWords (EltTy.packing .f32)

variable [Facts₀]

def dot_S192x2048_S2048x128_S192x128_1_0_0_1_n_n : DotDims S192x2048 S2048x128 S192x128 where
  lhsContracting := [1]
  rhsContracting := [0]
  lhsNonContracting := [0]
  rhsNonContracting := [1]
  lhsBatch := []
  rhsBatch := []
  wf := dot_S192x2048_S2048x128_S192x128_1_0_0_1_n_n_wf
def dot_S192x128_S128x128_S192x128_1_0_0_1_n_n : DotDims S192x128 S128x128 S192x128 where
  lhsContracting := [1]
  rhsContracting := [0]
  lhsNonContracting := [0]
  rhsNonContracting := [1]
  lhsBatch := []
  rhsBatch := []
  wf := dot_S192x128_S128x128_S192x128_1_0_0_1_n_n_wf
def dot_S192x128_S128x2048_S192x2048_1_0_0_1_n_n : DotDims S192x128 S128x2048 S192x2048 where
  lhsContracting := [1]
  rhsContracting := [0]
  lhsNonContracting := [0]
  rhsNonContracting := [1]
  lhsBatch := []
  rhsBatch := []
  wf := dot_S192x128_S128x2048_S192x2048_1_0_0_1_n_n_wf

abbrev win0_0 : Pipeline.Window sig grid0 :=
  Pipeline.Window.ofSpec (Memref.whole main_arg0) S192x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S128x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12_0) S192x2048.size cc0_transform_13 reads0_13 true true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12_1) S192x2048.size cc0_transform_14 reads0_14 true true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12_2) S1x192.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg1) S32x192x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S192x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12_1) S192x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12_2) S1x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13_0) S32x192x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13_1) S32x192.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S192x2048 : Shape := ⟨2, ![192, 2048]⟩
abbrev S192x192x2048 : Shape := ⟨3, ![192, 192, 2048]⟩
abbrev S128x2048 : Shape := ⟨2, ![128, 2048]⟩
abbrev S128 : Shape := ⟨1, ![128]⟩
abbrev S128x128 : Shape := ⟨2, ![128, 128]⟩
abbrev S2048x128 : Shape := ⟨2, ![2048, 128]⟩
abbrev S2048 : Shape := ⟨1, ![2048]⟩
abbrev S192x128 : Shape := ⟨2, ![192, 128]⟩
abbrev S1x128 : Shape := ⟨2, ![1, 128]⟩
abbrev S_ : Shape := ⟨0, ![]⟩
abbrev S1x2048 : Shape := ⟨2, ![1, 2048]⟩
abbrev S1x192x2048 : Shape := ⟨3, ![1, 192, 2048]⟩
abbrev S192x192 : Shape := ⟨2, ![192, 192]⟩
abbrev S192 : Shape := ⟨1, ![192]⟩
abbrev S1x192 : Shape := ⟨2, ![1, 192]⟩

abbrev nBuf : Space → Nat
  | .hbm => 99
  | .vmem => 0
  | .smem => 0
  | _ => 0

abbrev bufTy : (tb : Table) → Fin (tcTables nBuf tb) → BufTy
  | .hbm, ⟨0, _⟩ => ⟨S192x2048, .f32⟩
  | .hbm, ⟨1, _⟩ => ⟨S192x192x2048, .f32⟩
  | .hbm, ⟨2, _⟩ => ⟨S128x2048, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2048x128, .f32⟩
  | .hbm, ⟨7, _⟩ => ⟨S2048, .f32⟩
  | .hbm, ⟨8, _⟩ => ⟨S128x2048, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S2048x128, .f32⟩
  | .hbm, ⟨13, _⟩ => ⟨S2048, .f32⟩
  | .hbm, ⟨14, _⟩ => ⟨S2048x128, .f32⟩
  | .hbm, ⟨15, _⟩ => ⟨S192x128, .f32⟩
  | .hbm, ⟨16, _⟩ => ⟨S1x128, .f32⟩
  | .hbm, ⟨17, _⟩ => ⟨S192x128, .f32⟩
  | .hbm, ⟨18, _⟩ => ⟨S192x128, .f32⟩
  | .hbm, ⟨19, _⟩ => ⟨S_, .f32⟩
  | .hbm, ⟨20, _⟩ => ⟨S192x128, .f32⟩
  | .hbm, ⟨21, _⟩ => ⟨S192x128, .f32⟩
  | .hbm, ⟨22, _⟩ => ⟨S128x128, .f32⟩
  | .hbm, ⟨23, _⟩ => ⟨S192x128, .f32⟩
  | .hbm, ⟨24, _⟩ => ⟨S1x128, .f32⟩
  | .hbm, ⟨25, _⟩ => ⟨S192x128, .f32⟩
  | .hbm, ⟨26, _⟩ => ⟨S192x128, .f32⟩
  | .hbm, ⟨27, _⟩ => ⟨S_, .f32⟩
  | .hbm, ⟨28, _⟩ => ⟨S192x128, .f32⟩
  | .hbm, ⟨29, _⟩ => ⟨S192x128, .f32⟩
  | .hbm, ⟨30, _⟩ => ⟨S128x2048, .f32⟩
  | .hbm, ⟨31, _⟩ => ⟨S192x2048, .f32⟩
  | .hbm, ⟨32, _⟩ => ⟨S1x2048, .f32⟩
  | .hbm, ⟨33, _⟩ => ⟨S192x2048, .f32⟩
  | .hbm, ⟨34, _⟩ => ⟨S192x2048, .f32⟩
  | .hbm, ⟨35, _⟩ => ⟨S_, .f32⟩
  | .hbm, ⟨36, _⟩ => ⟨S192x2048, .f32⟩
  | .hbm, ⟨37, _⟩ => ⟨S192x2048, .f32⟩
  | .hbm, ⟨38, _⟩ => ⟨S2048x128, .f32⟩
  | .hbm, ⟨39, _⟩ => ⟨S192x128, .f32⟩
  | .hbm, ⟨40, _⟩ => ⟨S1x128, .f32⟩
  | .hbm, ⟨41, _⟩ => ⟨S192x128, .f32⟩
  | .hbm, ⟨42, _⟩ => ⟨S192x128, .f32⟩
  | .hbm, ⟨43, _⟩ => ⟨S_, .f32⟩
  | .hbm, ⟨44, _⟩ => ⟨S192x128, .f32⟩
  | .hbm, ⟨45, _⟩ => ⟨S192x128, .f32⟩
  | .hbm, ⟨46, _⟩ => ⟨S128x128, .f32⟩
  | .hbm, ⟨47, _⟩ => ⟨S192x128, .f32⟩
  | .hbm, ⟨48, _⟩ => ⟨S1x128, .f32⟩
  | .hbm, ⟨49, _⟩ => ⟨S192x128, .f32⟩
  | .hbm, ⟨50, _⟩ => ⟨S192x128, .f32⟩
  | .hbm, ⟨51, _⟩ => ⟨S_, .f32⟩
  | .hbm, ⟨52, _⟩ => ⟨S192x128, .f32⟩
  | .hbm, ⟨53, _⟩ => ⟨S192x128, .f32⟩
  | .hbm, ⟨54, _⟩ => ⟨S128x2048, .f32⟩
  | .hbm, ⟨55, _⟩ => ⟨S192x2048, .f32⟩
  | .hbm, ⟨56, _⟩ => ⟨S1x2048, .f32⟩
  | .hbm, ⟨57, _⟩ => ⟨S192x2048, .f32⟩
  | .hbm, ⟨58, _⟩ => ⟨S192x2048, .f32⟩
  | .hbm, ⟨59, _⟩ => ⟨S_, .f32⟩
  | .hbm, ⟨60, _⟩ => ⟨S192x2048, .f32⟩
  | .hbm, ⟨61, _⟩ => ⟨S192x2048, .f32⟩
  | .hbm, ⟨62, _⟩ => ⟨S_, .f32⟩
  | .hbm, ⟨63, _⟩ => ⟨S192x2048, .f32⟩
  | .hbm, ⟨64, _⟩ => ⟨S192x2048, .f32⟩
  | .hbm, ⟨65, _⟩ => ⟨S192x2048, .f32⟩
  | .hbm, ⟨66, _⟩ => ⟨S192x2048, .f32⟩
  | .hbm, ⟨67, _⟩ => ⟨S1x192x2048, .f32⟩
  | .hbm, ⟨68, _⟩ => ⟨S1x192x2048, .f32⟩
  | .hbm, ⟨69, _⟩ => ⟨S192x192x2048, .f32⟩
  | .hbm, ⟨70, _⟩ => ⟨S192x192x2048, .f32⟩
  | .hbm, ⟨71, _⟩ => ⟨S192x192x2048, .f32⟩
  | .hbm, ⟨72, _⟩ => ⟨S192x192x2048, .f32⟩
  | .hbm, ⟨73, _⟩ => ⟨S1x192x2048, .f32⟩
  | .hbm, ⟨74, _⟩ => ⟨S192x192x2048, .f32⟩
  | .hbm, ⟨75, _⟩ => ⟨S192x192x2048, .f32⟩
  | .hbm, ⟨76, _⟩ => ⟨S192x192x2048, .f32⟩
  | .hbm, ⟨77, _⟩ => ⟨S1x192x2048, .f32⟩
  | .hbm, ⟨78, _⟩ => ⟨S192x192x2048, .f32⟩
  | .hbm, ⟨79, _⟩ => ⟨S192x192x2048, .f32⟩
  | .hbm, ⟨80, _⟩ => ⟨S_, .f32⟩
  | .hbm, ⟨81, _⟩ => ⟨S192x192, .f32⟩
  | .hbm, ⟨82, _⟩ => ⟨S_, .f32⟩
  | .hbm, ⟨83, _⟩ => ⟨S192, .f32⟩
  | .hbm, ⟨84, _⟩ => ⟨S_, .f32⟩
  | .hbm, ⟨85, _⟩ => ⟨S192, .f32⟩
  | .hbm, ⟨86, _⟩ => ⟨S192, .f32⟩
  | .hbm, ⟨87, _⟩ => ⟨S_, .f32⟩
  | .hbm, ⟨88, _⟩ => ⟨S192x192, .f32⟩
  | .hbm, ⟨89, _⟩ => ⟨S192x192, .f32⟩
  | .hbm, ⟨90, _⟩ => ⟨S_, .f32⟩
  | .hbm, ⟨91, _⟩ => ⟨S192x192, .f32⟩
  | .hbm, ⟨92, _⟩ => ⟨S192x192, .f32⟩
  | .hbm, ⟨93, _⟩ => ⟨S1x192, .f32⟩
  | .hbm, ⟨94, _⟩ => ⟨S_, .f32⟩
  | .hbm, ⟨95, _⟩ => ⟨S1x192, .f32⟩
  | .hbm, ⟨96, _⟩ => ⟨S1x192, .f32⟩
  | .hbm, ⟨97, _⟩ => ⟨S192x192, .f32⟩
  | .hbm, ⟨98, _⟩ => ⟨S192x192, .f32⟩
  | _, _ => ⟨S192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call2_cst : Ref sig .tc := ⟨.hbm, 35, rfl⟩
abbrev main_call2_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call3_cst : Ref sig .tc := ⟨.hbm, 43, rfl⟩
abbrev main_call3_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call4_cst : Ref sig .tc := ⟨.hbm, 51, rfl⟩
abbrev main_call4_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call5_cst : Ref sig .tc := ⟨.hbm, 59, rfl⟩
abbrev main_call5_v0 : Ref sig .tc := ⟨.hbm, 60, rfl⟩
abbrev main_v35 : Ref sig .tc := ⟨.hbm, 61, rfl⟩
abbrev main_cst : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_0 : Ref sig .tc := ⟨.hbm, 80, rfl⟩
abbrev main_v53 : Ref sig .tc := ⟨.hbm, 81, rfl⟩
abbrev main_cst_1 : Ref sig .tc := ⟨.hbm, 82, rfl⟩
abbrev main_v54 : Ref sig .tc := ⟨.hbm, 83, rfl⟩
abbrev main_cst_2 : Ref sig .tc := ⟨.hbm, 84, rfl⟩
abbrev main_v55 : Ref sig .tc := ⟨.hbm, 85, rfl⟩
abbrev main_v56 : Ref sig .tc := ⟨.hbm, 86, rfl⟩
abbrev main_cst_3 : Ref sig .tc := ⟨.hbm, 87, rfl⟩
abbrev main_v57 : Ref sig .tc := ⟨.hbm, 88, rfl⟩
abbrev main_v58 : Ref sig .tc := ⟨.hbm, 89, rfl⟩
abbrev main_cst_4 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_5 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]

class Facts₀ : Prop where
  transposes_S128x2048_S2048x128_1_0 : S128x2048.Transposes [1, 0] S2048x128
  bcast_S128_S1x128_1 : S128.BroadcastsInDim S1x128 (![1] : Fin 1 → Fin S1x128.rank)
  bcast_S1x128_S192x128_0_1 : S1x128.BroadcastsInDim S192x128 (![0, 1] : Fin 2 → Fin S192x128.rank)
  bcast_S_S192x128 : S_.BroadcastsInDim S192x128 (![] : Fin 0 → Fin S192x128.rank)
  transposes_S128x128_S128x128_1_0 : S128x128.Transposes [1, 0] S128x128
  transposes_S2048x128_S128x2048_1_0 : S2048x128.Transposes [1, 0] S128x2048
  bcast_S2048_S1x2048_1 : S2048.BroadcastsInDim S1x2048 (![1] : Fin 1 → Fin S1x2048.rank)
  bcast_S1x2048_S192x2048_0_1 : S1x2048.BroadcastsInDim S192x2048 (![0, 1] : Fin 2 → Fin S192x2048.rank)
  bcast_S_S192x2048 : S_.BroadcastsInDim S192x2048 (![] : Fin 0 → Fin S192x2048.rank)
  bcast_S192x2048_S1x192x2048_1_2 : S192x2048.BroadcastsInDim S1x192x2048 (![1, 2] : Fin 2 → Fin S1x192x2048.rank)
  bcast_S1x192x2048_S192x192x2048_0_1_2 : S1x192x2048.BroadcastsInDim S192x192x2048 (![0, 1, 2] : Fin 3 → Fin S192x192x2048.rank)
  reducesTo_S192x192x2048_S192x192_d2 : S192x192x2048.ReducesTo [2] S192x192
  h_S_ : 0 < S_.numel
  reducesTo_S192x2048_S192_d1 : S192x2048.ReducesTo [1] S192
  bcast_S_S192 : S_.BroadcastsInDim S192 (![] : Fin 0 → Fin S192.rank)
  bcast_S_S192x192 : S_.BroadcastsInDim S192x192 (![] : Fin 0 → Fin S192x192.rank)
  bcast_S192_S1x192_1 : S192.BroadcastsInDim S1x192 (![1] : Fin 1 → Fin S1x192.rank)
  bcast_S_S1x192 : S_.BroadcastsInDim S1x192 (![] : Fin 0 → Fin S1x192.rank)
  bcast_S1x192_S192x192_0_1 : S1x192.BroadcastsInDim S192x192 (![0, 1] : Fin 2 → Fin S192x192.rank)
  dot_S192x2048_S2048x128_S192x128_1_0_0_1_n_n_wf : DotDims.WF S192x2048 S2048x128 S192x128 [1] [0] [0] [1] [] []
  dot_S192x128_S128x128_S192x128_1_0_0_1_n_n_wf : DotDims.WF S192x128 S128x128 S192x128 [1] [0] [0] [1] [] []
  dot_S192x128_S128x2048_S192x2048_1_0_0_1_n_n_wf : DotDims.WF S192x128 S128x2048 S192x2048 [1] [0] [0] [1] [] []

variable [Facts₀]

def dot_S192x2048_S2048x128_S192x128_1_0_0_1_n_n : DotDims S192x2048 S2048x128 S192x128 where
  lhsContracting := [1]
  rhsContracting := [0]
  lhsNonContracting := [0]
  rhsNonContracting := [1]
  lhsBatch := []
  rhsBatch := []
  wf := dot_S192x2048_S2048x128_S192x128_1_0_0_1_n_n_wf
def dot_S192x128_S128x128_S192x128_1_0_0_1_n_n : DotDims S192x128 S128x128 S192x128 where
  lhsContracting := [1]
  rhsContracting := [0]
  lhsNonContracting := [0]
  rhsNonContracting := [1]
  lhsBatch := []
  rhsBatch := []
  wf := dot_S192x128_S128x128_S192x128_1_0_0_1_n_n_wf
def dot_S192x128_S128x2048_S192x2048_1_0_0_1_n_n : DotDims S192x128 S128x2048 S192x2048 where
  lhsContracting := [1]
  rhsContracting := [0]
  lhsNonContracting := [0]
  rhsNonContracting := [1]
  lhsBatch := []
  rhsBatch := []
  wf := dot_S192x128_S128x2048_S192x2048_1_0_0_1_n_n_wf

class Facts : Prop extends Facts₀ where

variable [Facts]
-- ==== Proof.K.Head.lean ====
/-
  Region 0 of @main, the head kernel (one grid point, sixteen windows: thirteen inputs fetched whole, three outputs
  stored whole), stated at a PARAMETER `V`: the TensorCore's buffer contents when the region is entered. Each input's
  staging buffer holds its block; the body leaves in each output's buffer the one whole-block store of that output's
  payload (the mean head, the scale `exp (lv / 4)`, the row of half log-determinants) of the input blocks; the region
  invariant is the class's (the scoped rest and the generator register, untouched); nothing is owed. Any `F`.
-/
import proofs.«152655_j7894149890238_2_alg».proof.Proof.Gen.Kernel.Launch
import proofs.«152655_j7894149890238_2_alg».proof.Proof.Gen.Kernel.Skeleton
import proofs.«152655_j7894149890238_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Head
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, for any proof data over `V`'s arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, for any proof data over `V`'s arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, for any proof data over `V`'s arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, for any proof data over `V`'s arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, for any proof data over `V`'s arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, for any proof data over `V`'s arrays whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, for any proof data over `V`'s arrays whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, for any proof data over `V`'s arrays whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block at every point, for any proof data over `V`'s arrays whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block at every point, for any proof data over `V`'s arrays whose body leaves the block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's staging buffer holds its block at every point, for any proof data over `V`'s arrays whose body leaves the block in place. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's staging buffer holds its block at every point, for any proof data over `V`'s arrays whose body leaves the block in place. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output's buffer: its one whole-block store, as a piece -/

/-- The mean head's block: three dense layers, each clamped at zero, of the input blocks. -/
def out0_13 (x0 : Vec F S192x2048 .f32) (x1 : Vec F S2048x128 .f32) (x2 : Vec F S1x128 .f32) (x3 : Vec F S128x128 .f32) (x4 : Vec F S1x128 .f32) (x5 : Vec F S128x2048 .f32) (x6 : Vec F S1x2048 .f32) (x7 : Vec F S2048x128 .f32) (x8 : Vec F S1x128 .f32) (x9 : Vec F S128x128 .f32) (x10 : Vec F S1x128 .f32) (x11 : Vec F S128x2048 .f32) (x12 : Vec F S1x2048 .f32) : Vec F S192x2048 .f32 :=
  View.canon [⟨(Rect.unit (s := S192x2048) ![0, 0] S192x2048.size inb_S192x2048_S192x2048_0_0), k0_pay4 (View.ld x0 (Rect.unit (s := S192x2048) ![0, 0] S192x2048.size inb_S192x2048_S192x2048_0_0)) (View.ld x1 (Rect.unit (s := S2048x128) ![0, 0] S2048x128.size inb_S2048x128_S2048x128_0_0)) (View.ld x2 (Rect.unit (s := S1x128) ![0, 0] S1x128.size inb_S1x128_S1x128_0_0)) (View.ld x3 (Rect.unit (s := S128x128) ![0, 0] S128x128.size inb_S128x128_S128x128_0_0)) (View.ld x4 (Rect.unit (s := S1x128) ![0, 0] S1x128.size inb_S1x128_S1x128_0_0)) (View.ld x5 (Rect.unit (s := S128x2048) ![0, 0] S128x2048.size inb_S128x2048_S128x2048_0_0)) (View.ld x6 (Rect.unit (s := S1x2048) ![0, 0] S1x2048.size inb_S1x2048_S1x2048_0_0))⟩]
/-- The scale's block: `exp` of a quarter of the log-variance head. -/
def out0_14 (x0 : Vec F S192x2048 .f32) (x1 : Vec F S2048x128 .f32) (x2 : Vec F S1x128 .f32) (x3 : Vec F S128x128 .f32) (x4 : Vec F S1x128 .f32) (x5 : Vec F S128x2048 .f32) (x6 : Vec F S1x2048 .f32) (x7 : Vec F S2048x128 .f32) (x8 : Vec F S1x128 .f32) (x9 : Vec F S128x128 .f32) (x10 : Vec F S1x128 .f32) (x11 : Vec F S128x2048 .f32) (x12 : Vec F S1x2048 .f32) : Vec F S192x2048 .f32 :=
  View.canon [⟨(Rect.unit (s := S192x2048) ![0, 0] S192x2048.size inb_S192x2048_S192x2048_0_0), k0_pay2 (k0_pay5 (View.ld x0 (Rect.unit (s := S192x2048) ![0, 0] S192x2048.size inb_S192x2048_S192x2048_0_0)) (View.ld x7 (Rect.unit (s := S2048x128) ![0, 0] S2048x128.size inb_S2048x128_S2048x128_0_0))) (k0_pay6 (View.ld x8 (Rect.unit (s := S1x128) ![0, 0] S1x128.size inb_S1x128_S1x128_0_0))) (View.ld x9 (Rect.unit (s := S128x128) ![0, 0] S128x128.size inb_S128x128_S128x128_0_0)) (View.ld x10 (Rect.unit (s := S1x128) ![0, 0] S1x128.size inb_S1x128_S1x128_0_0)) (View.ld x11 (Rect.unit (s := S128x2048) ![0, 0] S128x2048.size inb_S128x2048_S128x2048_0_0)) (View.ld x12 (Rect.unit (s := S1x2048) ![0, 0] S1x2048.size inb_S1x2048_S1x2048_0_0))⟩]
/-- The row of half log-determinants: half the lane sum of the log-variance head, laid out as one row. -/
def out0_15 (x0 : Vec F S192x2048 .f32) (x1 : Vec F S2048x128 .f32) (x2 : Vec F S1x128 .f32) (x3 : Vec F S128x128 .f32) (x4 : Vec F S1x128 .f32) (x5 : Vec F S128x2048 .f32) (x6 : Vec F S1x2048 .f32) (x7 : Vec F S2048x128 .f32) (x8 : Vec F S1x128 .f32) (x9 : Vec F S128x128 .f32) (x10 : Vec F S1x128 .f32) (x11 : Vec F S128x2048 .f32) (x12 : Vec F S1x2048 .f32) : Vec F S1x192 .f32 :=
  View.canon [⟨(Rect.unit (s := S1x192) ![0, 0] S1x192.size inb_S1x192_S1x192_0_0), k0_pay3 (k0_pay5 (View.ld x0 (Rect.unit (s := S192x2048) ![0, 0] S192x2048.size inb_S192x2048_S192x2048_0_0)) (View.ld x7 (Rect.unit (s := S2048x128) ![0, 0] S2048x128.size inb_S2048x128_S2048x128_0_0))) (k0_pay6 (View.ld x8 (Rect.unit (s := S1x128) ![0, 0] S1x128.size inb_S1x128_S1x128_0_0))) (View.ld x9 (Rect.unit (s := S128x128) ![0, 0] S128x128.size inb_S128x128_S128x128_0_0)) (View.ld x10 (Rect.unit (s := S1x128) ![0, 0] S1x128.size inb_S1x128_S1x128_0_0)) (View.ld x11 (Rect.unit (s := S128x2048) ![0, 0] S128x2048.size inb_S128x2048_S128x2048_0_0)) (View.ld x12 (Rect.unit (s := S1x2048) ![0, 0] S1x2048.size inb_S1x2048_S1x2048_0_0))⟩]

/-- One whole-block store covers the buffer. -/
theorem cover0_L (p0 : Vec F S192x2048 .f32) (y : S192x2048.Idx) :
    ∃ pc ∈ ([⟨(Rect.unit (s := S192x2048) ![0, 0] S192x2048.size inb_S192x2048_S192x2048_0_0), p0⟩] : List (View.Piece (Elt F) S192x2048 .f32)), y ∈ pc.1.set :=
  View.cover_of_tiled [⟨(Rect.unit (s := S192x2048) ![0, 0] S192x2048.size inb_S192x2048_S192x2048_0_0), p0⟩] S192x2048.size (by rfl) y
theorem cover0_R (p0 : Vec F S1x192 .f32) (y : S1x192.Idx) :
    ∃ pc ∈ ([⟨(Rect.unit (s := S1x192) ![0, 0] S1x192.size inb_S1x192_S1x192_0_0), p0⟩] : List (View.Piece (Elt F) S1x192 .f32)), y ∈ pc.1.set :=
  View.cover_of_tiled [⟨(Rect.unit (s := S1x192) ![0, 0] S1x192.size inb_S1x192_S1x192_0_0), p0⟩] S1x192.size (by rfl) y

/-! ## The body's triple -/

set_option maxHeartbeats 4000000 in
/-- On whole staging memrefs, the inputs' at contents `xW` and the outputs' at anything, the body runs to the continuation
    holding the inputs' as they were and each output's at its piece read back. -/
theorem sound_kernel0 (c : Dev nD) (E : Set ℕ) (i : grid0.Coords) (arg1 : Memref sig .tc .vmem S192x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x2048 .f32) (harg6 : arg6.IsWhole) (arg7 : Memref sig .tc .vmem S1x2048 .f32) (harg7 : arg7.IsWhole) (arg8 : Memref sig .tc .vmem S2048x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x2048 .f32) (harg12 : arg12.IsWhole) (arg13 : Memref sig .tc .vmem S1x2048 .f32) (harg13 : arg13.IsWhole) (arg14 : Memref sig .tc .vmem S192x2048 .f32) (harg14 : arg14.IsWhole) (arg15 : Memref sig .tc .vmem S192x2048 .f32) (harg15 : arg15.IsWhole) (arg16 : Memref sig .tc .vmem S1x192 .f32) (harg16 : arg16.IsWhole)
    (x0 : Vec F S192x2048 .f32) (x1 : Vec F S2048x128 .f32) (x2 : Vec F S1x128 .f32) (x3 : Vec F S128x128 .f32) (x4 : Vec F S1x128 .f32) (x5 : Vec F S128x2048 .f32) (x6 : Vec F S1x2048 .f32) (x7 : Vec F S2048x128 .f32) (x8 : Vec F S1x128 .f32) (x9 : Vec F S128x128 .f32) (x10 : Vec F S1x128 .f32) (x11 : Vec F S128x2048 .f32) (x12 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12)) -∗ K ⟨⟩))
      ⊢ wp frame (wpE (defs₀ (F := F)) Variants.none c none) E (cc0__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__head_kernel_eq_skeleton]; unfold cc0__head_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover0_L _)
  isplitl [H14]
  · iexists _; isplitr
    swap; · iexact H14
    ipureintro
    exact View.read_writes_eq_canon _ _ _ (cover0_L _)
  iexists _; isplitr
  swap; · iexact H15
  ipureintro
  exact View.read_writes_eq_canon _ _ _ (cover0_R _)

end Head

section HeadData
variable (V : (c : Dev nD) → (b : Ref sig .tc) → Buf (Elt F) ((c : Thread nD τ).loc b))

/-! ## The pipeline's proof data -/

/-- The input blocks at the one point, in window order. -/
abbrev outArgs0 (c : Dev nD) (t : Fin cfg0.N) := (iblk0 V c 0 t, iblk0 V c 1 t, iblk0 V c 2 t, iblk0 V c 3 t, iblk0 V c 4 t, iblk0 V c 5 t, iblk0 V c 6 t, iblk0 V c 7 t, iblk0 V c 8 t, iblk0 V c 9 t, iblk0 V c 10 t, iblk0 V c 11 t, iblk0 V c 12 t)

/-- The proof data of pipeline 0 on core `c`: the arrays as the region finds them; after the body each input's buffer at
    its block and each output's at its piece of the input blocks; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    | ⟨_ + 16, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

set_option maxHeartbeats 4000000 in
/-- The body at the point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation0 (c : Dev nD) : BodyObligation (dat0 (F := F) V c) (defs₀ (F := F)) Variants.none () Set.univ := fun t => by
  rw [bigSep_W0, bigSep_W0]
  exact sound_body0 V c t

end HeadData

end Cert.Kernel.Fr

end
-- ==== Proof.K.SampleBase.lean ====
/-
  Region 1 of @main, the sample kernel (a 6 × 4 grid: the sample-axis tile outermost, the feature-axis chunk innermost),
  stated at a PARAMETER `V`: what its three cases are stated over. The body zeroes a scratch accumulator at the first
  chunk of a tile, adds the chunk's row sums of squares at every chunk, and at the last chunk writes the tile of
  log-probabilities; so the scratch is carried from point to point and the log-probability window is idle (no store,
  not written back) except at the last chunk. Here: the windows' blocks, the two branch conditions in closed form over
  the grid, where the log-probability window is idle, the memrefs the body is called with, and the class's region
  invariant with the carried scratch split out of the scoped rest. Any `F`.
-/
import proofs.«152655_j7894149890238_2_alg».proof.Proof.Gen.Kernel.Launch
import proofs.«152655_j7894149890238_2_alg».proof.Proof.Gen.Kernel.Skeleton
import proofs.«152655_j7894149890238_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data over `V`'s arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data over `V`'s arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data over `V`'s arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions, in closed form over the grid -/

/-- "This is the first feature chunk of the tile": the body zeroes the accumulator. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last feature chunk of the tile": the body writes the tile of log-probabilities. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At a first chunk the log-probability window is idle and not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- At a middle chunk too. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At a last chunk it is live: the body stores its whole block. -/
theorem liveAt1_5_C : ∀ t : Fin cfg1.N, ¬cond1_0 (grid1.coords t) → cond1_1 (grid1.coords t) → cfg1.idle 5 (grid1.coords t) = false := by decide +kernel

/-! ## The memrefs the body is called with -/

/-- One staging buffer of each output window, through which its contents are stated. -/
abbrev VO1_4 : View sig .tc .vmem S32x192x512 .f32 := (Memref.whole cc1_stg4_0 : Memref sig .tc .vmem S32x192x512 .f32).view
abbrev VO1_5 : View sig .tc .vmem S32x192 .f32 := (Memref.whole cc1_stg5_0 : Memref sig .tc .vmem S32x192 .f32).view
abbrev ms1_0 (t : Fin cfg1.N) : Memref sig .tc .vmem S32x192x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S192x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S192x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x192 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x192x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x192 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows, carried between points. -/
abbrev scM1_0 : Memref sig .tc .vmem S32x192 .f32 := Memref.whole cc1_scratch0
abbrev VS1_0 : View sig .tc .vmem S32x192 .f32 := scM1_0.view

/-! ## The class's region invariant, the accumulator split out -/

/-- The scoped rest of this call split at its own scratch: the accumulator whole at some contents, the remainder (the other
    call's staging buffers) unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The remainder of the scoped rest, carried unopened through every point. -/
abbrev others1 (c : Dev nD) : sProp 𝕄 :=
  Pipeline.scopedRestBut (Ix := Unit) (Name := ℕ) (U := UR sig nD τ) (Lvl := ℕ) (Val := Elt F) spec1 c [cc1_scratch0]

/-- The class's invariant with the accumulator as a memref owned at some contents. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA; rw [scopedRest1_split]; simp only [scM1_0, owns_whole]; try rfl

end Cert.Kernel.Fr

end
-- ==== Proof.K.SampleRunA.lean ====
/-
  The sample kernel's body at a FIRST feature chunk of a tile (the accumulator is zeroed, then stepped; the
  log-probability block is not stored): its whole run, the pieces each buffer ends with being the witness. Any `F`.
-/
import proofs.«152655_j7894149890238_2_alg».proof.Proof.K.SampleBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in each buffer it stores into (last first), with the body's triple on whole
    staging memrefs: the inputs' at their contents and handed back as they were; the sample block's buffer at anything and
    handed back with its pieces written; the accumulator handed back with its pieces written. -/
noncomputable def kernelRun1_A (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : cond1_0 i) (hc1 : ¬cond1_1 i)
    (x0 : Vec F S32x192x512 .f32) (x1 : Vec F S192x2048 .f32) (x2 : Vec F S192x2048 .f32) (x3 : Vec F S1x192 .f32) :
    Σ' (L4 : List (View.Piece (Elt F) S32x192x512 .f32)) (L5 : List (View.Piece (Elt F) S32x192 .f32)), { LS0 : List (View.Piece (Elt F) S32x192 .f32) //
      ∀ (xi5 : Vec F S32x192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__sample_kernel i arg2 harg2 arg3 harg3 arg4 harg4 arg5 harg5 arg6 harg6 arg7 harg7 arg8 harg8) K } := by
  refine ⟨?_, [], ?_, fun xi5 E K => ?run⟩
  case run =>
    simp only [cc1__sample_kernel_eq_skeleton]; unfold cc1__sample_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.Kernel.Fr

end
-- ==== Proof.K.SampleRunB.lean ====
/-
  The sample kernel's body at a MIDDLE feature chunk of a tile (the accumulator, at what the point before left, is
  stepped; the log-probability block is not stored): its whole run, the pieces each buffer ends with being the witness.
  Any `F`.
-/
import proofs.«152655_j7894149890238_2_alg».proof.Proof.K.SampleBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in each buffer it stores into (last first), with the body's triple on whole
    staging memrefs: the inputs' at their contents and handed back as they were; the sample block's buffer at anything and
    handed back with its pieces written; the accumulator handed back with its pieces written. -/
noncomputable def kernelRun1_B (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : ¬cond1_1 i)
    (x0 : Vec F S32x192x512 .f32) (x1 : Vec F S192x2048 .f32) (x2 : Vec F S192x2048 .f32) (x3 : Vec F S1x192 .f32) (xs0 : Vec F S32x192 .f32) :
    Σ' (L4 : List (View.Piece (Elt F) S32x192x512 .f32)) (L5 : List (View.Piece (Elt F) S32x192 .f32)), { LS0 : List (View.Piece (Elt F) S32x192 .f32) //
      ∀ (xi5 : Vec F S32x192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__sample_kernel i arg2 harg2 arg3 harg3 arg4 harg4 arg5 harg5 arg6 harg6 arg7 harg7 arg8 harg8) K } := by
  refine ⟨?_, [], ?_, fun xi5 E K => ?run⟩
  case run =>
    simp only [cc1__sample_kernel_eq_skeleton]; unfold cc1__sample_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.Kernel.Fr

end
-- ==== Proof.K.SampleRunC.lean ====
/-
  The sample kernel's body at the LAST feature chunk of a tile (the accumulator, at what the point before left, is
  stepped, and the tile of log-probabilities is stored whole): its whole run, the pieces each buffer ends with being the
  witness. Any `F`.
-/
import proofs.«152655_j7894149890238_2_alg».proof.Proof.K.SampleBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in each buffer it stores into (last first), with the body's triple on whole
    staging memrefs: the inputs' at their contents and handed back as they were; the sample block's buffer at anything and
    handed back with its pieces written; the accumulator handed back with its pieces written. -/
noncomputable def kernelRun1_C (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) :
    Σ' (L4 : List (View.Piece (Elt F) S32x192x512 .f32)) (L5 : List (View.Piece (Elt F) S32x192 .f32)), { LS0 : List (View.Piece (Elt F) S32x192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__sample_kernel i arg2 harg2 arg3 harg3 arg4 harg4 arg5 harg5 arg6 harg6 arg7 harg7 arg8 harg8) K } := by
  refine ⟨?_, ?_, ?_, fun E K => ?run⟩
  case run =>
    simp only [cc1__sample_kernel_eq_skeleton]; unfold cc1__sample_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.Kernel.Fr

end
-- ==== Proof.K.Sample.lean ====
/-
  Region 1 of @main, the sample kernel, at a PARAMETER `V` (the buffer contents when the region is entered): what each of
  the body's three cases leaves in the sample block, in the log-probability block and in the accumulator; what they hold
  point by point (the accumulator of a point read by the next); the region invariant that carries the accumulator at that
  named value from the second point on; the proof data; and the body obligation, case by case. Any `F`.
-/
import proofs.«152655_j7894149890238_2_alg».proof.Proof.K.SampleRunA
import proofs.«152655_j7894149890238_2_alg».proof.Proof.K.SampleRunB
import proofs.«152655_j7894149890238_2_alg».proof.Proof.K.SampleRunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Case A -/

/-- The stores into the sample block's buffer tile it (one whole-block store). -/
theorem cover1_A_4 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : cond1_0 i) (hc1 : ¬cond1_1 i)
    (x0 : Vec F S32x192x512 .f32) (x1 : Vec F S192x2048 .f32) (x2 : Vec F S192x2048 .f32) (x3 : Vec F S1x192 .f32) (y : S32x192x512.Idx) :
    ∃ pc ∈ (kernelRun1_A c i arg2 harg2 arg3 harg3 arg4 harg4 arg5 harg5 arg6 harg6 arg7 harg7 arg8 harg8 hc0 hc1 x0 x1 x2 x3).1, y ∈ pc.1.set :=
  View.cover_of_tiledL (kernelRun1_A c i arg2 harg2 arg3 harg3 arg4 harg4 arg5 harg5 arg6 harg6 arg7 harg7 arg8 harg8 hc0 hc1 x0 x1 x2 x3).1 S32x192x512.size (by sl_kernel_rfl) y
/-- What the case leaves in the sample block's buffer: its pieces read back. -/
def out1_A_4 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : cond1_0 i) (hc1 : ¬cond1_1 i)
    (x0 : Vec F S32x192x512 .f32) (x1 : Vec F S192x2048 .f32) (x2 : Vec F S192x2048 .f32) (x3 : Vec F S1x192 .f32) : Vec F S32x192x512 .f32 :=
  VO1_4.read (Elt F) (VO1_4.writes (Elt F) VO1_4.junk (kernelRun1_A c i arg2 harg2 arg3 harg3 arg4 harg4 arg5 harg5 arg6 harg6 arg7 harg7 arg8 harg8 hc0 hc1 x0 x1 x2 x3).1)
/-- What the case leaves in the log-probability block's buffer is nothing (the window is idle there): a placeholder nothing consults. -/
def out1_A_5 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : cond1_0 i) (hc1 : ¬cond1_1 i)
    (x0 : Vec F S32x192x512 .f32) (x1 : Vec F S192x2048 .f32) (x2 : Vec F S192x2048 .f32) (x3 : Vec F S1x192 .f32) : Vec F S32x192 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3).2.1)
/-- The stores into the accumulator cover it. -/
theorem scover1_A_0 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : cond1_0 i) (hc1 : ¬cond1_1 i)
    (x0 : Vec F S32x192x512 .f32) (x1 : Vec F S192x2048 .f32) (x2 : Vec F S192x2048 .f32) (x3 : Vec F S1x192 .f32) (y : S32x192.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S32x192.size (by sl_kernel_rfl) y
/-- What the case leaves in the accumulator: its pieces read back. -/
def sout1_A_0 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : cond1_0 i) (hc1 : ¬cond1_1 i)
    (x0 : Vec F S32x192x512 .f32) (x1 : Vec F S192x2048 .f32) (x2 : Vec F S192x2048 .f32) (x3 : Vec F S1x192 .f32) : Vec F S32x192 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.2.1)

/-! ## Case B -/

/-- The stores into the sample block's buffer tile it (one whole-block store). -/
theorem cover1_B_4 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : ¬cond1_1 i)
    (x0 : Vec F S32x192x512 .f32) (x1 : Vec F S192x2048 .f32) (x2 : Vec F S192x2048 .f32) (x3 : Vec F S1x192 .f32) (xs0 : Vec F S32x192 .f32) (y : S32x192x512.Idx) :
    ∃ pc ∈ (kernelRun1_B c i arg2 harg2 arg3 harg3 arg4 harg4 arg5 harg5 arg6 harg6 arg7 harg7 arg8 harg8 hc0 hc1 x0 x1 x2 x3 xs0).1, y ∈ pc.1.set :=
  View.cover_of_tiledL (kernelRun1_B c i arg2 harg2 arg3 harg3 arg4 harg4 arg5 harg5 arg6 harg6 arg7 harg7 arg8 harg8 hc0 hc1 x0 x1 x2 x3 xs0).1 S32x192x512.size (by sl_kernel_rfl) y
/-- What the case leaves in the sample block's buffer: its pieces read back. -/
def out1_B_4 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : ¬cond1_1 i)
    (x0 : Vec F S32x192x512 .f32) (x1 : Vec F S192x2048 .f32) (x2 : Vec F S192x2048 .f32) (x3 : Vec F S1x192 .f32) (xs0 : Vec F S32x192 .f32) : Vec F S32x192x512 .f32 :=
  VO1_4.read (Elt F) (VO1_4.writes (Elt F) VO1_4.junk (kernelRun1_B c i arg2 harg2 arg3 harg3 arg4 harg4 arg5 harg5 arg6 harg6 arg7 harg7 arg8 harg8 hc0 hc1 x0 x1 x2 x3 xs0).1)
/-- What the case leaves in the log-probability block's buffer is nothing (the window is idle there): a placeholder nothing consults. -/
def out1_B_5 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : ¬cond1_1 i)
    (x0 : Vec F S32x192x512 .f32) (x1 : Vec F S192x2048 .f32) (x2 : Vec F S192x2048 .f32) (x3 : Vec F S1x192 .f32) (xs0 : Vec F S32x192 .f32) : Vec F S32x192 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 xs0).2.1)
/-- The stores into the accumulator cover it. -/
theorem scover1_B_0 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : ¬cond1_1 i)
    (x0 : Vec F S32x192x512 .f32) (x1 : Vec F S192x2048 .f32) (x2 : Vec F S192x2048 .f32) (x3 : Vec F S1x192 .f32) (xs0 : Vec F S32x192 .f32) (y : S32x192.Idx) :
    ∃ pc ∈ (kernelRun1_B c i arg2 harg2 arg3 harg3 arg4 harg4 arg5 harg5 arg6 harg6 arg7 harg7 arg8 harg8 hc0 hc1 x0 x1 x2 x3 xs0).2.2.1, y ∈ pc.1.set :=
  View.cover_of_tiledL (kernelRun1_B c i arg2 harg2 arg3 harg3 arg4 harg4 arg5 harg5 arg6 harg6 arg7 harg7 arg8 harg8 hc0 hc1 x0 x1 x2 x3 xs0).2.2.1 S32x192.size (by sl_kernel_rfl) y
/-- What the case leaves in the accumulator: its pieces read back. -/
def sout1_B_0 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : ¬cond1_1 i)
    (x0 : Vec F S32x192x512 .f32) (x1 : Vec F S192x2048 .f32) (x2 : Vec F S192x2048 .f32) (x3 : Vec F S1x192 .f32) (xs0 : Vec F S32x192 .f32) : Vec F S32x192 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0).2.2.1)

/-! ## Case C -/

/-- The stores into the sample block's buffer tile it (one whole-block store). -/
theorem cover1_C_4 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) (y : S32x192x512.Idx) :
    ∃ pc ∈ (kernelRun1_C c i arg2 harg2 arg3 harg3 arg4 harg4 arg5 harg5 arg6 harg6 arg7 harg7 arg8 harg8 hc0 hc1 x0 x1 x2 x3 xs0).1, y ∈ pc.1.set :=
  View.cover_of_tiledL (kernelRun1_C c i arg2 harg2 arg3 harg3 arg4 harg4 arg5 harg5 arg6 harg6 arg7 harg7 arg8 harg8 hc0 hc1 x0 x1 x2 x3 xs0).1 S32x192x512.size (by sl_kernel_rfl) y
/-- What the case leaves in the sample block's buffer: its pieces read back. -/
def out1_C_4 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) : Vec F S32x192x512 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0).1)
/-- The stores into the log-probability block's buffer tile it (one whole-block store). -/
theorem cover1_C_5 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) (y : S32x192.Idx) :
    ∃ pc ∈ (kernelRun1_C c i arg2 harg2 arg3 harg3 arg4 harg4 arg5 harg5 arg6 harg6 arg7 harg7 arg8 harg8 hc0 hc1 x0 x1 x2 x3 xs0).2.1, y ∈ pc.1.set :=
  View.cover_of_tiledL (kernelRun1_C c i arg2 harg2 arg3 harg3 arg4 harg4 arg5 harg5 arg6 harg6 arg7 harg7 arg8 harg8 hc0 hc1 x0 x1 x2 x3 xs0).2.1 S32x192.size (by sl_kernel_rfl) y
/-- What the case leaves in the log-probability block's buffer: its pieces read back. -/
def out1_C_5 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) : Vec F S32x192 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 xs0).2.1)
/-- The stores into the accumulator cover it. -/
theorem scover1_C_0 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) (y : S32x192.Idx) :
    ∃ pc ∈ (kernelRun1_C c i arg2 harg2 arg3 harg3 arg4 harg4 arg5 harg5 arg6 harg6 arg7 harg7 arg8 harg8 hc0 hc1 x0 x1 x2 x3 xs0).2.2.1, y ∈ pc.1.set :=
  View.cover_of_tiledL (kernelRun1_C c i arg2 harg2 arg3 harg3 arg4 harg4 arg5 harg5 arg6 harg6 arg7 harg7 arg8 harg8 hc0 hc1 x0 x1 x2 x3 xs0).2.2.1 S32x192.size (by sl_kernel_rfl) y
/-- What the case leaves in the accumulator: its pieces read back. -/
def sout1_C_0 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) : Vec F S32x192 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0).2.2.1)

section Points
variable (V : (c : Dev nD) → (b : Ref sig .tc) → Buf (Elt F) ((c : Thread nD τ).loc b))

/-! ## What the buffers hold after each point -/

/-- What the sample block's buffer, the log-probability block's buffer and the accumulator hold after the body at position
    `n`: the case the closed forms select there, run at the point's memrefs and input blocks, the accumulator read at what
    position `n - 1` left (at a first chunk it is zeroed before it is read, so nothing is read). -/
def outsAt1 (c : Dev nD) : (n : ℕ) → n < cfg1.N → Vec F S32x192x512 .f32 × Vec F S32x192 .f32 × Vec F S32x192 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class's invariant (the accumulator at anything); afterwards the
    accumulator at what the point before left, the remainder of the scoped rest unopened, the generator register at some
    state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ others1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2.2) ∗ others1 (F := F) c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.2) ∗ others1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 16000000 in
/-- The body at any point: the inputs' memrefs hold their blocks; the closed forms say which case the point is in; the
    invariant hands the body the accumulator at what the point before left (at anything before the first point, and at a
    first chunk its named contents are forgotten, the body zeroing it before reading) and takes it back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 24 := lt_of_lt_of_eq t.isLt (show cfg1.N = 24 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [show (dat1 V c).leavesExact 3 t = owns (c : Thread nD τ) (ms1_3 t) fullShare ((dat1 V c).after 3 t) from by
          unfold Dat.leavesExact; rw [liveAt1_3 t], after1_3]
      rw [show (dat1 V c).leavesExact 4 t = owns (c : Thread nD τ) (ms1_4 t) fullShare ((dat1 V c).after 4 t) from by
          unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold out1_A_4 sout1_A_0; (try dsimp only)
      by_cases hz : t.val = 0
      · rw [PhiS_castSucc V c t, PhiS_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _)
        iexists _; iexact H5
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexists _; iexact HS0
        iintro ⟨H0, H1, H2, H3, ⟨%e4, H4⟩, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _)
        iexists _; iexact H5
  · by_cases h1 : t.val % 4 = 3
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [show (dat1 V c).leavesExact 3 t = owns (c : Thread nD τ) (ms1_3 t) fullShare ((dat1 V c).after 3 t) from by
          unfold Dat.leavesExact; rw [liveAt1_3 t], after1_3]
      rw [show (dat1 V c).leavesExact 4 t = owns (c : Thread nD τ) (ms1_4 t) fullShare ((dat1 V c).after 4 t) from by
          unfold Dat.leavesExact; rw [liveAt1_4 t], after1_4]
      rw [show (dat1 V c).leavesExact 5 t = owns (c : Thread nD τ) (ms1_5 t) fullShare ((dat1 V c).after 5 t) from by
          unfold Dat.leavesExact; rw [liveAt1_5_C t (fun h => h0 ((hcond1_0 t).mp h)) ((hcond1_1 t).mpr h1)], after1_5]
      rw [outsAt1_C V c t h0 h1]
      unfold out1_C_4 out1_C_5 sout1_C_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _)
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [show (dat1 V c).leavesExact 3 t = owns (c : Thread nD τ) (ms1_3 t) fullShare ((dat1 V c).after 3 t) from by
          unfold Dat.leavesExact; rw [liveAt1_3 t], after1_3]
      rw [show (dat1 V c).leavesExact 4 t = owns (c : Thread nD τ) (ms1_4 t) fullShare ((dat1 V c).after 4 t) from by
          unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold out1_B_4 sout1_B_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _)
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, Hoth⟩, Hg⟩
  isplitl [HS0 Hoth]
  · isplitl [HS0]
    · iexists _; iexact HS0
    iexact Hoth
  iexact Hg

/-- What the region is entered with (the class's invariant) is the invariant before the first point. -/
theorem Phi_in1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

end Points

end Cert.Kernel.Fr

end
-- ==== Proof.K.Run.lean ====
/-
  THE RUN of @main: one stretch of host operations (the weights transposed, the biases reshaped to rows), then the head
  kernel's region, then the sample kernel's region, as a chain of segments. The buffer contents at each segment
  boundary are a fold from the launch memory: after the host stretch the operations' results; after a region its windows'
  arrays at what its write-backs leave, every other buffer as entered. Each region is a segment record over the thread
  state "every unscoped buffer at the boundary's contents, the generator register at some state, nothing owed": region 0
  with the class's invariant; region 1 with the invariant that carries the accumulator, entered from the class's and
  giving it back. The run's post names EVERY unscoped buffer at the last boundary's contents, from which both the frame
  claim (each argument walks back through the fold to its launch contents) and the results' values are read. Any `F`.
-/
import proofs.«152655_j7894149890238_2_alg».proof.Proof.K.Head
import proofs.«152655_j7894149890238_2_alg».proof.Proof.K.Sample
import proofs.«152655_j7894149890238_2_alg».proof.Proof.Gen.Kernel.Regions
import Idealize.ShloMosaic.Lib.Pipeline.RegionsLoop
import Idealize.ShloMosaic.Lib.Pipeline.FrameSuffix

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev Ve0 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (Ve0 m ρ) c).arrAt w cfg0.N
theorem W2_arr (c : Dev nD) (w : Fin cfg0.W) :
    W2 m ρ c (Proc.devRef .tc (Pipeline.arrRef spec0 w)) = (dat0 (Ve0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ve1 : (c : Dev nD) → (b : Ref sig .tc) → Buf (Elt F) ((c : Thread nD τ).loc b) := fun c b => W2 m ρ c b
theorem hF0 (c : Dev nD) (w : Fin cfg0.W) : (dat0 (Ve0 m ρ) c).arrAt w cfg0.N = Ve1 m ρ c (Pipeline.arrRef spec0 w) :=
  (W2_arr m ρ c w).symm
theorem hrest0 (c : Dev nD) : ∀ b, b ∉ Finset.univ.image (Pipeline.arrRef spec0) → Ve1 m ρ c b = Ve0 m ρ c b :=
  fun b hb => W2_of_ne m ρ c b fun w e => hb (Finset.mem_image.mpr ⟨w, Finset.mem_univ _, e⟩)
/-- At region 1's exit: its arrays at what the pipeline leaves, every other buffer as entered. -/
def W3 (c : Dev nD) : Valuation τ sig (Elt F) :=
  Pipeline.withArrays spec1 c (W2 m ρ c) fun w => (dat1 (Ve1 m ρ) c).arrAt w cfg1.N
theorem W3_arr (c : Dev nD) (w : Fin cfg1.W) :
    W3 m ρ c (Proc.devRef .tc (Pipeline.arrRef spec1 w)) = (dat1 (Ve1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vx1 : (c : Dev nD) → (b : Ref sig .tc) → Buf (Elt F) ((c : Thread nD τ).loc b) := fun c b => W3 m ρ c b
theorem hF1 (c : Dev nD) (w : Fin cfg1.W) : (dat1 (Ve1 m ρ) c).arrAt w cfg1.N = Vx1 m ρ c (Pipeline.arrRef spec1 w) :=
  (W3_arr m ρ c w).symm
theorem hrest1 (c : Dev nD) : ∀ b, b ∉ Finset.univ.image (Pipeline.arrRef spec1) → Vx1 m ρ c b = Ve1 m ρ c b :=
  fun b hb => W3_of_ne m ρ c b fun w e => hb (Finset.mem_image.mpr ⟨w, Finset.mem_univ _, e⟩)

/-! ## The proof data family and the thread state -/

abbrev adm' : (p : Fin 2) → (pcfgs (F := F) p).Adm := fun p => (cfgs p).toPCfg_adm
/-- Every pipeline's proof data, each at its region's entry contents: a literal match on the pipeline's index. -/
def pdats : (p : Fin 2) → (c : Dev nD) → Dat τ (Elt F) Unit ℕ (UR sig nD τ) ℕ (Pipeline.pin (pcfgs (F := F)) adm' p) c
  | ⟨0, _⟩ => fun c => dat0 (Ve0 m ρ) c
  | ⟨1, _⟩ => fun c => dat1 (Ve1 m ρ) c
abbrev 𝒱₀ : Variants := Variants.none
abbrev L₀ : GSem nD τ sig → Finset Unit := fun _ => ∅
abbrev lv₀ : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm' (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L₀ lv₀ 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (Ve0 m ρ c) (Ve1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2` (no host operation lies between the two
    calls), left at `W3`. The class's invariant enters the accumulator-carrying invariant before the first point and is
    given back after the last, the accumulator's named contents forgotten. -/
def reg1 : Pipeline.RegionSeg (pcfgs (F := F)) adm' (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ L₀ lv₀ 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Phi_in1 (Ve1 m ρ) c)
    unfold Pipeline.ΦA
    iintro ⟨Hp, -, Hr⟩
    isplitl [Hr]; · iexact Hr
    iexact Hp
  hout c := by
    refine (Phi_out1 (Ve1 m ρ) c (Fin.last _) (by rw [Fin.val_last]; have : cfg1.N = 24 := N_1; omega)).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (Ve1 m ρ c) (Vx1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs : List (Pipeline.Seg (pcfgs (F := F)) adm' (pdats m ρ) () defs₀ 𝒱₀ L₀ lv₀) :=
  [ .host (hseg hostOps0 hostOps0_sub hostOps0_fresh (W0 m ρ)),
    .region (reg0 m ρ),
    .region (reg1 m ρ) ]
theorem main_run (c : Dev nD) : main (F := F) c = Pipeline.Seg.run (mainSegs m ρ) := (main_chain c).trans (by chain_rfl)

set_option backward.isDefEq.respectTransparency.types false in
/-- THE RUN: at the compiled mesh, from any memory with zero counters, every weakly fair execution of @main on the
    TensorCores terminates, nothing faulting, and every final state holds every unscoped buffer at the last boundary's
    contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm' (pdats m ρ) () cellOf_inj emb₁ defs₀ 𝒱₀ L₀ lv₀ m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.Kernel.Fr

end
-- ==== Proof.K.Frame.lean ====
/-
  The frame claim and the results' arrays, read off the run's last valuation: no host operation writes an argument and no
  region changes one (a region reads it through an input window, whose array the pipeline leaves as entered, or bypasses
  it), so the fold at an argument's buffer walks back to the launch memory; the two results are the sample kernel's two
  output windows' arrays at what its write-backs leave. Any `F`.
-/
import proofs.«152655_j7894149890238_2_alg».proof.Proof.K.Run

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no host operation writes holds its launch contents after the host stretch. -/
theorem W1_of (c : Dev nD) (b : Ref sig .tc) (h : b ∉ hostOps0_W) : W1 m ρ c (Proc.devRef .tc b) = m ((c : Thread nD τ).loc b) :=
  StableHlo.after_of_writes_sub hostOps0 _ hostOps0_writes h

theorem W3_main_arg0 (c : Dev nD) : W3 m ρ c (Proc.devRef .tc main_arg0) = m ((c : Thread nD τ).loc main_arg0) :=
  (W3_of_ne m ρ c main_arg0 (by decide)).trans ((W2_arr m ρ c 0).trans (((dat0 (Ve0 m ρ) c).arrAt_in 0 rfl _).trans ((A_eq0 (Ve0 m ρ) c 0).trans (W1_of m ρ c main_arg0 (by decide)))))
theorem W3_main_arg1 (c : Dev nD) : W3 m ρ c (Proc.devRef .tc main_arg1) = m ((c : Thread nD τ).loc main_arg1) :=
  (W3_arr m ρ c 0).trans (((dat1 (Ve1 m ρ) c).arrAt_in 0 rfl _).trans ((A_eq1 (Ve1 m ρ) c 0).trans ((W2_of_ne m ρ c main_arg1 (by decide)).trans (W1_of m ρ c main_arg1 (by decide)))))
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_of m ρ c main_arg2 (by decide)))
theorem W3_main_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_of m ρ c main_arg3 (by decide)))
theorem W3_main_arg4 (c : Dev nD) : W3 m ρ c (Proc.devRef .tc main_arg4) = m ((c : Thread nD τ).loc main_arg4) :=
  (W3_of_ne m ρ c main_arg4 (by decide)).trans ((W2_of_ne m ρ c main_arg4 (by decide)).trans (W1_of m ρ c main_arg4 (by decide)))
theorem W3_main_arg5 (c : Dev nD) : W3 m ρ c (Proc.devRef .tc main_arg5) = m ((c : Thread nD τ).loc main_arg5) :=
  (W3_of_ne m ρ c main_arg5 (by decide)).trans ((W2_of_ne m ρ c main_arg5 (by decide)).trans (W1_of m ρ c main_arg5 (by decide)))
theorem W3_main_arg6 (c : Dev nD) : W3 m ρ c (Proc.devRef .tc main_arg6) = m ((c : Thread nD τ).loc main_arg6) :=
  (W3_of_ne m ρ c main_arg6 (by decide)).trans ((W2_of_ne m ρ c main_arg6 (by decide)).trans (W1_of m ρ c main_arg6 (by decide)))
theorem W3_main_arg7 (c : Dev nD) : W3 m ρ c (Proc.devRef .tc main_arg7) = m ((c : Thread nD τ).loc main_arg7) :=
  (W3_of_ne m ρ c main_arg7 (by decide)).trans ((W2_of_ne m ρ c main_arg7 (by decide)).trans (W1_of m ρ c main_arg7 (by decide)))
theorem W3_main_arg8 (c : Dev nD) : W3 m ρ c (Proc.devRef .tc main_arg8) = m ((c : Thread nD τ).loc main_arg8) :=
  (W3_of_ne m ρ c main_arg8 (by decide)).trans ((W2_of_ne m ρ c main_arg8 (by decide)).trans (W1_of m ρ c main_arg8 (by decide)))
theorem W3_main_arg9 (c : Dev nD) : W3 m ρ c (Proc.devRef .tc main_arg9) = m ((c : Thread nD τ).loc main_arg9) :=
  (W3_of_ne m ρ c main_arg9 (by decide)).trans ((W2_of_ne m ρ c main_arg9 (by decide)).trans (W1_of m ρ c main_arg9 (by decide)))
theorem W3_main_arg10 (c : Dev nD) : W3 m ρ c (Proc.devRef .tc main_arg10) = m ((c : Thread nD τ).loc main_arg10) :=
  (W3_of_ne m ρ c main_arg10 (by decide)).trans ((W2_of_ne m ρ c main_arg10 (by decide)).trans (W1_of m ρ c main_arg10 (by decide)))
theorem W3_main_arg11 (c : Dev nD) : W3 m ρ c (Proc.devRef .tc main_arg11) = m ((c : Thread nD τ).loc main_arg11) :=
  (W3_of_ne m ρ c main_arg11 (by decide)).trans ((W2_of_ne m ρ c main_arg11 (by decide)).trans (W1_of m ρ c main_arg11 (by decide)))
theorem W3_main_arg12 (c : Dev nD) : W3 m ρ c (Proc.devRef .tc main_arg12) = m ((c : Thread nD τ).loc main_arg12) :=
  (W3_of_ne m ρ c main_arg12 (by decide)).trans ((W2_of_ne m ρ c main_arg12 (by decide)).trans (W1_of m ρ c main_arg12 (by decide)))
theorem W3_main_arg13 (c : Dev nD) : W3 m ρ c (Proc.devRef .tc main_arg13) = m ((c : Thread nD τ).loc main_arg13) :=
  (W3_of_ne m ρ c main_arg13 (by decide)).trans ((W2_of_ne m ρ c main_arg13 (by decide)).trans (W1_of m ρ c main_arg13 (by decide)))

/-- THE FRAME at any `F`: every weakly fair execution of @main terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c),
    (h c _ (mem_uc main_arg10 (by decide))).trans (W3_main_arg10 m ρ c),
    (h c _ (mem_uc main_arg11 (by decide))).trans (W3_main_arg11 m ρ c),
    (h c _ (mem_uc main_arg12 (by decide))).trans (W3_main_arg12 m ρ c),
    (h c _ (mem_uc main_arg13 (by decide))).trans (W3_main_arg13 m ρ c)⟩) (run_main m ρ)

/-- The run with the results named: each is its output window's array at what the sample kernel's write-backs leave. -/
theorem run_results : θ_run defs (onTc (τ := τ) (main (F := F))) ⟨m, fun _ => 0, ρ⟩ (fun r => ∀ c : Dev nD,
      r.2.mem ((c.tc : Thread nD τ).loc main_v13_0) = (dat1 (Ve1 m ρ) c).arrAt 4 cfg1.N
      ∧ r.2.mem ((c.tc : Thread nD τ).loc main_v13_1) = (dat1 (Ve1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v13_0 (by decide))).trans (W3_arr m ρ c 4), (h c _ (mem_uc main_v13_1 (by decide))).trans (W3_arr m ρ c 5),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c),
    (h c _ (mem_uc main_arg10 (by decide))).trans (W3_main_arg10 m ρ c),
    (h c _ (mem_uc main_arg11 (by decide))).trans (W3_main_arg11 m ρ c),
    (h c _ (mem_uc main_arg12 (by decide))).trans (W3_main_arg12 m ρ c),
    (h c _ (mem_uc main_arg13 (by decide))).trans (W3_main_arg13 m ρ c)⟩) (run_main m ρ)

end Cert.Kernel.Fr

end
-- ==== Proof.KI.Head.lean ====
/-
  Region 0 of @main, the head kernel (one grid point, sixteen windows: thirteen inputs fetched whole, three outputs
  stored whole), stated at a PARAMETER `V`: the TensorCore's buffer contents when the region is entered. Each input's
  staging buffer holds its block; the body leaves in each output's buffer the one whole-block store of that output's
  payload (the mean head, the scale `exp (lv / 4)`, the row of half log-determinants) of the input blocks; the region
  invariant is the class's (the scoped rest and the generator register, untouched); nothing is owed. Any `F`.
-/
import proofs.«152655_j7894149890238_2_alg».proof.Proof.Gen.KernelIdeal.Launch
import proofs.«152655_j7894149890238_2_alg».proof.Proof.Gen.KernelIdeal.Skeleton
import proofs.«152655_j7894149890238_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Head
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, for any proof data over `V`'s arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, for any proof data over `V`'s arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, for any proof data over `V`'s arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, for any proof data over `V`'s arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, for any proof data over `V`'s arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, for any proof data over `V`'s arrays whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, for any proof data over `V`'s arrays whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, for any proof data over `V`'s arrays whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block at every point, for any proof data over `V`'s arrays whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block at every point, for any proof data over `V`'s arrays whose body leaves the block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's staging buffer holds its block at every point, for any proof data over `V`'s arrays whose body leaves the block in place. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's staging buffer holds its block at every point, for any proof data over `V`'s arrays whose body leaves the block in place. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output's buffer: its one whole-block store, as a piece -/

/-- The mean head's block: three dense layers, each clamped at zero, of the input blocks. -/
def out0_13 (x0 : Vec F S192x2048 .f32) (x1 : Vec F S2048x128 .f32) (x2 : Vec F S1x128 .f32) (x3 : Vec F S128x128 .f32) (x4 : Vec F S1x128 .f32) (x5 : Vec F S128x2048 .f32) (x6 : Vec F S1x2048 .f32) (x7 : Vec F S2048x128 .f32) (x8 : Vec F S1x128 .f32) (x9 : Vec F S128x128 .f32) (x10 : Vec F S1x128 .f32) (x11 : Vec F S128x2048 .f32) (x12 : Vec F S1x2048 .f32) : Vec F S192x2048 .f32 :=
  View.canon [⟨(Rect.unit (s := S192x2048) ![0, 0] S192x2048.size inb_S192x2048_S192x2048_0_0), k0_pay4 (View.ld x0 (Rect.unit (s := S192x2048) ![0, 0] S192x2048.size inb_S192x2048_S192x2048_0_0)) (View.ld x1 (Rect.unit (s := S2048x128) ![0, 0] S2048x128.size inb_S2048x128_S2048x128_0_0)) (View.ld x2 (Rect.unit (s := S1x128) ![0, 0] S1x128.size inb_S1x128_S1x128_0_0)) (View.ld x3 (Rect.unit (s := S128x128) ![0, 0] S128x128.size inb_S128x128_S128x128_0_0)) (View.ld x4 (Rect.unit (s := S1x128) ![0, 0] S1x128.size inb_S1x128_S1x128_0_0)) (View.ld x5 (Rect.unit (s := S128x2048) ![0, 0] S128x2048.size inb_S128x2048_S128x2048_0_0)) (View.ld x6 (Rect.unit (s := S1x2048) ![0, 0] S1x2048.size inb_S1x2048_S1x2048_0_0))⟩]
/-- The scale's block: `exp` of a quarter of the log-variance head. -/
def out0_14 (x0 : Vec F S192x2048 .f32) (x1 : Vec F S2048x128 .f32) (x2 : Vec F S1x128 .f32) (x3 : Vec F S128x128 .f32) (x4 : Vec F S1x128 .f32) (x5 : Vec F S128x2048 .f32) (x6 : Vec F S1x2048 .f32) (x7 : Vec F S2048x128 .f32) (x8 : Vec F S1x128 .f32) (x9 : Vec F S128x128 .f32) (x10 : Vec F S1x128 .f32) (x11 : Vec F S128x2048 .f32) (x12 : Vec F S1x2048 .f32) : Vec F S192x2048 .f32 :=
  View.canon [⟨(Rect.unit (s := S192x2048) ![0, 0] S192x2048.size inb_S192x2048_S192x2048_0_0), k0_pay2 (k0_pay5 (View.ld x0 (Rect.unit (s := S192x2048) ![0, 0] S192x2048.size inb_S192x2048_S192x2048_0_0)) (View.ld x7 (Rect.unit (s := S2048x128) ![0, 0] S2048x128.size inb_S2048x128_S2048x128_0_0))) (k0_pay6 (View.ld x8 (Rect.unit (s := S1x128) ![0, 0] S1x128.size inb_S1x128_S1x128_0_0))) (View.ld x9 (Rect.unit (s := S128x128) ![0, 0] S128x128.size inb_S128x128_S128x128_0_0)) (View.ld x10 (Rect.unit (s := S1x128) ![0, 0] S1x128.size inb_S1x128_S1x128_0_0)) (View.ld x11 (Rect.unit (s := S128x2048) ![0, 0] S128x2048.size inb_S128x2048_S128x2048_0_0)) (View.ld x12 (Rect.unit (s := S1x2048) ![0, 0] S1x2048.size inb_S1x2048_S1x2048_0_0))⟩]
/-- The row of half log-determinants: half the lane sum of the log-variance head, laid out as one row. -/
def out0_15 (x0 : Vec F S192x2048 .f32) (x1 : Vec F S2048x128 .f32) (x2 : Vec F S1x128 .f32) (x3 : Vec F S128x128 .f32) (x4 : Vec F S1x128 .f32) (x5 : Vec F S128x2048 .f32) (x6 : Vec F S1x2048 .f32) (x7 : Vec F S2048x128 .f32) (x8 : Vec F S1x128 .f32) (x9 : Vec F S128x128 .f32) (x10 : Vec F S1x128 .f32) (x11 : Vec F S128x2048 .f32) (x12 : Vec F S1x2048 .f32) : Vec F S1x192 .f32 :=
  View.canon [⟨(Rect.unit (s := S1x192) ![0, 0] S1x192.size inb_S1x192_S1x192_0_0), k0_pay3 (k0_pay5 (View.ld x0 (Rect.unit (s := S192x2048) ![0, 0] S192x2048.size inb_S192x2048_S192x2048_0_0)) (View.ld x7 (Rect.unit (s := S2048x128) ![0, 0] S2048x128.size inb_S2048x128_S2048x128_0_0))) (k0_pay6 (View.ld x8 (Rect.unit (s := S1x128) ![0, 0] S1x128.size inb_S1x128_S1x128_0_0))) (View.ld x9 (Rect.unit (s := S128x128) ![0, 0] S128x128.size inb_S128x128_S128x128_0_0)) (View.ld x10 (Rect.unit (s := S1x128) ![0, 0] S1x128.size inb_S1x128_S1x128_0_0)) (View.ld x11 (Rect.unit (s := S128x2048) ![0, 0] S128x2048.size inb_S128x2048_S128x2048_0_0)) (View.ld x12 (Rect.unit (s := S1x2048) ![0, 0] S1x2048.size inb_S1x2048_S1x2048_0_0))⟩]

/-- One whole-block store covers the buffer. -/
theorem cover0_L (p0 : Vec F S192x2048 .f32) (y : S192x2048.Idx) :
    ∃ pc ∈ ([⟨(Rect.unit (s := S192x2048) ![0, 0] S192x2048.size inb_S192x2048_S192x2048_0_0), p0⟩] : List (View.Piece (Elt F) S192x2048 .f32)), y ∈ pc.1.set :=
  View.cover_of_tiled [⟨(Rect.unit (s := S192x2048) ![0, 0] S192x2048.size inb_S192x2048_S192x2048_0_0), p0⟩] S192x2048.size (by rfl) y
theorem cover0_R (p0 : Vec F S1x192 .f32) (y : S1x192.Idx) :
    ∃ pc ∈ ([⟨(Rect.unit (s := S1x192) ![0, 0] S1x192.size inb_S1x192_S1x192_0_0), p0⟩] : List (View.Piece (Elt F) S1x192 .f32)), y ∈ pc.1.set :=
  View.cover_of_tiled [⟨(Rect.unit (s := S1x192) ![0, 0] S1x192.size inb_S1x192_S1x192_0_0), p0⟩] S1x192.size (by rfl) y

/-! ## The body's triple -/

set_option maxHeartbeats 4000000 in
/-- On whole staging memrefs, the inputs' at contents `xW` and the outputs' at anything, the body runs to the continuation
    holding the inputs' as they were and each output's at its piece read back. -/
theorem sound_kernel0 (c : Dev nD) (E : Set ℕ) (i : grid0.Coords) (arg1 : Memref sig .tc .vmem S192x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x2048 .f32) (harg6 : arg6.IsWhole) (arg7 : Memref sig .tc .vmem S1x2048 .f32) (harg7 : arg7.IsWhole) (arg8 : Memref sig .tc .vmem S2048x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x2048 .f32) (harg12 : arg12.IsWhole) (arg13 : Memref sig .tc .vmem S1x2048 .f32) (harg13 : arg13.IsWhole) (arg14 : Memref sig .tc .vmem S192x2048 .f32) (harg14 : arg14.IsWhole) (arg15 : Memref sig .tc .vmem S192x2048 .f32) (harg15 : arg15.IsWhole) (arg16 : Memref sig .tc .vmem S1x192 .f32) (harg16 : arg16.IsWhole)
    (x0 : Vec F S192x2048 .f32) (x1 : Vec F S2048x128 .f32) (x2 : Vec F S1x128 .f32) (x3 : Vec F S128x128 .f32) (x4 : Vec F S1x128 .f32) (x5 : Vec F S128x2048 .f32) (x6 : Vec F S1x2048 .f32) (x7 : Vec F S2048x128 .f32) (x8 : Vec F S1x128 .f32) (x9 : Vec F S128x128 .f32) (x10 : Vec F S1x128 .f32) (x11 : Vec F S128x2048 .f32) (x12 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12)) -∗ K ⟨⟩))
      ⊢ wp frame (wpE (defs₀ (F := F)) Variants.none c none) E (cc0__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__head_kernel_eq_skeleton]; unfold cc0__head_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover0_L _)
  isplitl [H14]
  · iexists _; isplitr
    swap; · iexact H14
    ipureintro
    exact View.read_writes_eq_canon _ _ _ (cover0_L _)
  iexists _; isplitr
  swap; · iexact H15
  ipureintro
  exact View.read_writes_eq_canon _ _ _ (cover0_R _)

end Head

section HeadData
variable (V : (c : Dev nD) → (b : Ref sig .tc) → Buf (Elt F) ((c : Thread nD τ).loc b))

/-! ## The pipeline's proof data -/

/-- The input blocks at the one point, in window order. -/
abbrev outArgs0 (c : Dev nD) (t : Fin cfg0.N) := (iblk0 V c 0 t, iblk0 V c 1 t, iblk0 V c 2 t, iblk0 V c 3 t, iblk0 V c 4 t, iblk0 V c 5 t, iblk0 V c 6 t, iblk0 V c 7 t, iblk0 V c 8 t, iblk0 V c 9 t, iblk0 V c 10 t, iblk0 V c 11 t, iblk0 V c 12 t)

/-- The proof data of pipeline 0 on core `c`: the arrays as the region finds them; after the body each input's buffer at
    its block and each output's at its piece of the input blocks; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    | ⟨_ + 16, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

set_option maxHeartbeats 4000000 in
/-- The body at the point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation0 (c : Dev nD) : BodyObligation (dat0 (F := F) V c) (defs₀ (F := F)) Variants.none () Set.univ := fun t => by
  rw [bigSep_W0, bigSep_W0]
  exact sound_body0 V c t

end HeadData

end Cert.KernelIdeal.Fr

end
-- ==== Proof.KI.SampleBase.lean ====
/-
  Region 1 of @main, the sample kernel (a 6 × 4 grid: the sample-axis tile outermost, the feature-axis chunk innermost),
  stated at a PARAMETER `V`: what its three cases are stated over. The body zeroes a scratch accumulator at the first
  chunk of a tile, adds the chunk's row sums of squares at every chunk, and at the last chunk writes the tile of
  log-probabilities; so the scratch is carried from point to point and the log-probability window is idle (no store,
  not written back) except at the last chunk. Here: the windows' blocks, the two branch conditions in closed form over
  the grid, where the log-probability window is idle, the memrefs the body is called with, and the class's region
  invariant with the carried scratch split out of the scoped rest. Any `F`.
-/
import proofs.«152655_j7894149890238_2_alg».proof.Proof.Gen.KernelIdeal.Launch
import proofs.«152655_j7894149890238_2_alg».proof.Proof.Gen.KernelIdeal.Skeleton
import proofs.«152655_j7894149890238_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data over `V`'s arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data over `V`'s arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data over `V`'s arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions, in closed form over the grid -/

/-- "This is the first feature chunk of the tile": the body zeroes the accumulator. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last feature chunk of the tile": the body writes the tile of log-probabilities. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At a first chunk the log-probability window is idle and not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- At a middle chunk too. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At a last chunk it is live: the body stores its whole block. -/
theorem liveAt1_5_C : ∀ t : Fin cfg1.N, ¬cond1_0 (grid1.coords t) → cond1_1 (grid1.coords t) → cfg1.idle 5 (grid1.coords t) = false := by decide +kernel

/-! ## The memrefs the body is called with -/

/-- One staging buffer of each output window, through which its contents are stated. -/
abbrev VO1_4 : View sig .tc .vmem S32x192x512 .f32 := (Memref.whole cc1_stg4_0 : Memref sig .tc .vmem S32x192x512 .f32).view
abbrev VO1_5 : View sig .tc .vmem S32x192 .f32 := (Memref.whole cc1_stg5_0 : Memref sig .tc .vmem S32x192 .f32).view
abbrev ms1_0 (t : Fin cfg1.N) : Memref sig .tc .vmem S32x192x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S192x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S192x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x192 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x192x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x192 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows, carried between points. -/
abbrev scM1_0 : Memref sig .tc .vmem S32x192 .f32 := Memref.whole cc1_scratch0
abbrev VS1_0 : View sig .tc .vmem S32x192 .f32 := scM1_0.view

/-! ## The class's region invariant, the accumulator split out -/

/-- The scoped rest of this call split at its own scratch: the accumulator whole at some contents, the remainder (the other
    call's staging buffers) unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The remainder of the scoped rest, carried unopened through every point. -/
abbrev others1 (c : Dev nD) : sProp 𝕄 :=
  Pipeline.scopedRestBut (Ix := Unit) (Name := ℕ) (U := UR sig nD τ) (Lvl := ℕ) (Val := Elt F) spec1 c [cc1_scratch0]

/-- The class's invariant with the accumulator as a memref owned at some contents. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA; rw [scopedRest1_split]; simp only [scM1_0, owns_whole]; try rfl

end Cert.KernelIdeal.Fr

end
-- ==== Proof.KI.SampleRunA.lean ====
/-
  The sample kernel's body at a FIRST feature chunk of a tile (the accumulator is zeroed, then stepped; the
  log-probability block is not stored): its whole run, the pieces each buffer ends with being the witness. Any `F`.
-/
import proofs.«152655_j7894149890238_2_alg».proof.Proof.KI.SampleBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in each buffer it stores into (last first), with the body's triple on whole
    staging memrefs: the inputs' at their contents and handed back as they were; the sample block's buffer at anything and
    handed back with its pieces written; the accumulator handed back with its pieces written. -/
noncomputable def kernelRun1_A (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : cond1_0 i) (hc1 : ¬cond1_1 i)
    (x0 : Vec F S32x192x512 .f32) (x1 : Vec F S192x2048 .f32) (x2 : Vec F S192x2048 .f32) (x3 : Vec F S1x192 .f32) :
    Σ' (L4 : List (View.Piece (Elt F) S32x192x512 .f32)) (L5 : List (View.Piece (Elt F) S32x192 .f32)), { LS0 : List (View.Piece (Elt F) S32x192 .f32) //
      ∀ (xi5 : Vec F S32x192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__sample_kernel i arg2 harg2 arg3 harg3 arg4 harg4 arg5 harg5 arg6 harg6 arg7 harg7 arg8 harg8) K } := by
  refine ⟨?_, [], ?_, fun xi5 E K => ?run⟩
  case run =>
    simp only [cc1__sample_kernel_eq_skeleton]; unfold cc1__sample_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.KernelIdeal.Fr

end
-- ==== Proof.KI.SampleRunB.lean ====
/-
  The sample kernel's body at a MIDDLE feature chunk of a tile (the accumulator, at what the point before left, is
  stepped; the log-probability block is not stored): its whole run, the pieces each buffer ends with being the witness.
  Any `F`.
-/
import proofs.«152655_j7894149890238_2_alg».proof.Proof.KI.SampleBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in each buffer it stores into (last first), with the body's triple on whole
    staging memrefs: the inputs' at their contents and handed back as they were; the sample block's buffer at anything and
    handed back with its pieces written; the accumulator handed back with its pieces written. -/
noncomputable def kernelRun1_B (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : ¬cond1_1 i)
    (x0 : Vec F S32x192x512 .f32) (x1 : Vec F S192x2048 .f32) (x2 : Vec F S192x2048 .f32) (x3 : Vec F S1x192 .f32) (xs0 : Vec F S32x192 .f32) :
    Σ' (L4 : List (View.Piece (Elt F) S32x192x512 .f32)) (L5 : List (View.Piece (Elt F) S32x192 .f32)), { LS0 : List (View.Piece (Elt F) S32x192 .f32) //
      ∀ (xi5 : Vec F S32x192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__sample_kernel i arg2 harg2 arg3 harg3 arg4 harg4 arg5 harg5 arg6 harg6 arg7 harg7 arg8 harg8) K } := by
  refine ⟨?_, [], ?_, fun xi5 E K => ?run⟩
  case run =>
    simp only [cc1__sample_kernel_eq_skeleton]; unfold cc1__sample_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.KernelIdeal.Fr

end
-- ==== Proof.KI.SampleRunC.lean ====
/-
  The sample kernel's body at the LAST feature chunk of a tile (the accumulator, at what the point before left, is
  stepped, and the tile of log-probabilities is stored whole): its whole run, the pieces each buffer ends with being the
  witness. Any `F`.
-/
import proofs.«152655_j7894149890238_2_alg».proof.Proof.KI.SampleBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in each buffer it stores into (last first), with the body's triple on whole
    staging memrefs: the inputs' at their contents and handed back as they were; the sample block's buffer at anything and
    handed back with its pieces written; the accumulator handed back with its pieces written. -/
noncomputable def kernelRun1_C (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) :
    Σ' (L4 : List (View.Piece (Elt F) S32x192x512 .f32)) (L5 : List (View.Piece (Elt F) S32x192 .f32)), { LS0 : List (View.Piece (Elt F) S32x192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__sample_kernel i arg2 harg2 arg3 harg3 arg4 harg4 arg5 harg5 arg6 harg6 arg7 harg7 arg8 harg8) K } := by
  refine ⟨?_, ?_, ?_, fun E K => ?run⟩
  case run =>
    simp only [cc1__sample_kernel_eq_skeleton]; unfold cc1__sample_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Fr

end
-- ==== Proof.KI.Sample.lean ====
/-
  Region 1 of @main, the sample kernel, at a PARAMETER `V` (the buffer contents when the region is entered): what each of
  the body's three cases leaves in the sample block, in the log-probability block and in the accumulator; what they hold
  point by point (the accumulator of a point read by the next); the region invariant that carries the accumulator at that
  named value from the second point on; the proof data; and the body obligation, case by case. Any `F`.
-/
import proofs.«152655_j7894149890238_2_alg».proof.Proof.KI.SampleRunA
import proofs.«152655_j7894149890238_2_alg».proof.Proof.KI.SampleRunB
import proofs.«152655_j7894149890238_2_alg».proof.Proof.KI.SampleRunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Case A -/

/-- The stores into the sample block's buffer tile it (one whole-block store). -/
theorem cover1_A_4 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : cond1_0 i) (hc1 : ¬cond1_1 i)
    (x0 : Vec F S32x192x512 .f32) (x1 : Vec F S192x2048 .f32) (x2 : Vec F S192x2048 .f32) (x3 : Vec F S1x192 .f32) (y : S32x192x512.Idx) :
    ∃ pc ∈ (kernelRun1_A c i arg2 harg2 arg3 harg3 arg4 harg4 arg5 harg5 arg6 harg6 arg7 harg7 arg8 harg8 hc0 hc1 x0 x1 x2 x3).1, y ∈ pc.1.set :=
  View.cover_of_tiledL (kernelRun1_A c i arg2 harg2 arg3 harg3 arg4 harg4 arg5 harg5 arg6 harg6 arg7 harg7 arg8 harg8 hc0 hc1 x0 x1 x2 x3).1 S32x192x512.size (by sl_kernel_rfl) y
/-- What the case leaves in the sample block's buffer: its pieces read back. -/
def out1_A_4 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : cond1_0 i) (hc1 : ¬cond1_1 i)
    (x0 : Vec F S32x192x512 .f32) (x1 : Vec F S192x2048 .f32) (x2 : Vec F S192x2048 .f32) (x3 : Vec F S1x192 .f32) : Vec F S32x192x512 .f32 :=
  VO1_4.read (Elt F) (VO1_4.writes (Elt F) VO1_4.junk (kernelRun1_A c i arg2 harg2 arg3 harg3 arg4 harg4 arg5 harg5 arg6 harg6 arg7 harg7 arg8 harg8 hc0 hc1 x0 x1 x2 x3).1)
/-- What the case leaves in the log-probability block's buffer is nothing (the window is idle there): a placeholder nothing consults. -/
def out1_A_5 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : cond1_0 i) (hc1 : ¬cond1_1 i)
    (x0 : Vec F S32x192x512 .f32) (x1 : Vec F S192x2048 .f32) (x2 : Vec F S192x2048 .f32) (x3 : Vec F S1x192 .f32) : Vec F S32x192 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3).2.1)
/-- The stores into the accumulator cover it. -/
theorem scover1_A_0 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : cond1_0 i) (hc1 : ¬cond1_1 i)
    (x0 : Vec F S32x192x512 .f32) (x1 : Vec F S192x2048 .f32) (x2 : Vec F S192x2048 .f32) (x3 : Vec F S1x192 .f32) (y : S32x192.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S32x192.size (by sl_kernel_rfl) y
/-- What the case leaves in the accumulator: its pieces read back. -/
def sout1_A_0 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : cond1_0 i) (hc1 : ¬cond1_1 i)
    (x0 : Vec F S32x192x512 .f32) (x1 : Vec F S192x2048 .f32) (x2 : Vec F S192x2048 .f32) (x3 : Vec F S1x192 .f32) : Vec F S32x192 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.2.1)

/-! ## Case B -/

/-- The stores into the sample block's buffer tile it (one whole-block store). -/
theorem cover1_B_4 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : ¬cond1_1 i)
    (x0 : Vec F S32x192x512 .f32) (x1 : Vec F S192x2048 .f32) (x2 : Vec F S192x2048 .f32) (x3 : Vec F S1x192 .f32) (xs0 : Vec F S32x192 .f32) (y : S32x192x512.Idx) :
    ∃ pc ∈ (kernelRun1_B c i arg2 harg2 arg3 harg3 arg4 harg4 arg5 harg5 arg6 harg6 arg7 harg7 arg8 harg8 hc0 hc1 x0 x1 x2 x3 xs0).1, y ∈ pc.1.set :=
  View.cover_of_tiledL (kernelRun1_B c i arg2 harg2 arg3 harg3 arg4 harg4 arg5 harg5 arg6 harg6 arg7 harg7 arg8 harg8 hc0 hc1 x0 x1 x2 x3 xs0).1 S32x192x512.size (by sl_kernel_rfl) y
/-- What the case leaves in the sample block's buffer: its pieces read back. -/
def out1_B_4 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : ¬cond1_1 i)
    (x0 : Vec F S32x192x512 .f32) (x1 : Vec F S192x2048 .f32) (x2 : Vec F S192x2048 .f32) (x3 : Vec F S1x192 .f32) (xs0 : Vec F S32x192 .f32) : Vec F S32x192x512 .f32 :=
  VO1_4.read (Elt F) (VO1_4.writes (Elt F) VO1_4.junk (kernelRun1_B c i arg2 harg2 arg3 harg3 arg4 harg4 arg5 harg5 arg6 harg6 arg7 harg7 arg8 harg8 hc0 hc1 x0 x1 x2 x3 xs0).1)
/-- What the case leaves in the log-probability block's buffer is nothing (the window is idle there): a placeholder nothing consults. -/
def out1_B_5 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : ¬cond1_1 i)
    (x0 : Vec F S32x192x512 .f32) (x1 : Vec F S192x2048 .f32) (x2 : Vec F S192x2048 .f32) (x3 : Vec F S1x192 .f32) (xs0 : Vec F S32x192 .f32) : Vec F S32x192 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 xs0).2.1)
/-- The stores into the accumulator cover it. -/
theorem scover1_B_0 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : ¬cond1_1 i)
    (x0 : Vec F S32x192x512 .f32) (x1 : Vec F S192x2048 .f32) (x2 : Vec F S192x2048 .f32) (x3 : Vec F S1x192 .f32) (xs0 : Vec F S32x192 .f32) (y : S32x192.Idx) :
    ∃ pc ∈ (kernelRun1_B c i arg2 harg2 arg3 harg3 arg4 harg4 arg5 harg5 arg6 harg6 arg7 harg7 arg8 harg8 hc0 hc1 x0 x1 x2 x3 xs0).2.2.1, y ∈ pc.1.set :=
  View.cover_of_tiledL (kernelRun1_B c i arg2 harg2 arg3 harg3 arg4 harg4 arg5 harg5 arg6 harg6 arg7 harg7 arg8 harg8 hc0 hc1 x0 x1 x2 x3 xs0).2.2.1 S32x192.size (by sl_kernel_rfl) y
/-- What the case leaves in the accumulator: its pieces read back. -/
def sout1_B_0 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : ¬cond1_1 i)
    (x0 : Vec F S32x192x512 .f32) (x1 : Vec F S192x2048 .f32) (x2 : Vec F S192x2048 .f32) (x3 : Vec F S1x192 .f32) (xs0 : Vec F S32x192 .f32) : Vec F S32x192 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0).2.2.1)

/-! ## Case C -/

/-- The stores into the sample block's buffer tile it (one whole-block store). -/
theorem cover1_C_4 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) (y : S32x192x512.Idx) :
    ∃ pc ∈ (kernelRun1_C c i arg2 harg2 arg3 harg3 arg4 harg4 arg5 harg5 arg6 harg6 arg7 harg7 arg8 harg8 hc0 hc1 x0 x1 x2 x3 xs0).1, y ∈ pc.1.set :=
  View.cover_of_tiledL (kernelRun1_C c i arg2 harg2 arg3 harg3 arg4 harg4 arg5 harg5 arg6 harg6 arg7 harg7 arg8 harg8 hc0 hc1 x0 x1 x2 x3 xs0).1 S32x192x512.size (by sl_kernel_rfl) y
/-- What the case leaves in the sample block's buffer: its pieces read back. -/
def out1_C_4 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) : Vec F S32x192x512 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0).1)
/-- The stores into the log-probability block's buffer tile it (one whole-block store). -/
theorem cover1_C_5 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) (y : S32x192.Idx) :
    ∃ pc ∈ (kernelRun1_C c i arg2 harg2 arg3 harg3 arg4 harg4 arg5 harg5 arg6 harg6 arg7 harg7 arg8 harg8 hc0 hc1 x0 x1 x2 x3 xs0).2.1, y ∈ pc.1.set :=
  View.cover_of_tiledL (kernelRun1_C c i arg2 harg2 arg3 harg3 arg4 harg4 arg5 harg5 arg6 harg6 arg7 harg7 arg8 harg8 hc0 hc1 x0 x1 x2 x3 xs0).2.1 S32x192.size (by sl_kernel_rfl) y
/-- What the case leaves in the log-probability block's buffer: its pieces read back. -/
def out1_C_5 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) : Vec F S32x192 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 xs0).2.1)
/-- The stores into the accumulator cover it. -/
theorem scover1_C_0 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) (y : S32x192.Idx) :
    ∃ pc ∈ (kernelRun1_C c i arg2 harg2 arg3 harg3 arg4 harg4 arg5 harg5 arg6 harg6 arg7 harg7 arg8 harg8 hc0 hc1 x0 x1 x2 x3 xs0).2.2.1, y ∈ pc.1.set :=
  View.cover_of_tiledL (kernelRun1_C c i arg2 harg2 arg3 harg3 arg4 harg4 arg5 harg5 arg6 harg6 arg7 harg7 arg8 harg8 hc0 hc1 x0 x1 x2 x3 xs0).2.2.1 S32x192.size (by sl_kernel_rfl) y
/-- What the case leaves in the accumulator: its pieces read back. -/
def sout1_C_0 (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) : Vec F S32x192 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0).2.2.1)

section Points
variable (V : (c : Dev nD) → (b : Ref sig .tc) → Buf (Elt F) ((c : Thread nD τ).loc b))

/-! ## What the buffers hold after each point -/

/-- What the sample block's buffer, the log-probability block's buffer and the accumulator hold after the body at position
    `n`: the case the closed forms select there, run at the point's memrefs and input blocks, the accumulator read at what
    position `n - 1` left (at a first chunk it is zeroed before it is read, so nothing is read). -/
def outsAt1 (c : Dev nD) : (n : ℕ) → n < cfg1.N → Vec F S32x192x512 .f32 × Vec F S32x192 .f32 × Vec F S32x192 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class's invariant (the accumulator at anything); afterwards the
    accumulator at what the point before left, the remainder of the scoped rest unopened, the generator register at some
    state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ others1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2.2) ∗ others1 (F := F) c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.2) ∗ others1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 16000000 in
/-- The body at any point: the inputs' memrefs hold their blocks; the closed forms say which case the point is in; the
    invariant hands the body the accumulator at what the point before left (at anything before the first point, and at a
    first chunk its named contents are forgotten, the body zeroing it before reading) and takes it back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 24 := lt_of_lt_of_eq t.isLt (show cfg1.N = 24 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [show (dat1 V c).leavesExact 3 t = owns (c : Thread nD τ) (ms1_3 t) fullShare ((dat1 V c).after 3 t) from by
          unfold Dat.leavesExact; rw [liveAt1_3 t], after1_3]
      rw [show (dat1 V c).leavesExact 4 t = owns (c : Thread nD τ) (ms1_4 t) fullShare ((dat1 V c).after 4 t) from by
          unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold out1_A_4 sout1_A_0; (try dsimp only)
      by_cases hz : t.val = 0
      · rw [PhiS_castSucc V c t, PhiS_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _)
        iexists _; iexact H5
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexists _; iexact HS0
        iintro ⟨H0, H1, H2, H3, ⟨%e4, H4⟩, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _)
        iexists _; iexact H5
  · by_cases h1 : t.val % 4 = 3
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [show (dat1 V c).leavesExact 3 t = owns (c : Thread nD τ) (ms1_3 t) fullShare ((dat1 V c).after 3 t) from by
          unfold Dat.leavesExact; rw [liveAt1_3 t], after1_3]
      rw [show (dat1 V c).leavesExact 4 t = owns (c : Thread nD τ) (ms1_4 t) fullShare ((dat1 V c).after 4 t) from by
          unfold Dat.leavesExact; rw [liveAt1_4 t], after1_4]
      rw [show (dat1 V c).leavesExact 5 t = owns (c : Thread nD τ) (ms1_5 t) fullShare ((dat1 V c).after 5 t) from by
          unfold Dat.leavesExact; rw [liveAt1_5_C t (fun h => h0 ((hcond1_0 t).mp h)) ((hcond1_1 t).mpr h1)], after1_5]
      rw [outsAt1_C V c t h0 h1]
      unfold out1_C_4 out1_C_5 sout1_C_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _)
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [show (dat1 V c).leavesExact 3 t = owns (c : Thread nD τ) (ms1_3 t) fullShare ((dat1 V c).after 3 t) from by
          unfold Dat.leavesExact; rw [liveAt1_3 t], after1_3]
      rw [show (dat1 V c).leavesExact 4 t = owns (c : Thread nD τ) (ms1_4 t) fullShare ((dat1 V c).after 4 t) from by
          unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold out1_B_4 sout1_B_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _)
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, Hoth⟩, Hg⟩
  isplitl [HS0 Hoth]
  · isplitl [HS0]
    · iexists _; iexact HS0
    iexact Hoth
  iexact Hg

/-- What the region is entered with (the class's invariant) is the invariant before the first point. -/
theorem Phi_in1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

end Points

end Cert.KernelIdeal.Fr

end
-- ==== Proof.KI.Run.lean ====
/-
  THE RUN of @main: one stretch of host operations (the weights transposed, the biases reshaped to rows), then the head
  kernel's region, then the sample kernel's region, as a chain of segments. The buffer contents at each segment
  boundary are a fold from the launch memory: after the host stretch the operations' results; after a region its windows'
  arrays at what its write-backs leave, every other buffer as entered. Each region is a segment record over the thread
  state "every unscoped buffer at the boundary's contents, the generator register at some state, nothing owed": region 0
  with the class's invariant; region 1 with the invariant that carries the accumulator, entered from the class's and
  giving it back. The run's post names EVERY unscoped buffer at the last boundary's contents, from which both the frame
  claim (each argument walks back through the fold to its launch contents) and the results' values are read. Any `F`.
-/
import proofs.«152655_j7894149890238_2_alg».proof.Proof.KI.Head
import proofs.«152655_j7894149890238_2_alg».proof.Proof.KI.Sample
import proofs.«152655_j7894149890238_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev Ve0 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (Ve0 m ρ) c).arrAt w cfg0.N
theorem W2_arr (c : Dev nD) (w : Fin cfg0.W) :
    W2 m ρ c (Proc.devRef .tc (Pipeline.arrRef spec0 w)) = (dat0 (Ve0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ve1 : (c : Dev nD) → (b : Ref sig .tc) → Buf (Elt F) ((c : Thread nD τ).loc b) := fun c b => W2 m ρ c b
theorem hF0 (c : Dev nD) (w : Fin cfg0.W) : (dat0 (Ve0 m ρ) c).arrAt w cfg0.N = Ve1 m ρ c (Pipeline.arrRef spec0 w) :=
  (W2_arr m ρ c w).symm
theorem hrest0 (c : Dev nD) : ∀ b, b ∉ Finset.univ.image (Pipeline.arrRef spec0) → Ve1 m ρ c b = Ve0 m ρ c b :=
  fun b hb => W2_of_ne m ρ c b fun w e => hb (Finset.mem_image.mpr ⟨w, Finset.mem_univ _, e⟩)
/-- At region 1's exit: its arrays at what the pipeline leaves, every other buffer as entered. -/
def W3 (c : Dev nD) : Valuation τ sig (Elt F) :=
  Pipeline.withArrays spec1 c (W2 m ρ c) fun w => (dat1 (Ve1 m ρ) c).arrAt w cfg1.N
theorem W3_arr (c : Dev nD) (w : Fin cfg1.W) :
    W3 m ρ c (Proc.devRef .tc (Pipeline.arrRef spec1 w)) = (dat1 (Ve1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vx1 : (c : Dev nD) → (b : Ref sig .tc) → Buf (Elt F) ((c : Thread nD τ).loc b) := fun c b => W3 m ρ c b
theorem hF1 (c : Dev nD) (w : Fin cfg1.W) : (dat1 (Ve1 m ρ) c).arrAt w cfg1.N = Vx1 m ρ c (Pipeline.arrRef spec1 w) :=
  (W3_arr m ρ c w).symm
theorem hrest1 (c : Dev nD) : ∀ b, b ∉ Finset.univ.image (Pipeline.arrRef spec1) → Vx1 m ρ c b = Ve1 m ρ c b :=
  fun b hb => W3_of_ne m ρ c b fun w e => hb (Finset.mem_image.mpr ⟨w, Finset.mem_univ _, e⟩)

/-! ## The proof data family and the thread state -/

abbrev adm' : (p : Fin 2) → (pcfgs (F := F) p).Adm := fun p => (cfgs p).toPCfg_adm
/-- Every pipeline's proof data, each at its region's entry contents: a literal match on the pipeline's index. -/
def pdats : (p : Fin 2) → (c : Dev nD) → Dat τ (Elt F) Unit ℕ (UR sig nD τ) ℕ (Pipeline.pin (pcfgs (F := F)) adm' p) c
  | ⟨0, _⟩ => fun c => dat0 (Ve0 m ρ) c
  | ⟨1, _⟩ => fun c => dat1 (Ve1 m ρ) c
abbrev 𝒱₀ : Variants := Variants.none
abbrev L₀ : GSem nD τ sig → Finset Unit := fun _ => ∅
abbrev lv₀ : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm' (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L₀ lv₀ 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (Ve0 m ρ c) (Ve1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2` (no host operation lies between the two
    calls), left at `W3`. The class's invariant enters the accumulator-carrying invariant before the first point and is
    given back after the last, the accumulator's named contents forgotten. -/
def reg1 : Pipeline.RegionSeg (pcfgs (F := F)) adm' (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ L₀ lv₀ 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Phi_in1 (Ve1 m ρ) c)
    unfold Pipeline.ΦA
    iintro ⟨Hp, -, Hr⟩
    isplitl [Hr]; · iexact Hr
    iexact Hp
  hout c := by
    refine (Phi_out1 (Ve1 m ρ) c (Fin.last _) (by rw [Fin.val_last]; have : cfg1.N = 24 := N_1; omega)).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (Ve1 m ρ c) (Vx1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs : List (Pipeline.Seg (pcfgs (F := F)) adm' (pdats m ρ) () defs₀ 𝒱₀ L₀ lv₀) :=
  [ .host (hseg hostOps0 hostOps0_sub hostOps0_fresh (W0 m ρ)),
    .region (reg0 m ρ),
    .region (reg1 m ρ) ]
theorem main_run (c : Dev nD) : main (F := F) c = Pipeline.Seg.run (mainSegs m ρ) := (main_chain c).trans (by chain_rfl)

set_option backward.isDefEq.respectTransparency.types false in
/-- THE RUN: at the compiled mesh, from any memory with zero counters, every weakly fair execution of @main on the
    TensorCores terminates, nothing faulting, and every final state holds every unscoped buffer at the last boundary's
    contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm' (pdats m ρ) () cellOf_inj emb₁ defs₀ 𝒱₀ L₀ lv₀ m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Fr

end
-- ==== Proof.KI.Frame.lean ====
/-
  The frame claim and the results' arrays, read off the run's last valuation: no host operation writes an argument and no
  region changes one (a region reads it through an input window, whose array the pipeline leaves as entered, or bypasses
  it), so the fold at an argument's buffer walks back to the launch memory; the two results are the sample kernel's two
  output windows' arrays at what its write-backs leave. Any `F`.
-/
import proofs.«152655_j7894149890238_2_alg».proof.Proof.KI.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no host operation writes holds its launch contents after the host stretch. -/
theorem W1_of (c : Dev nD) (b : Ref sig .tc) (h : b ∉ hostOps0_W) : W1 m ρ c (Proc.devRef .tc b) = m ((c : Thread nD τ).loc b) :=
  StableHlo.after_of_writes_sub hostOps0 _ hostOps0_writes h

theorem W3_main_arg0 (c : Dev nD) : W3 m ρ c (Proc.devRef .tc main_arg0) = m ((c : Thread nD τ).loc main_arg0) :=
  (W3_of_ne m ρ c main_arg0 (by decide)).trans ((W2_arr m ρ c 0).trans (((dat0 (Ve0 m ρ) c).arrAt_in 0 rfl _).trans ((A_eq0 (Ve0 m ρ) c 0).trans (W1_of m ρ c main_arg0 (by decide)))))
theorem W3_main_arg1 (c : Dev nD) : W3 m ρ c (Proc.devRef .tc main_arg1) = m ((c : Thread nD τ).loc main_arg1) :=
  (W3_arr m ρ c 0).trans (((dat1 (Ve1 m ρ) c).arrAt_in 0 rfl _).trans ((A_eq1 (Ve1 m ρ) c 0).trans ((W2_of_ne m ρ c main_arg1 (by decide)).trans (W1_of m ρ c main_arg1 (by decide)))))
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_of m ρ c main_arg2 (by decide)))
theorem W3_main_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_of m ρ c main_arg3 (by decide)))
theorem W3_main_arg4 (c : Dev nD) : W3 m ρ c (Proc.devRef .tc main_arg4) = m ((c : Thread nD τ).loc main_arg4) :=
  (W3_of_ne m ρ c main_arg4 (by decide)).trans ((W2_of_ne m ρ c main_arg4 (by decide)).trans (W1_of m ρ c main_arg4 (by decide)))
theorem W3_main_arg5 (c : Dev nD) : W3 m ρ c (Proc.devRef .tc main_arg5) = m ((c : Thread nD τ).loc main_arg5) :=
  (W3_of_ne m ρ c main_arg5 (by decide)).trans ((W2_of_ne m ρ c main_arg5 (by decide)).trans (W1_of m ρ c main_arg5 (by decide)))
theorem W3_main_arg6 (c : Dev nD) : W3 m ρ c (Proc.devRef .tc main_arg6) = m ((c : Thread nD τ).loc main_arg6) :=
  (W3_of_ne m ρ c main_arg6 (by decide)).trans ((W2_of_ne m ρ c main_arg6 (by decide)).trans (W1_of m ρ c main_arg6 (by decide)))
theorem W3_main_arg7 (c : Dev nD) : W3 m ρ c (Proc.devRef .tc main_arg7) = m ((c : Thread nD τ).loc main_arg7) :=
  (W3_of_ne m ρ c main_arg7 (by decide)).trans ((W2_of_ne m ρ c main_arg7 (by decide)).trans (W1_of m ρ c main_arg7 (by decide)))
theorem W3_main_arg8 (c : Dev nD) : W3 m ρ c (Proc.devRef .tc main_arg8) = m ((c : Thread nD τ).loc main_arg8) :=
  (W3_of_ne m ρ c main_arg8 (by decide)).trans ((W2_of_ne m ρ c main_arg8 (by decide)).trans (W1_of m ρ c main_arg8 (by decide)))
theorem W3_main_arg9 (c : Dev nD) : W3 m ρ c (Proc.devRef .tc main_arg9) = m ((c : Thread nD τ).loc main_arg9) :=
  (W3_of_ne m ρ c main_arg9 (by decide)).trans ((W2_of_ne m ρ c main_arg9 (by decide)).trans (W1_of m ρ c main_arg9 (by decide)))
theorem W3_main_arg10 (c : Dev nD) : W3 m ρ c (Proc.devRef .tc main_arg10) = m ((c : Thread nD τ).loc main_arg10) :=
  (W3_of_ne m ρ c main_arg10 (by decide)).trans ((W2_of_ne m ρ c main_arg10 (by decide)).trans (W1_of m ρ c main_arg10 (by decide)))
theorem W3_main_arg11 (c : Dev nD) : W3 m ρ c (Proc.devRef .tc main_arg11) = m ((c : Thread nD τ).loc main_arg11) :=
  (W3_of_ne m ρ c main_arg11 (by decide)).trans ((W2_of_ne m ρ c main_arg11 (by decide)).trans (W1_of m ρ c main_arg11 (by decide)))
theorem W3_main_arg12 (c : Dev nD) : W3 m ρ c (Proc.devRef .tc main_arg12) = m ((c : Thread nD τ).loc main_arg12) :=
  (W3_of_ne m ρ c main_arg12 (by decide)).trans ((W2_of_ne m ρ c main_arg12 (by decide)).trans (W1_of m ρ c main_arg12 (by decide)))
theorem W3_main_arg13 (c : Dev nD) : W3 m ρ c (Proc.devRef .tc main_arg13) = m ((c : Thread nD τ).loc main_arg13) :=
  (W3_of_ne m ρ c main_arg13 (by decide)).trans ((W2_of_ne m ρ c main_arg13 (by decide)).trans (W1_of m ρ c main_arg13 (by decide)))

/-- THE FRAME at any `F`: every weakly fair execution of @main terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c),
    (h c _ (mem_uc main_arg10 (by decide))).trans (W3_main_arg10 m ρ c),
    (h c _ (mem_uc main_arg11 (by decide))).trans (W3_main_arg11 m ρ c),
    (h c _ (mem_uc main_arg12 (by decide))).trans (W3_main_arg12 m ρ c),
    (h c _ (mem_uc main_arg13 (by decide))).trans (W3_main_arg13 m ρ c)⟩) (run_main m ρ)

/-- The run with the results named: each is its output window's array at what the sample kernel's write-backs leave. -/
theorem run_results : θ_run defs (onTc (τ := τ) (main (F := F))) ⟨m, fun _ => 0, ρ⟩ (fun r => ∀ c : Dev nD,
      r.2.mem ((c.tc : Thread nD τ).loc main_v13_0) = (dat1 (Ve1 m ρ) c).arrAt 4 cfg1.N
      ∧ r.2.mem ((c.tc : Thread nD τ).loc main_v13_1) = (dat1 (Ve1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v13_0 (by decide))).trans (W3_arr m ρ c 4), (h c _ (mem_uc main_v13_1 (by decide))).trans (W3_arr m ρ c 5),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c),
    (h c _ (mem_uc main_arg10 (by decide))).trans (W3_main_arg10 m ρ c),
    (h c _ (mem_uc main_arg11 (by decide))).trans (W3_main_arg11 m ρ c),
    (h c _ (mem_uc main_arg12 (by decide))).trans (W3_main_arg12 m ρ c),
    (h c _ (mem_uc main_arg13 (by decide))).trans (W3_main_arg13 m ρ c)⟩) (run_main m ρ)

end Cert.KernelIdeal.Fr

end
-- ==== Proof.KI.SamplePieces.lean ====
/-
  The sample kernel's three control cases, read as arithmetic: what each case leaves in the sample block, in the
  log-probability block and in the accumulator is the body's payload of the point's inputs. A first chunk steps the zero
  array, a middle and a last chunk step what the chunk before left; every chunk stores the sample block computed from the
  chunk's 512 columns of the two resident arrays and the noise block; a last chunk also stores the tile of log-probabilities
  computed from the log-determinant row and the stepped accumulator. Each statement is generic in the float instance.
-/
import proofs.«152655_j7894149890238_2_alg».proof.Proof.KI.Sample
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The accumulator -/

/-- At a first chunk the accumulator ends at the step of the zero array. -/
theorem sout1_A_0_eq (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : cond1_0 i) (hc1 : ¬cond1_1 i)
    (x0 : Vec F S32x192x512 .f32) (x1 : Vec F S192x2048 .f32) (x2 : Vec F S192x2048 .f32) (x3 : Vec F S1x192 .f32) :
    sout1_A_0 c i arg2 harg2 arg3 harg3 arg4 harg4 arg5 harg5 arg6 harg6 arg7 harg7 arg8 harg8 hc0 hc1 x0 x1 x2 x3 = k1_pay3 x0 (k1_pay1 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3)]
  unfold kernelRun1_A
  dsimp only
  try sl_unfold_words
  rw [View.canon_cons_unit_zero (S := S32x192) hz2, View.readCov_unit_zero (S := S32x192) _ hz2]
  simp only [View.readAt_eq_ld, harg2.read_unread, View.ld_unit_zero (S := S32x192x512) hz3]

/-- At a middle chunk the accumulator ends at the step of what the chunk before left. -/
theorem sout1_B_0_eq (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : ¬cond1_1 i)
    (x0 : Vec F S32x192x512 .f32) (x1 : Vec F S192x2048 .f32) (x2 : Vec F S192x2048 .f32) (x3 : Vec F S1x192 .f32) (xs0 : Vec F S32x192 .f32) :
    sout1_B_0 c i arg2 harg2 arg3 harg3 arg4 harg4 arg5 harg5 arg6 harg6 arg7 harg7 arg8 harg8 hc0 hc1 x0 x1 x2 x3 xs0 = k1_pay3 x0 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 xs0)]
  unfold kernelRun1_B
  dsimp only
  try sl_unfold_words
  rw [View.canon_unit_zero (S := S32x192) hz2]
  simp only [View.readAt_eq_ld, harg2.read_unread, harg8.read_unread, View.ld_unit_zero (S := S32x192x512) hz3,
    View.ld_unit_zero (S := S32x192) hz2]

/-- At a last chunk too. -/
theorem sout1_C_0_eq (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) :
    sout1_C_0 c i arg2 harg2 arg3 harg3 arg4 harg4 arg5 harg5 arg6 harg6 arg7 harg7 arg8 harg8 hc0 hc1 x0 x1 x2 x3 xs0 = k1_pay3 x0 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 xs0)]
  unfold kernelRun1_C
  dsimp only
  try sl_unfold_words
  rw [View.canon_unit_zero (S := S32x192) hz2]
  simp only [View.readAt_eq_ld, harg2.read_unread, harg8.read_unread, View.ld_unit_zero (S := S32x192x512) hz3,
    View.ld_unit_zero (S := S32x192) hz2]

/-! ## The sample block -/

/-- The sample block a first chunk stores: the payload of the chunk's columns of the two resident arrays and the noise block. -/
theorem out1_A_4_eq (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : cond1_0 i) (hc1 : ¬cond1_1 i)
    (x0 : Vec F S32x192x512 .f32) (x1 : Vec F S192x2048 .f32) (x2 : Vec F S192x2048 .f32) (x3 : Vec F S1x192 .f32) :
    out1_A_4 c i arg2 harg2 arg3 harg3 arg4 harg4 arg5 harg5 arg6 harg6 arg7 harg7 arg8 harg8 hc0 hc1 x0 x1 x2 x3 = k1_pay2 (View.ld x1 (Rect.unit (s := S192x2048) (k1_off1 i) S192x512.size (k1_off1_inb i))) (View.ld x2 (Rect.unit (s := S192x2048) (k1_off1 i) S192x512.size (k1_off1_inb i))) x0 := by
  unfold out1_A_4
  rw [View.read_writes_eq_canon _ _ _ (cover1_A_4 c i arg2 harg2 arg3 harg3 arg4 harg4 arg5 harg5 arg6 harg6 arg7 harg7 arg8 harg8 hc0 hc1 x0 x1 x2 x3)]
  unfold kernelRun1_A
  dsimp only
  try sl_unfold_words
  rw [View.canon_unit_zero (S := S32x192x512) hz3]
  simp only [View.readAt_eq_ld, harg2.read_unread, harg3.read_unread, harg4.read_unread, View.ld_unit_zero (S := S32x192x512) hz3]

/-- The sample block a middle chunk stores: the payload of the chunk's columns of the two resident arrays and the noise block. -/
theorem out1_B_4_eq (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : ¬cond1_1 i)
    (x0 : Vec F S32x192x512 .f32) (x1 : Vec F S192x2048 .f32) (x2 : Vec F S192x2048 .f32) (x3 : Vec F S1x192 .f32) (xs0 : Vec F S32x192 .f32) :
    out1_B_4 c i arg2 harg2 arg3 harg3 arg4 harg4 arg5 harg5 arg6 harg6 arg7 harg7 arg8 harg8 hc0 hc1 x0 x1 x2 x3 xs0 = k1_pay2 (View.ld x1 (Rect.unit (s := S192x2048) (k1_off1 i) S192x512.size (k1_off1_inb i))) (View.ld x2 (Rect.unit (s := S192x2048) (k1_off1 i) S192x512.size (k1_off1_inb i))) x0 := by
  unfold out1_B_4
  rw [View.read_writes_eq_canon _ _ _ (cover1_B_4 c i arg2 harg2 arg3 harg3 arg4 harg4 arg5 harg5 arg6 harg6 arg7 harg7 arg8 harg8 hc0 hc1 x0 x1 x2 x3 xs0)]
  unfold kernelRun1_B
  dsimp only
  try sl_unfold_words
  rw [View.canon_unit_zero (S := S32x192x512) hz3]
  simp only [View.readAt_eq_ld, harg2.read_unread, harg3.read_unread, harg4.read_unread, View.ld_unit_zero (S := S32x192x512) hz3]

/-- The sample block a last chunk stores: the payload of the chunk's columns of the two resident arrays and the noise block. -/
theorem out1_C_4_eq (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) :
    out1_C_4 c i arg2 harg2 arg3 harg3 arg4 harg4 arg5 harg5 arg6 harg6 arg7 harg7 arg8 harg8 hc0 hc1 x0 x1 x2 x3 xs0 = k1_pay2 (View.ld x1 (Rect.unit (s := S192x2048) (k1_off1 i) S192x512.size (k1_off1_inb i))) (View.ld x2 (Rect.unit (s := S192x2048) (k1_off1 i) S192x512.size (k1_off1_inb i))) x0 := by
  unfold out1_C_4
  rw [View.read_writes_eq_canon _ _ _ (cover1_C_4 c i arg2 harg2 arg3 harg3 arg4 harg4 arg5 harg5 arg6 harg6 arg7 harg7 arg8 harg8 hc0 hc1 x0 x1 x2 x3 xs0)]
  unfold kernelRun1_C
  dsimp only
  try sl_unfold_words
  rw [View.canon_unit_zero (S := S32x192x512) hz3]
  simp only [View.readAt_eq_ld, harg2.read_unread, harg3.read_unread, harg4.read_unread, View.ld_unit_zero (S := S32x192x512) hz3]

/-! ## The log-probability block -/

/-- The tile of log-probabilities a last chunk stores: the payload of the log-determinant row and the stepped accumulator. -/
theorem out1_C_5_eq (c : Dev nD) (i : grid1.Coords) (arg2 : Memref sig .tc .vmem S32x192x512 .f32) (harg2 : arg2.IsWhole) (arg3 : Memref sig .tc .vmem S192x2048 .f32) (harg3 : arg3.IsWhole) (arg4 : Memref sig .tc .vmem S192x2048 .f32) (harg4 : arg4.IsWhole) (arg5 : Memref sig .tc .vmem S1x192 .f32) (harg5 : arg5.IsWhole) (arg6 : Memref sig .tc .vmem S32x192x512 .f32) (harg6 : arg6.IsWhole) (arg7 : Memref sig .tc .vmem S32x192 .f32) (harg7 : arg7.IsWhole) (arg8 : Memref sig .tc .vmem S32x192 .f32) (harg8 : arg8.IsWhole) (hc0 : ¬cond1_0 i) (hc1 : cond1_1 i)
    (x0 : Vec F S32x192x512 .f32) (x1 : Vec F S192x2048 .f32) (x2 : Vec F S192x2048 .f32) (x3 : Vec F S1x192 .f32) (xs0 : Vec F S32x192 .f32) :
    out1_C_5 c i arg2 harg2 arg3 harg3 arg4 harg4 arg5 harg5 arg6 harg6 arg7 harg7 arg8 harg8 hc0 hc1 x0 x1 x2 x3 xs0 = k1_pay4 x3 (k1_pay3 x0 xs0) := by
  unfold out1_C_5
  rw [View.read_writes_eq_canon _ _ _ (cover1_C_5 c i arg2 harg2 arg3 harg3 arg4 harg4 arg5 harg5 arg6 harg6 arg7 harg7 arg8 harg8 hc0 hc1 x0 x1 x2 x3 xs0)]
  unfold kernelRun1_C
  dsimp only
  try sl_unfold_words
  rw [View.canon_unit_zero (S := S32x192) hz2, View.readCov_unit_zero (S := S32x192) _ hz2]
  simp only [View.readAt_eq_ld, harg2.read_unread, harg5.read_unread, harg8.read_unread, View.ld_unit_zero (S := S32x192x512) hz3,
    View.ld_unit_zero (S := S32x192) hz2, View.ld_unit_zero (S := S1x192) hz2]

/-! ## A chunk's columns at coordinates -/

/-- The 512 columns a chunk loads from a resident array, at coordinates: column `dd` of feature chunk `i 1` is column
    `512 · (i 1) + dd` of the array. -/
theorem ld_chunk_apply (i : grid1.Coords) (x : Vec F S192x2048 .f32) (j : Fin 192) (dd : Fin 512) :
    View.ld x (Rect.unit (s := S192x2048) (k1_off1 i) S192x512.size (k1_off1_inb i)) (ValueIdx.ix2 j dd)
      = x (ValueIdx.ix2 j ⟨(i 1).val * 512 + dd.val, by have h : (i 1).val < 4 := (i 1).isLt; omega⟩) := by
  show x ((Rect.unit (s := S192x2048) (k1_off1 i) S192x512.size (k1_off1_inb i)).idx (ValueIdx.ix2 j dd)) = _
  refine congrArg x (funext fun a => Fin.ext ?_)
  have e := k1_off1_eq i
  match a with
  | ⟨0, _⟩ =>
    show (k1_off1 i) 0 + 1 * j.val = j.val
    rw [e]; show 0 + 1 * j.val = j.val; omega
  | ⟨1, _⟩ =>
    show (k1_off1 i) 1 + 1 * dd.val = (i 1).val * 512 + dd.val
    rw [e]; show 512 * (i 1).val + 1 * dd.val = (i 1).val * 512 + dd.val; omega

end Cert.KernelIdeal.Fr

end
-- ==== Proof.KI.Accum.lean ====
/-
  The accumulator point by point. After the body at position `n` the accumulator holds the step payload of the point's
  noise block over what it held before, restarting from the zero payload at each tile's first feature chunk: a recursion on
  the position, equal to the accumulator component of the point-by-point contents by induction over the points (each
  case's accumulator piece is that payload). Any `F`.
-/
import proofs.«152655_j7894149890238_2_alg».proof.Proof.KI.Sample
import proofs.«152655_j7894149890238_2_alg».proof.Proof.KI.SamplePieces

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after position `n`: the step payload of the point's noise block, over the zero payload at a tile's
    first chunk and over the position before otherwise. -/
def accAt (c : Dev nD) : (n : ℕ) → n < cfg1.N → Vec F S32x192 .f32
  | 0, hn => k1_pay3 (iblk1 V c 0 ⟨0, hn⟩) (k1_pay1 (F := F))
  | n + 1, hn =>
    if (n + 1) % 4 = 0 then k1_pay3 (iblk1 V c 0 ⟨n + 1, hn⟩) (k1_pay1 (F := F))
    else k1_pay3 (iblk1 V c 0 ⟨n + 1, hn⟩) (accAt c n (Nat.lt_of_succ_lt hn))

theorem accAt_first (c : Dev nD) (n : ℕ) (hn : n < cfg1.N) (h : n % 4 = 0) :
    accAt V c n hn = k1_pay3 (iblk1 V c 0 ⟨n, hn⟩) (k1_pay1 (F := F)) := by
  cases n with
  | zero => rfl
  | succ n => exact if_pos h

theorem accAt_next (c : Dev nD) (n : ℕ) (hn : n + 1 < cfg1.N) (h : ¬(n + 1) % 4 = 0) :
    accAt V c (n + 1) hn = k1_pay3 (iblk1 V c 0 ⟨n + 1, hn⟩) (accAt V c n (Nat.lt_of_succ_lt hn)) := if_neg h

/-- The accumulator component of the point-by-point contents is `accAt`. -/
theorem acc_eq (c : Dev nD) : ∀ (n : ℕ) (hn : n < cfg1.N), (outsAt1 V c n hn).2.2 = accAt V c n hn := by
  intro n
  induction n with
  | zero =>
    intro hn
    rw [outsAt1_A V c ⟨0, hn⟩ (Nat.zero_mod _) (by show ¬(0 % 4 = 3); decide)]
    dsimp only
    rw [sout1_A_0_eq, accAt_first V c 0 hn (Nat.zero_mod _)]
  | succ n ih =>
    intro hn
    by_cases h0 : (n + 1) % 4 = 0
    · have h1 : ¬(n + 1) % 4 = 3 := by omega
      rw [outsAt1_A V c ⟨n + 1, hn⟩ h0 h1]
      dsimp only
      rw [sout1_A_0_eq, accAt_first V c (n + 1) hn h0]
    · by_cases h1 : (n + 1) % 4 = 3
      · rw [outsAt1_C V c ⟨n + 1, hn⟩ h0 h1]
        dsimp only
        rw [sout1_C_0_eq, accAt_next V c n hn h0]
        simp only [Nat.add_sub_cancel]
        rw [ih]
      · rw [outsAt1_B V c ⟨n + 1, hn⟩ h0 h1]
        dsimp only
        rw [sout1_B_0_eq, accAt_next V c n hn h0]
        simp only [Nat.add_sub_cancel]
        rw [ih]

end

end Cert.KernelIdeal.Fr

end
-- ==== Proof.KI.SampleBlocks.lean ====
/-
  Region 1 of @main, the sample kernel: where its windows' blocks sit in their arrays.

  The grid is 6 × 4, point t at coordinates (t / 4, t % 4): the sample-axis tile, then the feature-axis chunk.
  * the noise window's block at point t is rows 32 (t / 4) … + 31 of the first axis and columns 512 (t % 4) … + 511 of
    the last axis of the noise array, the middle axis whole;
  * the three resident windows (mean, scale, log-determinant row) hold their whole arrays at every point;
  * the body's sub-rectangle load reads columns 512 (t % 4) … + 511 of a resident array;
  * every entry of the sample array lies in the block written back at point 4 (I / 32) + D / 512, and every entry of the
    log-probability array in the block written back at point 4 (I / 32) + 3.
  Any float instance.
-/
import proofs.«152655_j7894149890238_2_alg».proof.Proof.KI.SampleBase
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL.Sem
open Idealize.ShloMosaic.Pipeline (Dat Cfg Window)
open Idealize.ShloMosaic.ValueIdx
open Cert.KernelIdeal Cert.KernelIdeal.Gen

variable {F : FTy → Type} [FloatOps F]

/-! ## The grid's points -/

theorem N1_eq : cfg1.N = 24 := N_1

/-- Row 32 (t / 4) + a of the sample axis: row a of the tile of point t. -/
abbrev tileRow (t : Fin cfg1.N) (a : Fin 32) : Fin 192 :=
  ⟨32 * (t.val / 4) + a.val, by have := t.isLt; have := N1_eq; have := a.isLt; omega⟩

/-- Column 512 (t % 4) + dd of the feature axis: column dd of the chunk of point t. -/
abbrev chunkCol (t : Fin cfg1.N) (dd : Fin 512) : Fin 2048 :=
  ⟨512 * (t.val % 4) + dd.val, by have := dd.isLt; omega⟩

/-! ## The noise block -/

/-- The noise window's index map over the grid. -/
theorem idx1_0 : ∀ t : Fin cfg1.N, win1_0.index t 0 = t.val / 4 ∧ win1_0.index t 1 = 0 ∧ win1_0.index t 2 = t.val % 4 :=
  (by decide +kernel : ∀ t : Fin grid1.N, win1_0.index t 0 = t.val / 4 ∧ win1_0.index t 1 = 0 ∧ win1_0.index t 2 = t.val % 4)

section
variable (V : (c : Dev nD) → (b : Ref sig .tc) → Buf (Elt F) ((c : Thread nD τ).loc b))

/-- The noise block at point t, entry (a, j, dd), is the noise array at (32 (t / 4) + a, j, 512 (t % 4) + dd). -/
theorem iblk1_0_apply (c : Dev nD) (t : Fin cfg1.N) (a : Fin 32) (j : Fin 192) (dd : Fin 512) :
    (iblk1 V c 0 t : Vec F S32x192x512 .f32) (ix3 a j dd)
      = (V c main_arg1 : S192x192x2048.Idx → Elt F .f32) (ix3 (tileRow t a) j (chunkCol t dd)) := by
  obtain ⟨h0, h1, h2⟩ := idx1_0 t
  unfold iblk1
  rw [View.read_apply]
  show V c main_arg1 _ = V c main_arg1 _
  congr 1
  funext x
  apply Fin.ext
  match x with
  | ⟨0, _⟩ => show win1_0.index t 0 * 32 + 1 * a.val = 32 * (t.val / 4) + a.val; rw [h0]; omega
  | ⟨1, _⟩ => show win1_0.index t 1 * 192 + 1 * j.val = j.val; rw [h1]; omega
  | ⟨2, _⟩ => show win1_0.index t 2 * 512 + 1 * dd.val = 512 * (t.val % 4) + dd.val; rw [h2]; omega

end
/-! ## The resident arrays -/

section
variable (V : (c : Dev nD) → (b : Ref sig .tc) → Buf (Elt F) ((c : Thread nD τ).loc b))

/-- The mean window holds its whole array at every point. -/
theorem iblk1_1_eq (c : Dev nD) (t : Fin cfg1.N) :
    (iblk1 V c 1 t : Vec F S192x2048 .f32) = (V c main_v12_0 : S192x2048.Idx → Elt F .f32) := by
  have hi : win1_1.index t 0 = 0 ∧ win1_1.index t 1 = 0 := ⟨rfl, rfl⟩
  funext x
  unfold iblk1
  rw [View.read_apply]
  show V c main_v12_0 _ = V c main_v12_0 x
  congr 1
  funext a
  apply Fin.ext
  match a with
  | ⟨0, _⟩ => show win1_1.index t 0 * 192 + 1 * (x 0).val = (x 0).val; rw [hi.1]; omega
  | ⟨1, _⟩ => show win1_1.index t 1 * 2048 + 1 * (x 1).val = (x 1).val; rw [hi.2]; omega

/-- The scale window holds its whole array at every point. -/
theorem iblk1_2_eq (c : Dev nD) (t : Fin cfg1.N) :
    (iblk1 V c 2 t : Vec F S192x2048 .f32) = (V c main_v12_1 : S192x2048.Idx → Elt F .f32) := by
  have hi : win1_2.index t 0 = 0 ∧ win1_2.index t 1 = 0 := ⟨rfl, rfl⟩
  funext x
  unfold iblk1
  rw [View.read_apply]
  show V c main_v12_1 _ = V c main_v12_1 x
  congr 1
  funext a
  apply Fin.ext
  match a with
  | ⟨0, _⟩ => show win1_2.index t 0 * 192 + 1 * (x 0).val = (x 0).val; rw [hi.1]; omega
  | ⟨1, _⟩ => show win1_2.index t 1 * 2048 + 1 * (x 1).val = (x 1).val; rw [hi.2]; omega

/-- The log-determinant row's window holds its whole array at every point. -/
theorem iblk1_3_eq (c : Dev nD) (t : Fin cfg1.N) :
    (iblk1 V c 3 t : Vec F S1x192 .f32) = (V c main_v12_2 : S1x192.Idx → Elt F .f32) := by
  have hi : win1_3.index t 0 = 0 ∧ win1_3.index t 1 = 0 := ⟨rfl, rfl⟩
  funext x
  unfold iblk1
  rw [View.read_apply]
  show V c main_v12_2 _ = V c main_v12_2 x
  congr 1
  funext a
  apply Fin.ext
  match a with
  | ⟨0, _⟩ => show win1_3.index t 0 * 1 + 1 * (x 0).val = (x 0).val; rw [hi.1]; omega
  | ⟨1, _⟩ => show win1_3.index t 1 * 192 + 1 * (x 1).val = (x 1).val; rw [hi.2]; omega

end

/-! ## The body's sub-rectangle load -/

/-- The body's load offsets at point t: column 512 (t % 4). -/
theorem off1_eq : ∀ t : Fin cfg1.N, k1_off1 (grid1.coords t) = ![0, 512 * (t.val % 4)] :=
  (by decide +kernel : ∀ t : Fin grid1.N, k1_off1 (grid1.coords t) = ![0, 512 * (t.val % 4)])

/-- The body's load of a resident array at point t, entry (j, dd), is the array at (j, 512 (t % 4) + dd). -/
theorem ld_chunk (x : Vec F S192x2048 .f32) (t : Fin cfg1.N) (j : Fin 192) (dd : Fin 512) :
    View.ld x (Rect.unit (s := S192x2048) (k1_off1 (grid1.coords t)) S192x512.size (k1_off1_inb (grid1.coords t)))
        (ix2 j dd)
      = x (ix2 j (chunkCol t dd)) := by
  have ho := off1_eq t
  show x _ = x _
  congr 1
  funext a
  apply Fin.ext
  match a with
  | ⟨0, _⟩ =>
    show k1_off1 (grid1.coords t) 0 + 1 * j.val = j.val
    rw [ho]; show 0 + 1 * j.val = j.val; omega
  | ⟨1, _⟩ =>
    show k1_off1 (grid1.coords t) 1 + 1 * dd.val = 512 * (t.val % 4) + dd.val
    rw [ho]; show 512 * (t.val % 4) + 1 * dd.val = 512 * (t.val % 4) + dd.val; omega

/-! ## The output windows' blocks -/

/-- The sample window's index map over the grid: the noise window's. -/
theorem idx1_4 : ∀ t : Fin cfg1.N, win1_4.index t 0 = t.val / 4 ∧ win1_4.index t 1 = 0 ∧ win1_4.index t 2 = t.val % 4 :=
  (by decide +kernel : ∀ t : Fin grid1.N, win1_4.index t 0 = t.val / 4 ∧ win1_4.index t 1 = 0 ∧ win1_4.index t 2 = t.val % 4)

/-- The log-probability window's index map over the grid: the tile, and the whole second axis. -/
theorem idx1_5 : ∀ t : Fin cfg1.N, win1_5.index t 0 = t.val / 4 ∧ win1_5.index t 1 = 0 :=
  (by decide +kernel : ∀ t : Fin grid1.N, win1_5.index t 0 = t.val / 4 ∧ win1_5.index t 1 = 0)

/-- Neither output window's block is clipped at the array's edge. -/
theorem xsize1_4 : ∀ t : Fin cfg1.N, win1_4.xsize (grid1.coords t) 0 = 32 ∧ win1_4.xsize (grid1.coords t) 1 = 192
    ∧ win1_4.xsize (grid1.coords t) 2 = 512 :=
  (by decide +kernel : ∀ t : Fin grid1.N, win1_4.xsize (grid1.coords t) 0 = 32 ∧ win1_4.xsize (grid1.coords t) 1 = 192
    ∧ win1_4.xsize (grid1.coords t) 2 = 512)

theorem xsize1_5 : ∀ t : Fin cfg1.N, win1_5.xsize (grid1.coords t) 0 = 32 ∧ win1_5.xsize (grid1.coords t) 1 = 192 :=
  (by decide +kernel : ∀ t : Fin grid1.N, win1_5.xsize (grid1.coords t) 0 = 32 ∧ win1_5.xsize (grid1.coords t) 1 = 192)

/-- Block t of the sample window read off any array G: entry (a, j, dd) is G at (32 (t / 4) + a, j, 512 (t % 4) + dd). -/
theorem blk1_4_read (G : S192x192x2048.Idx → Elt F .f32) (t : Fin cfg1.N) (a : Fin 32) (j : Fin 192) (dd : Fin 512) :
    (((cfg1.win 4).blk t).view.read (Elt F) G : Vec F S32x192x512 .f32) (ix3 a j dd)
      = G (ix3 (tileRow t a) j (chunkCol t dd)) := by
  obtain ⟨h0, h1, h2⟩ := idx1_4 t
  rw [View.read_apply]
  show G _ = G _
  congr 1
  funext x
  apply Fin.ext
  match x with
  | ⟨0, _⟩ => show win1_4.index t 0 * 32 + 1 * a.val = 32 * (t.val / 4) + a.val; rw [h0]; omega
  | ⟨1, _⟩ => show win1_4.index t 1 * 192 + 1 * j.val = j.val; rw [h1]; omega
  | ⟨2, _⟩ => show win1_4.index t 2 * 512 + 1 * dd.val = 512 * (t.val % 4) + dd.val; rw [h2]; omega

/-- Block t of the log-probability window read off any array G: entry (a, j) is G at (32 (t / 4) + a, j). -/
theorem blk1_5_read (G : S192x192.Idx → Elt F .f32) (t : Fin cfg1.N) (a : Fin 32) (j : Fin 192) :
    (((cfg1.win 5).blk t).view.read (Elt F) G : Vec F S32x192 .f32) (ix2 a j) = G (ix2 (tileRow t a) j) := by
  obtain ⟨h0, h1⟩ := idx1_5 t
  rw [View.read_apply]
  show G _ = G _
  congr 1
  funext x
  apply Fin.ext
  match x with
  | ⟨0, _⟩ => show win1_5.index t 0 * 32 + 1 * a.val = 32 * (t.val / 4) + a.val; rw [h0]; omega
  | ⟨1, _⟩ => show win1_5.index t 1 * 192 + 1 * j.val = j.val; rw [h1]; omega

/-! ## The covers -/

/-- Every entry (I, j, D) of the sample array lies in the block written back at point 4 (I / 32) + D / 512. -/
theorem cover1_4 (i : S192x192x2048.Idx) :
    ∃ t : Fin cfg1.N, (cfg1.win 4).flush t = true ∧ i ∈ ((View.whole main_v13_0).slice (win1_4.rect t)).set := by
  have hI : (i 0 : Nat) < 192 := (i 0).isLt
  have hJ : (i 1 : Nat) < 192 := (i 1).isLt
  have hD : (i 2 : Nat) < 2048 := (i 2).isLt
  obtain ⟨t, ht⟩ : ∃ t : Fin cfg1.N, t.val = 4 * ((i 0 : Nat) / 32) + (i 2 : Nat) / 512 :=
    ⟨⟨4 * ((i 0 : Nat) / 32) + (i 2 : Nat) / 512, by rw [N1_eq]; omega⟩, rfl⟩
  obtain ⟨h0, h1, h2⟩ := idx1_4 t
  obtain ⟨x0, x1, x2⟩ := xsize1_4 t
  refine ⟨t, flush1_4 t, ?_⟩
  rw [View.set_slice_whole, Rect.mem_set_unit]
  intro a
  match a with
  | ⟨0, _⟩ =>
    show win1_4.index t 0 * 32 ≤ (i 0 : Nat) ∧ (i 0 : Nat) < win1_4.index t 0 * 32 + win1_4.xsize (grid1.coords t) 0
    rw [h0, x0]; omega
  | ⟨1, _⟩ =>
    show win1_4.index t 1 * 192 ≤ (i 1 : Nat) ∧ (i 1 : Nat) < win1_4.index t 1 * 192 + win1_4.xsize (grid1.coords t) 1
    rw [h1, x1]; omega
  | ⟨2, _⟩ =>
    show win1_4.index t 2 * 512 ≤ (i 2 : Nat) ∧ (i 2 : Nat) < win1_4.index t 2 * 512 + win1_4.xsize (grid1.coords t) 2
    rw [h2, x2]; omega

/-- Every entry (I, j) of the log-probability array lies in the block written back at point 4 (I / 32) + 3, the last
    chunk of its tile. -/
theorem cover1_5 (i : S192x192.Idx) :
    ∃ t : Fin cfg1.N, (cfg1.win 5).flush t = true ∧ i ∈ ((View.whole main_v13_1).slice (win1_5.rect t)).set := by
  have hI : (i 0 : Nat) < 192 := (i 0).isLt
  have hJ : (i 1 : Nat) < 192 := (i 1).isLt
  obtain ⟨t, ht⟩ : ∃ t : Fin cfg1.N, t.val = 4 * ((i 0 : Nat) / 32) + 3 :=
    ⟨⟨4 * ((i 0 : Nat) / 32) + 3, by rw [N1_eq]; omega⟩, rfl⟩
  obtain ⟨h0, h1⟩ := idx1_5 t
  obtain ⟨x0, x1⟩ := xsize1_5 t
  refine ⟨t, (flush1_5 t).mpr (by omega), ?_⟩
  rw [View.set_slice_whole, Rect.mem_set_unit]
  intro a
  match a with
  | ⟨0, _⟩ =>
    show win1_5.index t 0 * 32 ≤ (i 0 : Nat) ∧ (i 0 : Nat) < win1_5.index t 0 * 32 + win1_5.xsize (grid1.coords t) 0
    rw [h0, x0]; omega
  | ⟨1, _⟩ =>
    show win1_5.index t 1 * 192 ≤ (i 1 : Nat) ∧ (i 1 : Nat) < win1_5.index t 1 * 192 + win1_5.xsize (grid1.coords t) 1
    rw [h1, x1]; omega

end Cert.KernelIdeal.Fr

end
-- ==== Proof.Spec.lean ====
/-
  The shared vocabulary of this certificate's value proofs: one dense layer with the clamp at zero, and the three-layer
  head both programs compute twice (once for the mean, once for the log-variance). Everything is an extended real; the
  weight of a layer is stored output-major (row `h` of `w` is the weights of output unit `h`), so a layer is
  `max (Σ_k x i k · w h k + b h) 0`.
-/
import Idealize.ShloMosaic.PureOps.Ideal
import Idealize.ShloMosaic.Lib.ValueIdx

noncomputable section

namespace Cert.Spec

open Idealize.ShloMosaic

/-- One dense layer followed by the clamp at zero: unit `h` of row `i` is `max (Σ_k x i k · w h k + b h) 0`. -/
def dense {B K H : ℕ} (x : Fin B → Fin K → EReal) (w : Fin H → Fin K → EReal) (b : Fin H → EReal)
    (i : Fin B) (h : Fin H) : EReal :=
  max ((∑ k : Fin K, x i k * w h k) + b h) 0

/-- The head: 2048 → 128 → 128 → 2048, a clamp at zero after every layer, the last included. -/
def head (q : Fin 192 → Fin 2048 → EReal)
    (w1 : Fin 128 → Fin 2048 → EReal) (b1 : Fin 128 → EReal)
    (w2 : Fin 128 → Fin 128 → EReal) (b2 : Fin 128 → EReal)
    (w3 : Fin 2048 → Fin 128 → EReal) (b3 : Fin 2048 → EReal) : Fin 192 → Fin 2048 → EReal :=
  dense (dense (dense q w1 b1) w2 b2) w3 b3

end Cert.Spec

end
-- ==== Proof.Payloads.lean ====
/-
  The kernel's arithmetic read at an index, at the ideal values (every float an extended real, every operation exact).

  Each payload of the generated skeleton is one pure term of the vectors the body loaded. Here each is read at an index
  written by its coordinates: the two three-layer heads as the shared vocabulary's `Cert.Spec.head` over the loaded weight
  blocks (which are stored input-major, so output unit `h` of a layer reads column `h` of its block), the scale as the
  exponential of a quarter of the log-variance, the log-determinant row as half the row sum of the log-variance, the
  sample as mean plus noise times scale, the running sum of squares, and the final log-probability.

  The steps that are not pointwise get one small lemma each: a row broadcast over a leading axis, the two casts that make
  a vector a column and a column a row, a sum over the last axis as a `Fin`-indexed sum, and a matrix product into the
  zero accumulator as the sum over its one contracting coordinate.
-/
import proofs.«152655_j7894149890238_2_alg».proof.Proof.Gen.KernelIdeal.Skeleton
import proofs.«152655_j7894149890238_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Idealize.SL.Sem Cert.KernelIdeal Cert.KernelIdeal.Gen

section Layout
variable {α : Type}

/-- A `[1, a, b]` array broadcast to `[m, a, b]` reads, at `(p, i, c)`, the operand at `(0, i, c)`. -/
theorem broadcastTo_1ab_mab_apply {m a b : ℕ} (v : (⟨3, ![1, a, b]⟩ : Shape).Idx → α)
    (h : (⟨3, ![1, a, b]⟩ : Shape).Broadcasts ⟨3, ![m, a, b]⟩) (p : Fin m) (i : Fin a) (c : Fin b) :
    broadcastTo ⟨3, ![m, a, b]⟩ v h (ix3 p i c) = v (ix3 (0 : Fin 1) i c) := by
  refine broadcastTo_apply v h (ix3 p i c) (ix3 (0 : Fin 1) i c) fun ax => ?_
  match ax with
  | ⟨0, _⟩ => rfl
  | ⟨1, _⟩ =>
    show i.val = if a = 1 then 0 else i.val
    split
    · have := i.isLt; omega
    · rfl
  | ⟨2, _⟩ =>
    show c.val = if b = 1 then 0 else c.val
    split
    · have := c.isLt; omega
    · rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

end Layout

section Reduce

/-- A sum over the last axis of a rank-3 array, read at `(a, j)`: the `Fin`-indexed sum over that axis's coordinate. -/
theorem multiReduction_add_axis2_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = 0x00000000#32) (a : Fin n0) (j : Fin n1) :
    multiReduction .add [2] ⟨2, ![n0, n1]⟩ src 0x00000000#32 h hφ hacc (ix2 a j) = ∑ d : Fin n2, src (ix3 a j d) := by
  refine (Ideal.multiReduction_add_single src 0x00000000#32 h hφ hacc (ix2 a j)).trans ?_
  exact Finset.sum_congr rfl fun d _ => congrArg src (funext fun c => Fin.ext (by
    match c with
    | ⟨0, _⟩ => rfl
    | ⟨1, _⟩ => rfl
    | ⟨2, _⟩ => rfl))

/-- A sum over the last axis of a matrix, read at row `r`: the `Fin`-indexed sum over the row. -/
theorem multiReduction_add_axis1_apply {n0 n1 : ℕ} (src : FVec Ideal ⟨2, ![n0, n1]⟩ .f32)
    (h : (⟨2, ![n0, n1]⟩ : Shape).Reduces [1] ⟨1, ![n0]⟩) (hφ : FKind.Formats .f32)
    (hacc : (0x00000000#32 : BitVec 32) = 0x00000000#32) (r : Fin n0) :
    multiReduction .add [1] ⟨1, ![n0]⟩ src 0x00000000#32 h hφ hacc (ix1 r) = ∑ d : Fin n1, src (ix2 r d) := by
  refine (Ideal.multiReduction_add_single src 0x00000000#32 h hφ hacc (ix1 r)).trans ?_
  exact Finset.sum_congr rfl fun d _ => congrArg src (funext fun c => Fin.ext (by
    match c with
    | ⟨0, _⟩ => rfl
    | ⟨1, _⟩ => rfl))

end Reduce

section Matmul

/-- A matrix product into the zero accumulator, read at `(i, h)`: the sum over the one contracting coordinate of the
    products of the left operand's row `i` and the right operand's column `h`. The four index facts say which coordinates
    the dimension numbers read. -/
theorem matmul_zero_ix2_apply {m k n : ℕ} (D : DotDims ⟨2, ![m, k]⟩ ⟨2, ![k, n]⟩ ⟨2, ![m, n]⟩) (prec : Option ContractPrecision)
    (hr : D.contr.rank = 1) (hs : D.contr.size ⟨0, by omega⟩ = k)
    (hl0 : ∀ (j : (⟨2, ![m, n]⟩ : Shape).Idx) (q : D.contr.Idx), (D.lhsIdx j q ⟨0, Nat.zero_lt_two⟩).val = (j ⟨0, Nat.zero_lt_two⟩).val)
    (hl1 : ∀ (j : (⟨2, ![m, n]⟩ : Shape).Idx) (q : D.contr.Idx), (D.lhsIdx j q ⟨1, Nat.one_lt_two⟩).val = (q ⟨0, by omega⟩).val)
    (hr0 : ∀ (j : (⟨2, ![m, n]⟩ : Shape).Idx) (q : D.contr.Idx), (D.rhsIdx j q ⟨0, Nat.zero_lt_two⟩).val = (q ⟨0, by omega⟩).val)
    (hr1 : ∀ (j : (⟨2, ![m, n]⟩ : Shape).Idx) (q : D.contr.Idx), (D.rhsIdx j q ⟨1, Nat.one_lt_two⟩).val = (j ⟨1, Nat.one_lt_two⟩).val)
    (lhs : FVec Ideal ⟨2, ![m, k]⟩ .f32) (rhs : FVec Ideal ⟨2, ![k, n]⟩ .f32) (i : Fin m) (h : Fin n) :
    matmul D prec lhs rhs (constant ⟨2, ![m, n]⟩ .f32 0x00000000#32) (ix2 i h) = ∑ kk : Fin k, lhs (ix2 i kk) * rhs (ix2 kk h) := by
  refine (Ideal.matmul_constant_zero_apply D prec lhs rhs (ix2 i h)).trans ?_
  rw [← Equiv.sum_comp (contrEquiv1 D k hr hs).symm]
  refine Finset.sum_congr rfl fun kk _ => ?_
  have hk := contrEquiv1_symm_val D k hr hs kk
  have el : D.lhsIdx (ix2 i h) ((contrEquiv1 D k hr hs).symm kk) = ix2 i kk := funext fun a => Fin.ext (by
    match a with
    | ⟨0, _⟩ => exact hl0 _ _
    | ⟨1, _⟩ => exact (hl1 _ _).trans hk)
  have er : D.rhsIdx (ix2 i h) ((contrEquiv1 D k hr hs).symm kk) = ix2 kk h := funext fun a => Fin.ext (by
    match a with
    | ⟨0, _⟩ => exact (hr0 _ _).trans hk
    | ⟨1, _⟩ => exact hr1 _ _)
  rw [el, er]

end Matmul

section DotFacts
/-! The three products' dimension numbers contract the left operand's axis 1 with the right operand's axis 0; the output's
    row is the left operand's, its column the right operand's. -/

theorem lhs1_0 (j : S192x128.Idx) (q : dot_S192x2048_S2048x128_S192x128_1_0_0_1_n_n.contr.Idx) :
    (dot_S192x2048_S2048x128_S192x128_1_0_0_1_n_n.lhsIdx j q ⟨0, Nat.zero_lt_two⟩).val = (j ⟨0, Nat.zero_lt_two⟩).val := by
  unfold DotDims.lhsIdx
  rw [dif_neg (show ¬(⟨0, Nat.zero_lt_two⟩ : Fin S192x2048.rank) ∈ dot_S192x2048_S2048x128_S192x128_1_0_0_1_n_n.lhsBatch by decide),
    dif_pos (show (⟨0, Nat.zero_lt_two⟩ : Fin S192x2048.rank) ∈ dot_S192x2048_S2048x128_S192x128_1_0_0_1_n_n.lhsNonContracting by decide)]
  rfl
theorem lhs1_1 (j : S192x128.Idx) (q : dot_S192x2048_S2048x128_S192x128_1_0_0_1_n_n.contr.Idx) :
    (dot_S192x2048_S2048x128_S192x128_1_0_0_1_n_n.lhsIdx j q ⟨1, Nat.one_lt_two⟩).val = (q ⟨0, Nat.one_pos⟩).val :=
  dot_S192x2048_S2048x128_S192x128_1_0_0_1_n_n.lhsIdx_val_of_single rfl j q
theorem rhs1_0 (j : S192x128.Idx) (q : dot_S192x2048_S2048x128_S192x128_1_0_0_1_n_n.contr.Idx) :
    (dot_S192x2048_S2048x128_S192x128_1_0_0_1_n_n.rhsIdx j q ⟨0, Nat.zero_lt_two⟩).val = (q ⟨0, Nat.one_pos⟩).val :=
  dot_S192x2048_S2048x128_S192x128_1_0_0_1_n_n.rhsIdx_val_of_single rfl j q
theorem rhs1_1 (j : S192x128.Idx) (q : dot_S192x2048_S2048x128_S192x128_1_0_0_1_n_n.contr.Idx) :
    (dot_S192x2048_S2048x128_S192x128_1_0_0_1_n_n.rhsIdx j q ⟨1, Nat.one_lt_two⟩).val = (j ⟨1, Nat.one_lt_two⟩).val := by
  unfold DotDims.rhsIdx
  rw [dif_neg (show ¬(⟨1, Nat.one_lt_two⟩ : Fin S2048x128.rank) ∈ dot_S192x2048_S2048x128_S192x128_1_0_0_1_n_n.rhsBatch by decide),
    dif_pos (show (⟨1, Nat.one_lt_two⟩ : Fin S2048x128.rank) ∈ dot_S192x2048_S2048x128_S192x128_1_0_0_1_n_n.rhsNonContracting by decide)]
  rfl

theorem lhs2_0 (j : S192x128.Idx) (q : dot_S192x128_S128x128_S192x128_1_0_0_1_n_n.contr.Idx) :
    (dot_S192x128_S128x128_S192x128_1_0_0_1_n_n.lhsIdx j q ⟨0, Nat.zero_lt_two⟩).val = (j ⟨0, Nat.zero_lt_two⟩).val := by
  unfold DotDims.lhsIdx
  rw [dif_neg (show ¬(⟨0, Nat.zero_lt_two⟩ : Fin S192x128.rank) ∈ dot_S192x128_S128x128_S192x128_1_0_0_1_n_n.lhsBatch by decide),
    dif_pos (show (⟨0, Nat.zero_lt_two⟩ : Fin S192x128.rank) ∈ dot_S192x128_S128x128_S192x128_1_0_0_1_n_n.lhsNonContracting by decide)]
  rfl
theorem lhs2_1 (j : S192x128.Idx) (q : dot_S192x128_S128x128_S192x128_1_0_0_1_n_n.contr.Idx) :
    (dot_S192x128_S128x128_S192x128_1_0_0_1_n_n.lhsIdx j q ⟨1, Nat.one_lt_two⟩).val = (q ⟨0, Nat.one_pos⟩).val :=
  dot_S192x128_S128x128_S192x128_1_0_0_1_n_n.lhsIdx_val_of_single rfl j q
theorem rhs2_0 (j : S192x128.Idx) (q : dot_S192x128_S128x128_S192x128_1_0_0_1_n_n.contr.Idx) :
    (dot_S192x128_S128x128_S192x128_1_0_0_1_n_n.rhsIdx j q ⟨0, Nat.zero_lt_two⟩).val = (q ⟨0, Nat.one_pos⟩).val :=
  dot_S192x128_S128x128_S192x128_1_0_0_1_n_n.rhsIdx_val_of_single rfl j q
theorem rhs2_1 (j : S192x128.Idx) (q : dot_S192x128_S128x128_S192x128_1_0_0_1_n_n.contr.Idx) :
    (dot_S192x128_S128x128_S192x128_1_0_0_1_n_n.rhsIdx j q ⟨1, Nat.one_lt_two⟩).val = (j ⟨1, Nat.one_lt_two⟩).val := by
  unfold DotDims.rhsIdx
  rw [dif_neg (show ¬(⟨1, Nat.one_lt_two⟩ : Fin S128x128.rank) ∈ dot_S192x128_S128x128_S192x128_1_0_0_1_n_n.rhsBatch by decide),
    dif_pos (show (⟨1, Nat.one_lt_two⟩ : Fin S128x128.rank) ∈ dot_S192x128_S128x128_S192x128_1_0_0_1_n_n.rhsNonContracting by decide)]
  rfl

theorem lhs3_0 (j : S192x2048.Idx) (q : dot_S192x128_S128x2048_S192x2048_1_0_0_1_n_n.contr.Idx) :
    (dot_S192x128_S128x2048_S192x2048_1_0_0_1_n_n.lhsIdx j q ⟨0, Nat.zero_lt_two⟩).val = (j ⟨0, Nat.zero_lt_two⟩).val := by
  unfold DotDims.lhsIdx
  rw [dif_neg (show ¬(⟨0, Nat.zero_lt_two⟩ : Fin S192x128.rank) ∈ dot_S192x128_S128x2048_S192x2048_1_0_0_1_n_n.lhsBatch by decide),
    dif_pos (show (⟨0, Nat.zero_lt_two⟩ : Fin S192x128.rank) ∈ dot_S192x128_S128x2048_S192x2048_1_0_0_1_n_n.lhsNonContracting by decide)]
  rfl
theorem lhs3_1 (j : S192x2048.Idx) (q : dot_S192x128_S128x2048_S192x2048_1_0_0_1_n_n.contr.Idx) :
    (dot_S192x128_S128x2048_S192x2048_1_0_0_1_n_n.lhsIdx j q ⟨1, Nat.one_lt_two⟩).val = (q ⟨0, Nat.one_pos⟩).val :=
  dot_S192x128_S128x2048_S192x2048_1_0_0_1_n_n.lhsIdx_val_of_single rfl j q
theorem rhs3_0 (j : S192x2048.Idx) (q : dot_S192x128_S128x2048_S192x2048_1_0_0_1_n_n.contr.Idx) :
    (dot_S192x128_S128x2048_S192x2048_1_0_0_1_n_n.rhsIdx j q ⟨0, Nat.zero_lt_two⟩).val = (q ⟨0, Nat.one_pos⟩).val :=
  dot_S192x128_S128x2048_S192x2048_1_0_0_1_n_n.rhsIdx_val_of_single rfl j q
theorem rhs3_1 (j : S192x2048.Idx) (q : dot_S192x128_S128x2048_S192x2048_1_0_0_1_n_n.contr.Idx) :
    (dot_S192x128_S128x2048_S192x2048_1_0_0_1_n_n.rhsIdx j q ⟨1, Nat.one_lt_two⟩).val = (j ⟨1, Nat.one_lt_two⟩).val := by
  unfold DotDims.rhsIdx
  rw [dif_neg (show ¬(⟨1, Nat.one_lt_two⟩ : Fin S128x2048.rank) ∈ dot_S192x128_S128x2048_S192x2048_1_0_0_1_n_n.rhsBatch by decide),
    dif_pos (show (⟨1, Nat.one_lt_two⟩ : Fin S128x2048.rank) ∈ dot_S192x128_S128x2048_S192x2048_1_0_0_1_n_n.rhsNonContracting by decide)]
  rfl

end DotFacts

section Layer

/-- One layer as the kernel writes it — the product into the zero accumulator, plus the bias row broadcast over the
    rows, clamped at zero — read at `(i, h)`: the dense layer of the shared vocabulary, over the TRANSPOSED weight block
    (`w` is stored input-major, `[K, H]`) and the bias block's one row. `hx` names the left operand's elements. -/
theorem dense_layer_apply {B K H : ℕ} (D : DotDims ⟨2, ![B, K]⟩ ⟨2, ![K, H]⟩ ⟨2, ![B, H]⟩)
    (hr : D.contr.rank = 1) (hs : D.contr.size ⟨0, by omega⟩ = K)
    (hl0 : ∀ (j : (⟨2, ![B, H]⟩ : Shape).Idx) (q : D.contr.Idx), (D.lhsIdx j q ⟨0, Nat.zero_lt_two⟩).val = (j ⟨0, Nat.zero_lt_two⟩).val)
    (hl1 : ∀ (j : (⟨2, ![B, H]⟩ : Shape).Idx) (q : D.contr.Idx), (D.lhsIdx j q ⟨1, Nat.one_lt_two⟩).val = (q ⟨0, by omega⟩).val)
    (hr0 : ∀ (j : (⟨2, ![B, H]⟩ : Shape).Idx) (q : D.contr.Idx), (D.rhsIdx j q ⟨0, Nat.zero_lt_two⟩).val = (q ⟨0, by omega⟩).val)
    (hr1 : ∀ (j : (⟨2, ![B, H]⟩ : Shape).Idx) (q : D.contr.Idx), (D.rhsIdx j q ⟨1, Nat.one_lt_two⟩).val = (j ⟨1, Nat.one_lt_two⟩).val)
    (x : FVec Ideal ⟨2, ![B, K]⟩ .f32) (X : Fin B → Fin K → EReal) (hx : ∀ i k, x (ix2 i k) = X i k)
    (w : FVec Ideal ⟨2, ![K, H]⟩ .f32) (hw : (⟨2, ![K, H]⟩ : Shape).ShapeCasts ⟨2, ![K, H]⟩)
    (b : FVec Ideal ⟨2, ![1, H]⟩ .f32) (hb : (⟨2, ![1, H]⟩ : Shape).ShapeCasts ⟨2, ![1, H]⟩)
    (hbc : (⟨2, ![1, H]⟩ : Shape).Broadcasts ⟨2, ![B, H]⟩) (i : Fin B) (h : Fin H) :
    maximumf (addf (matmul D none x (shapeCast ⟨2, ![K, H]⟩ w hw) (constant ⟨2, ![B, H]⟩ .f32 0x00000000#32))
          (broadcastTo ⟨2, ![B, H]⟩ (shapeCast ⟨2, ![1, H]⟩ b hb) hbc))
        (broadcast ⟨2, ![B, H]⟩ (Scalar.ofBits (F := Ideal) .f32 0x00000000#32)) (ix2 i h)
      = Cert.Spec.dense X (fun h k => w (ix2 k h)) (fun h => b (ix2 0 h)) i h := by
  rw [maximumf_apply, addf_apply, matmul_zero_ix2_apply D none hr hs hl0 hl1 hr0 hr1, broadcastTo_1b_ab_apply,
    shapeCast_self, shapeCast_self, broadcast_apply]
  unfold Cert.Spec.dense
  simp only [hx]
  exact congrArg (max _) Ideal.ofBits_zero_f32

end Layer

/-! ## The sample kernel's payloads -/

/-- The accumulator's initial block: the zero pattern everywhere. -/
theorem k1_pay1_apply (a : Fin 32) (j : Fin 192) :
    Gen.k1_pay1 (F := Ideal) (ix2 a j) = Ideal.ofBits .f32 0x00000000#32 := by
  unfold Gen.k1_pay1
  rw [shapeCast_self]
  rfl

/-- … which is the extended real `0`. -/
theorem k1_pay1_apply_zero (a : Fin 32) (j : Fin 192) : Gen.k1_pay1 (F := Ideal) (ix2 a j) = 0 :=
  (k1_pay1_apply a j).trans Ideal.ofBits_zero_f32

/-- The sample: the mean tile plus the noise times the scale tile, both tiles broadcast over the sample axis. -/
theorem k1_pay2_apply (v6 : Vec Ideal S192x512 .f32) (v9 : Vec Ideal S192x512 .f32) (v11 : Vec Ideal S32x192x512 .f32)
    (a : Fin 32) (j : Fin 192) (d : Fin 512) :
    Gen.k1_pay2 v6 v9 v11 (ix3 a j d) = v6 (ix2 j d) + v11 (ix3 a j d) * v9 (ix2 j d) := by
  unfold Gen.k1_pay2
  rw [addf_apply, mulf_apply, broadcastTo_1ab_mab_apply, broadcastTo_1ab_mab_apply, shapeCast_ab_1ab_apply,
    shapeCast_ab_1ab_apply, shapeCast_self, shapeCast_self]

/-- The running sum of squares: the accumulator plus the sum over the tile's feature axis of the squared noise. -/
theorem k1_pay3_apply (v11 : Vec Ideal S32x192x512 .f32) (v19 : Vec Ideal S32x192 .f32) (a : Fin 32) (j : Fin 192) :
    Gen.k1_pay3 v11 v19 (ix2 a j) = v19 (ix2 a j) + ∑ d : Fin 512, v11 (ix3 a j d) * v11 (ix3 a j d) := by
  unfold Gen.k1_pay3
  rw [shapeCast_self, addf_apply]
  refine congrArg (v19 (ix2 a j) + ·) ?_
  exact multiReduction_add_axis2_apply (mulf v11 v11) _ _ _ a j

/-- The log-probability: `-0.5 · (acc + C) - 0.5 · logdet`, the log-determinant row broadcast over the sample axis. -/
theorem k1_pay4_apply (v29 : Vec Ideal S1x192 .f32) (v31 : Vec Ideal S32x192 .f32) (a : Fin 32) (j : Fin 192) :
    Gen.k1_pay4 v29 v31 (ix2 a j)
      = Ideal.ofBits .f32 0xBF000000#32 * (v31 (ix2 a j) + Ideal.ofBits .f32 0x456B3F8E#32)
        - Ideal.ofBits .f32 0x3F000000#32 * v29 (ix2 0 j) := by
  unfold Gen.k1_pay4
  rw [subf_apply, mulf_apply, addf_apply, broadcastTo_1b_ab_apply, mulf_apply, shapeCast_self]
  rfl

/-! ## The head kernel's payloads -/

/-- The mean head: the first part's payload at `(i, d)` is the three-layer head of the loaded blocks. -/
theorem k0_pay4_apply (v0 : Vec Ideal S192x2048 .f32) (v1 : Vec Ideal S2048x128 .f32) (v4 : Vec Ideal S1x128 .f32)
    (v10 : Vec Ideal S128x128 .f32) (v13 : Vec Ideal S1x128 .f32) (v19 : Vec Ideal S128x2048 .f32) (v22 : Vec Ideal S1x2048 .f32)
    (i : Fin 192) (d : Fin 2048) :
    Gen.k0_pay4 v0 v1 v4 v10 v13 v19 v22 (ix2 i d)
      = Cert.Spec.head (fun i k => v0 (ix2 i k)) (fun h k => v1 (ix2 k h)) (fun h => v4 (ix2 0 h))
          (fun h k => v10 (ix2 k h)) (fun h => v13 (ix2 0 h)) (fun d k => v19 (ix2 k d)) (fun d => v22 (ix2 0 d)) i d := by
  unfold Gen.k0_pay4 Cert.Spec.head
  exact dense_layer_apply dot_S192x128_S128x2048_S192x2048_1_0_0_1_n_n rfl rfl lhs3_0 lhs3_1 rhs3_0 rhs3_1 _ _
    (fun i k => dense_layer_apply dot_S192x128_S128x128_S192x128_1_0_0_1_n_n rfl rfl lhs2_0 lhs2_1 rhs2_0 rhs2_1 _ _
      (fun i k => dense_layer_apply dot_S192x2048_S2048x128_S192x128_1_0_0_1_n_n rfl rfl lhs1_0 lhs1_1 rhs1_0 rhs1_1 v0 _ (fun _ _ => rfl)
        v1 _ v4 _ _ i k)
      v10 _ v13 _ _ i k)
    v19 _ v22 _ _ i d

/-- The log-variance head: the second head's payload, over the first part's product and bias row, at `(i, d)`. -/
theorem k0_pay1_apply (v0 : Vec Ideal S192x2048 .f32) (v28 : Vec Ideal S2048x128 .f32) (v31 : Vec Ideal S1x128 .f32)
    (v37 : Vec Ideal S128x128 .f32) (v40 : Vec Ideal S1x128 .f32) (v46 : Vec Ideal S128x2048 .f32) (v49 : Vec Ideal S1x2048 .f32)
    (i : Fin 192) (d : Fin 2048) :
    Gen.k0_pay1 (Gen.k0_pay5 v0 v28) (Gen.k0_pay6 v31) v37 v40 v46 v49 (ix2 i d)
      = Cert.Spec.head (fun i k => v0 (ix2 i k)) (fun h k => v28 (ix2 k h)) (fun h => v31 (ix2 0 h))
          (fun h k => v37 (ix2 k h)) (fun h => v40 (ix2 0 h)) (fun d k => v46 (ix2 k d)) (fun d => v49 (ix2 0 d)) i d := by
  unfold Gen.k0_pay1 Gen.k0_pay5 Gen.k0_pay6 Cert.Spec.head
  exact dense_layer_apply dot_S192x128_S128x2048_S192x2048_1_0_0_1_n_n rfl rfl lhs3_0 lhs3_1 rhs3_0 rhs3_1 _ _
    (fun i k => dense_layer_apply dot_S192x128_S128x128_S192x128_1_0_0_1_n_n rfl rfl lhs2_0 lhs2_1 rhs2_0 rhs2_1 _ _
      (fun i k => dense_layer_apply dot_S192x2048_S2048x128_S192x128_1_0_0_1_n_n rfl rfl lhs1_0 lhs1_1 rhs1_0 rhs1_1 v0 _ (fun _ _ => rfl)
        v28 _ v31 _ _ i k)
      v37 _ v40 _ _ i k)
    v46 _ v49 _ _ i d

/-- The scale: the exponential of a quarter of the log-variance payload, element by element. -/
theorem k0_pay2_apply (v30 v33 : FVec Ideal S192x128 .f32) (v37 : Vec Ideal S128x128 .f32) (v40 : Vec Ideal S1x128 .f32)
    (v46 : Vec Ideal S128x2048 .f32) (v49 : Vec Ideal S1x2048 .f32) (i : Fin 192) (d : Fin 2048) :
    Gen.k0_pay2 v30 v33 v37 v40 v46 v49 (ix2 i d)
      = Ideal.exp (Ideal.ofBits .f32 0x3E800000#32 * Gen.k0_pay1 v30 v33 v37 v40 v46 v49 (ix2 i d)) := by
  unfold Gen.k0_pay2
  rfl

/-- The log-determinant row: half the sum over the feature axis of the log-variance payload. -/
theorem k0_pay3_apply (v30 v33 : FVec Ideal S192x128 .f32) (v37 : Vec Ideal S128x128 .f32) (v40 : Vec Ideal S1x128 .f32)
    (v46 : Vec Ideal S128x2048 .f32) (v49 : Vec Ideal S1x2048 .f32) (u : Fin 1) (j : Fin 192) :
    Gen.k0_pay3 v30 v33 v37 v40 v46 v49 (ix2 u j)
      = Ideal.ofBits .f32 0x3F000000#32 * ∑ d : Fin 2048, Gen.k0_pay1 v30 v33 v37 v40 v46 v49 (ix2 j d) := by
  unfold Gen.k0_pay3
  rw [shapeCast_a1_1a_apply, mulf_apply, broadcast_apply, shapeCast_a_a1_apply]
  refine congrArg (Scalar.ofBits (F := Ideal) .f32 0x3F000000#32 * ·) ?_
  exact multiReduction_add_axis1_apply (Gen.k0_pay1 v30 v33 v37 v40 v46 v49) _ _ _ j

/-- The scale over the loaded blocks: `exp (0.25 · lv)`. -/
theorem k0_pay2_head (v0 : Vec Ideal S192x2048 .f32) (v28 : Vec Ideal S2048x128 .f32) (v31 : Vec Ideal S1x128 .f32)
    (v37 : Vec Ideal S128x128 .f32) (v40 : Vec Ideal S1x128 .f32) (v46 : Vec Ideal S128x2048 .f32) (v49 : Vec Ideal S1x2048 .f32)
    (i : Fin 192) (d : Fin 2048) :
    Gen.k0_pay2 (Gen.k0_pay5 v0 v28) (Gen.k0_pay6 v31) v37 v40 v46 v49 (ix2 i d)
      = Ideal.exp (Ideal.ofBits .f32 0x3E800000#32 *
          Cert.Spec.head (fun i k => v0 (ix2 i k)) (fun h k => v28 (ix2 k h)) (fun h => v31 (ix2 0 h))
            (fun h k => v37 (ix2 k h)) (fun h => v40 (ix2 0 h)) (fun d k => v46 (ix2 k d)) (fun d => v49 (ix2 0 d)) i d) := by
  rw [k0_pay2_apply, k0_pay1_apply]

/-- The log-determinant row over the loaded blocks: `0.5 · Σ_d lv`. -/
theorem k0_pay3_head (v0 : Vec Ideal S192x2048 .f32) (v28 : Vec Ideal S2048x128 .f32) (v31 : Vec Ideal S1x128 .f32)
    (v37 : Vec Ideal S128x128 .f32) (v40 : Vec Ideal S1x128 .f32) (v46 : Vec Ideal S128x2048 .f32) (v49 : Vec Ideal S1x2048 .f32)
    (u : Fin 1) (j : Fin 192) :
    Gen.k0_pay3 (Gen.k0_pay5 v0 v28) (Gen.k0_pay6 v31) v37 v40 v46 v49 (ix2 u j)
      = Ideal.ofBits .f32 0x3F000000#32 * ∑ d : Fin 2048,
          Cert.Spec.head (fun i k => v0 (ix2 i k)) (fun h k => v28 (ix2 k h)) (fun h => v31 (ix2 0 h))
            (fun h k => v37 (ix2 k h)) (fun h => v40 (ix2 0 h)) (fun d k => v46 (ix2 k d)) (fun d => v49 (ix2 0 d)) j d := by
  rw [k0_pay3_apply]
  exact congrArg (Ideal.ofBits .f32 0x3F000000#32 * ·) (Finset.sum_congr rfl fun d _ => k0_pay1_apply v0 v28 v31 v37 v40 v46 v49 j d)

end Cert.KernelIdeal.Pay

end
-- ==== Proof.Algebra.lean ====
/-
  Real-number algebra behind the agreement of the two programs, stated over the extended reals with real witnesses.

  * a finite sum of reals, read in the extended reals, is the sum of the readings;
  * a dense layer (and so the three-layer head) of real-valued arguments is real-valued, and not negative;
  * the scale law: the square root of exp (l/2) is exp (l/4), a positive real whose square is exp (l/2);
  * the quadratic-form law: ((m + e s) - m)² / s² = e² for reals m, e and s ≠ 0;
  * a sum over 2048 entries is the sum of its four consecutive blocks of 512, accumulated from zero.
-/
import Idealize.ShloMosaic.PureOps.Ideal
import Idealize.ShloMosaic.PureOps.Ideal.Laws
import proofs.«152655_j7894149890238_2_alg».proof.Proof.Spec

noncomputable section

namespace Cert.Alg

open Idealize.ShloMosaic
open scoped BigOperators

/-! ### Sums of reals in the extended reals -/

/-- The reading of a finite sum of reals is the sum of the readings. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum {ι : Type*} [Fintype ι] (f : ι → ℝ) :
    ((∑ k, f k : ℝ) : EReal) = ∑ k, ((f k : ℝ) : EReal) :=
  coe_finset_sum Finset.univ f

/-- The reading of a maximum of two reals is the maximum of the readings. -/
theorem coe_max (x y : ℝ) : ((max x y : ℝ) : EReal) = max (x : EReal) (y : EReal) :=
  EReal.coe_strictMono.monotone.map_max

/-! ### A dense layer of reals is real -/

/-- A dense layer whose input, weights and bias are real is the real dense layer. -/
theorem dense_coe {B K H : ℕ} (x' : Fin B → Fin K → ℝ) (w' : Fin H → Fin K → ℝ) (b' : Fin H → ℝ)
    (i : Fin B) (h : Fin H) :
    Cert.Spec.dense (fun i k => (x' i k : EReal)) (fun h k => (w' h k : EReal)) (fun h => (b' h : EReal)) i h
      = ((max ((∑ k, x' i k * w' h k) + b' h) 0 : ℝ) : EReal) := by
  unfold Cert.Spec.dense
  rw [coe_max, EReal.coe_add, coe_sum, EReal.coe_zero]
  simp only [EReal.coe_mul]

/-- The real dense layer, as a function: what dense_coe reads a dense layer of reals as. -/
def rdense {B K H : ℕ} (x' : Fin B → Fin K → ℝ) (w' : Fin H → Fin K → ℝ) (b' : Fin H → ℝ)
    (i : Fin B) (h : Fin H) : ℝ :=
  max ((∑ k, x' i k * w' h k) + b' h) 0

theorem rdense_nonneg {B K H : ℕ} (x' : Fin B → Fin K → ℝ) (w' : Fin H → Fin K → ℝ) (b' : Fin H → ℝ)
    (i : Fin B) (h : Fin H) : 0 ≤ rdense x' w' b' i h :=
  le_max_right _ _

/-- dense_coe as an equation of functions. -/
theorem dense_coe_fun {B K H : ℕ} (x' : Fin B → Fin K → ℝ) (w' : Fin H → Fin K → ℝ) (b' : Fin H → ℝ) :
    Cert.Spec.dense (fun i k => (x' i k : EReal)) (fun h k => (w' h k : EReal)) (fun h => (b' h : EReal))
      = fun i h => ((rdense x' w' b' i h : ℝ) : EReal) := by
  funext i h
  exact dense_coe x' w' b' i h

/-- The real three-layer head. -/
def rhead (q' : Fin 192 → Fin 2048 → ℝ)
    (w1' : Fin 128 → Fin 2048 → ℝ) (b1' : Fin 128 → ℝ)
    (w2' : Fin 128 → Fin 128 → ℝ) (b2' : Fin 128 → ℝ)
    (w3' : Fin 2048 → Fin 128 → ℝ) (b3' : Fin 2048 → ℝ) : Fin 192 → Fin 2048 → ℝ :=
  rdense (rdense (rdense q' w1' b1') w2' b2') w3' b3'

theorem rhead_nonneg (q' : Fin 192 → Fin 2048 → ℝ)
    (w1' : Fin 128 → Fin 2048 → ℝ) (b1' : Fin 128 → ℝ)
    (w2' : Fin 128 → Fin 128 → ℝ) (b2' : Fin 128 → ℝ)
    (w3' : Fin 2048 → Fin 128 → ℝ) (b3' : Fin 2048 → ℝ) (i : Fin 192) (d : Fin 2048) :
    0 ≤ rhead q' w1' b1' w2' b2' w3' b3' i d :=
  rdense_nonneg _ _ _ i d

/-- The head of real-valued arguments is the real head. -/
theorem head_coe (q' : Fin 192 → Fin 2048 → ℝ)
    (w1' : Fin 128 → Fin 2048 → ℝ) (b1' : Fin 128 → ℝ)
    (w2' : Fin 128 → Fin 128 → ℝ) (b2' : Fin 128 → ℝ)
    (w3' : Fin 2048 → Fin 128 → ℝ) (b3' : Fin 2048 → ℝ) (i : Fin 192) (d : Fin 2048) :
    Cert.Spec.head (fun i k => (q' i k : EReal)) (fun h k => (w1' h k : EReal)) (fun h => (b1' h : EReal))
        (fun h k => (w2' h k : EReal)) (fun h => (b2' h : EReal))
        (fun h k => (w3' h k : EReal)) (fun h => (b3' h : EReal)) i d
      = ((rhead q' w1' b1' w2' b2' w3' b3' i d : ℝ) : EReal) := by
  unfold Cert.Spec.head rhead
  rw [dense_coe_fun q' w1' b1', dense_coe_fun (rdense q' w1' b1') w2' b2',
    dense_coe_fun (rdense (rdense q' w1' b1') w2' b2') w3' b3']

/-- The head of entrywise-real arguments is real-valued and not negative. -/
theorem head_real {q : Fin 192 → Fin 2048 → EReal}
    {w1 : Fin 128 → Fin 2048 → EReal} {b1 : Fin 128 → EReal}
    {w2 : Fin 128 → Fin 128 → EReal} {b2 : Fin 128 → EReal}
    {w3 : Fin 2048 → Fin 128 → EReal} {b3 : Fin 2048 → EReal}
    (hq : ∀ i k, ∃ r : ℝ, q i k = (r : EReal))
    (hw1 : ∀ h k, ∃ r : ℝ, w1 h k = (r : EReal)) (hb1 : ∀ h, ∃ r : ℝ, b1 h = (r : EReal))
    (hw2 : ∀ h k, ∃ r : ℝ, w2 h k = (r : EReal)) (hb2 : ∀ h, ∃ r : ℝ, b2 h = (r : EReal))
    (hw3 : ∀ h k, ∃ r : ℝ, w3 h k = (r : EReal)) (hb3 : ∀ h, ∃ r : ℝ, b3 h = (r : EReal)) :
    ∃ r : Fin 192 → Fin 2048 → ℝ, (∀ i d, 0 ≤ r i d) ∧
      ∀ i d, Cert.Spec.head q w1 b1 w2 b2 w3 b3 i d = (r i d : EReal) := by
  choose q' hq' using hq
  choose w1' hw1' using hw1
  choose b1' hb1' using hb1
  choose w2' hw2' using hw2
  choose b2' hb2' using hb2
  choose w3' hw3' using hw3
  choose b3' hb3' using hb3
  obtain rfl : q = fun i k => (q' i k : EReal) := funext fun i => funext fun k => hq' i k
  obtain rfl : w1 = fun i k => (w1' i k : EReal) := funext fun i => funext fun k => hw1' i k
  obtain rfl : b1 = fun i => (b1' i : EReal) := funext fun i => hb1' i
  obtain rfl : w2 = fun i k => (w2' i k : EReal) := funext fun i => funext fun k => hw2' i k
  obtain rfl : b2 = fun i => (b2' i : EReal) := funext fun i => hb2' i
  obtain rfl : w3 = fun i k => (w3' i k : EReal) := funext fun i => funext fun k => hw3' i k
  obtain rfl : b3 = fun i => (b3' i : EReal) := funext fun i => hb3' i
  exact ⟨rhead q' w1' b1' w2' b2' w3' b3', rhead_nonneg q' w1' b1' w2' b2' w3' b3',
    head_coe q' w1' b1' w2' b2' w3' b3'⟩

/-! ### The two float constants -/

/-- The pattern 0x3F000000 denotes one half. -/
theorem ofBits_half : Ideal.ofBits .f32 0x3F000000#32 = (((1 : ℝ) / 2 : ℝ) : EReal) := by
  simp [Ideal.ofBits, Ideal.ieee, -EReal.coe_mul]; norm_num

/-- The pattern 0x3E800000 denotes one quarter. -/
theorem ofBits_quarter : Ideal.ofBits .f32 0x3E800000#32 = (((1 : ℝ) / 4 : ℝ) : EReal) := by
  simp [Ideal.ofBits, Ideal.ieee, -EReal.coe_mul]; norm_num

/-! ### The scale law -/

/-- exp (l/4) is a positive real, and exp (l/2) is its square. -/
theorem scale_pos (l : ℝ) :
    ∃ s : ℝ, 0 < s ∧ Ideal.exp (Ideal.ofBits .f32 0x3E800000#32 * (l : EReal)) = (s : EReal)
      ∧ Ideal.exp (Ideal.ofBits .f32 0x3F000000#32 * (l : EReal)) = ((s * s : ℝ) : EReal) := by
  refine ⟨Real.exp (1 / 4 * l), Real.exp_pos _, ?_, ?_⟩
  · rw [ofBits_quarter, ← EReal.coe_mul, Ideal.exp_coe]
  · rw [ofBits_half, ← EReal.coe_mul, Ideal.exp_coe, ← Real.exp_add]
    congr 2
    ring

/-- The square root of exp (l/2) is exp (l/4). -/
theorem sqrt_exp_half (l : ℝ) :
    Ideal.sqrt (Ideal.exp (Ideal.ofBits .f32 0x3F000000#32 * (l : EReal)))
      = Ideal.exp (Ideal.ofBits .f32 0x3E800000#32 * (l : EReal)) := by
  rw [ofBits_half, ofBits_quarter, ← EReal.coe_mul, ← EReal.coe_mul, Ideal.exp_coe, Ideal.exp_coe, Ideal.sqrt_coe,
    if_neg (not_lt.mpr (Real.exp_pos _).le), ← Real.exp_half]
  congr 2
  ring

/-! ### The quadratic-form law -/

/-- For reals m, e and s ≠ 0: ((m + e s) - m) · ((m + e s) - m) / (s · s) = e · e. -/
theorem quad_form (m e s : ℝ) (hs : s ≠ 0) :
    Ideal.div ((((m : EReal) + (e : EReal) * (s : EReal)) - (m : EReal))
        * (((m : EReal) + (e : EReal) * (s : EReal)) - (m : EReal))) ((s * s : ℝ) : EReal)
      = (e : EReal) * (e : EReal) := by
  rw [Ideal.div_coe (mul_ne_zero hs hs)]
  rw [← EReal.coe_mul, ← EReal.coe_add, ← EReal.coe_sub, ← EReal.coe_mul, ← EReal.coe_mul, ← EReal.coe_mul]
  congr 1
  field_simp
  ring

/-! ### A sum over 2048 as four blocks of 512 -/

/-- Block c of a row of 2048: the sum of its entries 512 c, …, 512 c + 511. -/
def chunk (f : Fin 2048 → EReal) (c : Fin 4) : EReal :=
  ∑ k : Fin 512, f ⟨c.val * 512 + k.val, by have := c.isLt; have := k.isLt; omega⟩

/-- A sum over 2048 is the sum of its four blocks. -/
theorem sum_eq_sum_chunk (f : Fin 2048 → EReal) : ∑ d : Fin 2048, f d = ∑ c : Fin 4, chunk f c := by
  unfold chunk
  rw [← Fintype.sum_prod_type' (f := fun (c : Fin 4) (k : Fin 512) =>
    f ⟨c.val * 512 + k.val, by have := c.isLt; have := k.isLt; omega⟩)]
  refine (Fintype.sum_equiv (finProdFinEquiv (m := 4) (n := 512)) _ _ ?_).symm
  rintro ⟨c, k⟩
  congr 1
  apply Fin.ext
  simp [finProdFinEquiv]
  ring

/-- A block's sum with its entries' positions spelt 512 c + k. -/
theorem chunk_eq (f : Fin 2048 → EReal) (c : Fin 4) :
    chunk f c = ∑ k : Fin 512, f ⟨512 * c.val + k.val, by have := c.isLt; have := k.isLt; omega⟩ := by
  unfold chunk
  refine Finset.sum_congr rfl fun k _ => ?_
  congr 1
  apply Fin.ext
  show c.val * 512 + k.val = 512 * c.val + k.val
  omega

/-- The accumulator after n blocks, from zero; each block enters as 0 + (its sum). -/
def acc (f : Fin 2048 → EReal) : ℕ → EReal
  | 0 => 0
  | n + 1 => acc f n + (0 + if h : n < 4 then chunk f ⟨n, h⟩ else 0)

/-- After four blocks the accumulator is 0 + the whole sum. -/
theorem acc_four (f : Fin 2048 → EReal) : acc f 4 = 0 + ∑ d : Fin 2048, f d := by
  rw [sum_eq_sum_chunk, Fin.sum_univ_four]
  simp only [acc, zero_add, Nat.lt_irrefl, dite_true, add_assoc]
  simp

/-- The same with the four steps written out. -/
theorem acc_explicit (f : Fin 2048 → EReal) :
    ((((0 : EReal) + (0 + chunk f 0)) + (0 + chunk f 1)) + (0 + chunk f 2)) + (0 + chunk f 3)
      = 0 + ∑ d : Fin 2048, f d := by
  rw [sum_eq_sum_chunk, Fin.sum_univ_four]
  simp only [zero_add, add_assoc]

/-- The accumulator after n blocks, from zero, each block entering bare. -/
def accB (f : Fin 2048 → EReal) : ℕ → EReal
  | 0 => 0
  | n + 1 => accB f n + (if h : n < 4 then chunk f ⟨n, h⟩ else 0)

/-- After four blocks the bare accumulator is 0 + the whole sum. -/
theorem accB_four (f : Fin 2048 → EReal) : accB f 4 = 0 + ∑ d : Fin 2048, f d := by
  rw [sum_eq_sum_chunk, Fin.sum_univ_four]
  simp only [accB, zero_add, add_assoc]
  simp

/-- The same with the four steps written out. -/
theorem acc_bare (f : Fin 2048 → EReal) :
    ((((0 : EReal) + chunk f 0) + chunk f 1) + chunk f 2) + chunk f 3 = 0 + ∑ d : Fin 2048, f d := by
  rw [sum_eq_sum_chunk, Fin.sum_univ_four]
  simp only [zero_add, add_assoc]

/-! ### The two results, reference form against kernel form, at one coordinate -/

/-- The sample: with a real log-variance, mu + e · √(exp (l/2)) is mu + e · exp (l/4), whatever mu and e are. -/
theorem sample_eq (m e : EReal) (l : ℝ) :
    m + e * Ideal.sqrt (Ideal.exp (Ideal.ofBits .f32 0x3F000000#32 * (l : EReal)))
      = m + e * Ideal.exp (Ideal.ofBits .f32 0x3E800000#32 * (l : EReal)) := by
  rw [sqrt_exp_half]

/-- One term of the quadratic form: for reals m, e, l, with p = m + e · √(exp (l/2)),
    (p - m) · (p - m) / exp (l/2) = e · e. -/
theorem maha_term (m e l : ℝ) :
    Ideal.div
        ((((m : EReal) + (e : EReal) * Ideal.sqrt (Ideal.exp (Ideal.ofBits .f32 0x3F000000#32 * (l : EReal)))) - (m : EReal))
          * (((m : EReal) + (e : EReal) * Ideal.sqrt (Ideal.exp (Ideal.ofBits .f32 0x3F000000#32 * (l : EReal)))) - (m : EReal)))
        (Ideal.exp (Ideal.ofBits .f32 0x3F000000#32 * (l : EReal)))
      = (e : EReal) * (e : EReal) := by
  obtain ⟨s, hs, h4, h2⟩ := scale_pos l
  rw [sqrt_exp_half, h4, h2]
  exact quad_form m e s hs.ne'

/-- The quadratic form over a row: for entrywise-real mu, lv and e the reference's sum of quotients is the sum of squares
    of e. -/
theorem maha_sum_eq {n : ℕ} (mu lv e : Fin n → EReal)
    (hmu : ∀ d, ∃ r : ℝ, mu d = (r : EReal)) (hlv : ∀ d, ∃ r : ℝ, lv d = (r : EReal))
    (he : ∀ d, ∃ r : ℝ, e d = (r : EReal)) :
    ∑ d : Fin n,
        Ideal.div
          (((mu d + e d * Ideal.sqrt (Ideal.exp (Ideal.ofBits .f32 0x3F000000#32 * lv d))) - mu d)
            * ((mu d + e d * Ideal.sqrt (Ideal.exp (Ideal.ofBits .f32 0x3F000000#32 * lv d))) - mu d))
          (Ideal.exp (Ideal.ofBits .f32 0x3F000000#32 * lv d))
      = ∑ d : Fin n, e d * e d := by
  refine Finset.sum_congr rfl fun d _ => ?_
  obtain ⟨m', hm⟩ := hmu d
  obtain ⟨l', hl⟩ := hlv d
  obtain ⟨e', he'⟩ := he d
  rw [hm, hl, he']
  exact maha_term m' e' l'

/-- The log-probability at one pair of coordinates: the reference's form (quotients by the variance, both sums from
    zero) is the kernel's (squares of e summed block by block from zero, the log-variance sum bare); the constants are
    whatever they are. -/
theorem logprob_eq (negHalf half' C : EReal) (mu lv e : Fin 2048 → EReal)
    (hmu : ∀ d, ∃ r : ℝ, mu d = (r : EReal)) (hlv : ∀ d, ∃ r : ℝ, lv d = (r : EReal))
    (he : ∀ d, ∃ r : ℝ, e d = (r : EReal)) :
    negHalf
          * ((0 + ∑ d : Fin 2048,
                Ideal.div
                  (((mu d + e d * Ideal.sqrt (Ideal.exp (Ideal.ofBits .f32 0x3F000000#32 * lv d))) - mu d)
                    * ((mu d + e d * Ideal.sqrt (Ideal.exp (Ideal.ofBits .f32 0x3F000000#32 * lv d))) - mu d))
                  (Ideal.exp (Ideal.ofBits .f32 0x3F000000#32 * lv d)))
              + C)
        - half' * (half' * (0 + ∑ d : Fin 2048, lv d))
      = negHalf
            * ((((((0 : EReal) + chunk (fun d => e d * e d) 0) + chunk (fun d => e d * e d) 1)
                  + chunk (fun d => e d * e d) 2) + chunk (fun d => e d * e d) 3)
                + C)
          - half' * (half' * ∑ d : Fin 2048, lv d) := by
  rw [maha_sum_eq mu lv e hmu hlv he, acc_bare, zero_add (∑ d : Fin 2048, lv d)]

end Cert.Alg

end
-- ==== Proof.KI.SampleValue.lean ====
/-
  Region 1's write-backs as whole-array functions of the arrays the region is entered with (at the exact instance, where
  the payloads read index by index). Every point writes back the sample block, and a point's block is
  `mean + noise · scale` at the tile's rows and the chunk's columns: one function of the array index. The log-probability
  block is written back at a tile's last chunk only, from the accumulator unrolled to the tile's first chunk: four chunk
  sums of squared noise added from zero in the chunks' order.
-/
import proofs.«152655_j7894149890238_2_alg».proof.Proof.KI.Accum
import proofs.«152655_j7894149890238_2_alg».proof.Proof.KI.SampleBlocks
import proofs.«152655_j7894149890238_2_alg».proof.Proof.Payloads
import proofs.«152655_j7894149890238_2_alg».proof.Proof.Algebra

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open ValueIdx Cert.KernelIdeal.Pay

local notation "𝕄" => MT nD τ sig Unit (Elt F) ℕ (UR sig nD τ) ℕ

/-! ## The sample block's buffer after any point, at any `F` -/

section
variable (V : (c : Dev nD) → (b : Ref sig .tc) → Buf (Elt F) ((c : Thread nD τ).loc b)) (c : Dev nD)

/-- Whatever the case, the body leaves in the sample block's buffer the sample payload of the chunk's columns of the
    resident mean and scale arrays and of the noise block. -/
theorem after1_4_eq (t : Fin cfg1.N) :
    (dat1 V c).after 4 t = k1_pay2 (View.ld (iblk1 V c 1 t) (Rect.unit (s := S192x2048) (k1_off1 (grid1.coords t)) S192x512.size (k1_off1_inb (grid1.coords t))))
      (View.ld (iblk1 V c 2 t) (Rect.unit (s := S192x2048) (k1_off1 (grid1.coords t)) S192x512.size (k1_off1_inb (grid1.coords t)))) (iblk1 V c 0 t) := by
  rw [after1_4]
  by_cases h0 : t.val % 4 = 0
  · have h1 : ¬t.val % 4 = 3 := by omega
    rw [outsAt1_A V c t h0 h1]; dsimp only; exact (out1_A_4_eq _ _ _ _ _ _ _ _ _ _ _ _ _ _ _ _ _ _ _ _ _ _).trans rfl
  · by_cases h1 : t.val % 4 = 3
    · rw [outsAt1_C V c t h0 h1]; dsimp only; exact (out1_C_4_eq _ _ _ _ _ _ _ _ _ _ _ _ _ _ _ _ _ _ _ _ _ _ _).trans rfl
    · rw [outsAt1_B V c t h0 h1]; dsimp only; exact (out1_B_4_eq _ _ _ _ _ _ _ _ _ _ _ _ _ _ _ _ _ _ _ _ _ _ _).trans rfl

/-- The accumulator's recursion depends on the position only. -/
theorem accAt_congr (k : ℕ) (hk : k < cfg1.N) (k' : ℕ) (hk' : k' < cfg1.N) (e : k = k') : accAt V c k hk = accAt V c k' hk' := by
  subst e; rfl

/-- At a tile's last chunk the body leaves in the log-probability block's buffer the log-probability payload of the
    log-determinant row and of the accumulator after this point. -/
theorem after1_5_last (t : Fin cfg1.N) (h1 : t.val % 4 = 3) :
    (dat1 V c).after 5 t = k1_pay4 (iblk1 V c 3 t) (accAt V c t.val t.isLt) := by
  have h0 : ¬t.val % 4 = 0 := by omega
  rw [after1_5, outsAt1_C V c t h0 h1]; dsimp only
  rw [out1_C_5_eq, acc_eq]
  obtain ⟨n, hn⟩ := t
  cases n with
  | zero => exact absurd h1 (by show ¬(0 % 4 = 3); decide)
  | succ n =>
    rw [accAt_next V c n hn h0]
    exact congrArg (fun z => k1_pay4 (iblk1 V c 3 ⟨n + 1, hn⟩) (k1_pay3 (iblk1 V c 0 ⟨n + 1, hn⟩) z))
      (accAt_congr V c (n + 1 - 1) _ n _ (Nat.add_sub_cancel n 1))

/-- The accumulator after a tile's last chunk, unrolled to the tile's first chunk. -/
theorem accAt_last (n : ℕ) (hn : n + 3 < cfg1.N) (h : n % 4 = 0) :
    accAt V c (n + 3) hn = k1_pay3 (iblk1 V c 0 ⟨n + 3, hn⟩) (k1_pay3 (iblk1 V c 0 ⟨n + 2, by omega⟩) (k1_pay3 (iblk1 V c 0 ⟨n + 1, by omega⟩)
      (k1_pay3 (iblk1 V c 0 ⟨n, by omega⟩) (k1_pay1 (F := F))))) := by
  rw [accAt_next V c (n + 2) hn (by omega), accAt_next V c (n + 1) (by omega) (by omega), accAt_next V c n (by omega) (by omega),
    accAt_first V c n (by omega) h]

end

/-! ## Index by index, at the exact instance -/

section
variable (V : (c : Dev nD) → (b : Ref sig .tc) → Buf (Elt Ideal) ((c : Thread nD τ).loc b)) (c : Dev nD)

/-- The arrays region 1 is entered with, read at coordinates: the mean, the scale, the noise, the row of half
    log-determinants. -/
def meanAt (j : Fin 192) (D : Fin 2048) : EReal := (V c main_v12_0 : S192x2048.Idx → EReal) (ix2 j D)
def scaleAt (j : Fin 192) (D : Fin 2048) : EReal := (V c main_v12_1 : S192x2048.Idx → EReal) (ix2 j D)
def noiseAt (I j : Fin 192) (D : Fin 2048) : EReal := (V c main_arg1 : S192x192x2048.Idx → EReal) (ix3 I j D)
def logdetAt (j : Fin 192) : EReal := (V c main_v12_2 : S1x192.Idx → EReal) (ix2 0 j)

/-- The sample at array coordinates: `mean[j, D] + noise[I, j, D] · scale[j, D]`. -/
def G4At (I j : Fin 192) (D : Fin 2048) : EReal := meanAt V c j D + noiseAt V c I j D * scaleAt V c j D
def G4 : S192x192x2048.Idx → EReal := fun y => G4At V c (y 0) (y 1) (y 2)

/-- The squared noise along the feature axis at a sample row and a distribution. -/
def sqN (I j : Fin 192) : Fin 2048 → EReal := fun D => noiseAt V c I j D * noiseAt V c I j D
/-- The accumulator a tile ends with: the four chunk sums added from zero in the chunks' order. -/
def accTile (I j : Fin 192) : EReal :=
  (((Ideal.ofBits .f32 0x00000000#32 + Cert.Alg.chunk (sqN V c I j) 0) + Cert.Alg.chunk (sqN V c I j) 1) + Cert.Alg.chunk (sqN V c I j) 2) + Cert.Alg.chunk (sqN V c I j) 3
/-- The log-probability at array coordinates. -/
def G5At (I j : Fin 192) : EReal :=
  Ideal.ofBits .f32 0xBF000000#32 * (accTile V c I j + Ideal.ofBits .f32 0x456B3F8E#32) - Ideal.ofBits .f32 0x3F000000#32 * logdetAt V c j
def G5 : S192x192.Idx → EReal := fun y => G5At V c (y 0) (y 1)

/-- A point's sample payload at a block index is the sample at the tile's row and the chunk's column. -/
theorem pay2_block (t : Fin cfg1.N) (a : Fin 32) (j : Fin 192) (dd : Fin 512) :
    k1_pay2 (View.ld (iblk1 V c 1 t) (Rect.unit (s := S192x2048) (k1_off1 (grid1.coords t)) S192x512.size (k1_off1_inb (grid1.coords t))))
      (View.ld (iblk1 V c 2 t) (Rect.unit (s := S192x2048) (k1_off1 (grid1.coords t)) S192x512.size (k1_off1_inb (grid1.coords t)))) (iblk1 V c 0 t) (ix3 a j dd)
      = G4At V c (tileRow t a) j (chunkCol t dd) := by
  rw [k1_pay2_apply, ld_chunk, ld_chunk, iblk1_0_apply, iblk1_1_eq, iblk1_2_eq]
  rfl

/-- Every point writes back the sample block of the one whole-array function. -/
theorem flushed1_4_eq (t : Fin cfg1.N) :
    (dat1 V c).flushed 4 t = ((cfg1.win 4).blk t).view.read (Elt Ideal) (G4 V c) := by
  show (cfg1.win 4).cut (grid1.coords t) ((dat1 V c).after 4 t) = _
  rw [after1_4_eq]
  funext y
  obtain ⟨a, j, dd, rfl⟩ : ∃ (a : Fin 32) (j : Fin 192) (dd : Fin 512), y = ix3 a j dd := ⟨y 0, y 1, y 2, eq_ix3 y⟩
  have hR := blk1_4_read (F := Ideal) (G4 V c) t a j dd
  exact (pay2_block V c t a j dd).trans
    ((show G4At V c (tileRow t a) j (chunkCol t dd) = G4 V c (ix3 (tileRow t a) j (chunkCol t dd)) from rfl).trans hR.symm)

/-- One chunk's sum of squares over a noise block whose entries are the noise at a tile row and the chunk's columns is
    that chunk of the squared noise. -/
theorem chunk_of_block (x0 : Vec Ideal S32x192x512 .f32) (cc : Fin 4) (a : Fin 32) (j I : Fin 192)
    (hx : ∀ dd : Fin 512, x0 (ix3 a j dd) = noiseAt V c I j ⟨512 * cc.val + dd.val, by have := cc.isLt; have := dd.isLt; omega⟩) :
    (∑ dd : Fin 512, x0 (ix3 a j dd) * x0 (ix3 a j dd)) = Cert.Alg.chunk (sqN V c I j) cc := by
  rw [Cert.Alg.chunk_eq]
  exact Finset.sum_congr rfl fun dd _ => by rw [hx dd]; rfl

/-- The noise block of the point `n + cc` of a tile that starts at position `n`, at a block index. -/
theorem noise_block (n : ℕ) (cc : Fin 4) (hn : n + cc.val < cfg1.N) (hN : n % 4 = 0) (a : Fin 32) (j I : Fin 192)
    (hI : I.val = 32 * (n / 4) + a.val) (dd : Fin 512) :
    (iblk1 V c 0 ⟨n + cc.val, hn⟩ : Vec Ideal S32x192x512 .f32) (ix3 a j dd)
      = noiseAt V c I j ⟨512 * cc.val + dd.val, by have := cc.isLt; have := dd.isLt; omega⟩ := by
  rw [iblk1_0_apply]
  have e1 : tileRow (⟨n + cc.val, hn⟩ : Fin cfg1.N) a = I := Fin.ext (by have := cc.isLt; show 32 * ((n + cc.val) / 4) + a.val = I.val; omega)
  have e2 : chunkCol (⟨n + cc.val, hn⟩ : Fin cfg1.N) dd = ⟨512 * cc.val + dd.val, by have := cc.isLt; have := dd.isLt; omega⟩ :=
    Fin.ext (by have := cc.isLt; show 512 * ((n + cc.val) % 4) + dd.val = 512 * cc.val + dd.val; omega)
  rw [e1, e2]
  rfl

/-- The accumulator after a tile's last chunk, index by index: the tile's accumulator at the tile's row. -/
theorem accAt_last_apply (n : ℕ) (hn : n + 3 < cfg1.N) (h : n % 4 = 0) (a : Fin 32) (j : Fin 192) :
    accAt V c (n + 3) hn (ix2 a j) = accTile V c (tileRow ⟨n + 3, hn⟩ a) j := by
  have hI : (tileRow (⟨n + 3, hn⟩ : Fin cfg1.N) a).val = 32 * (n / 4) + a.val := by show 32 * ((n + 3) / 4) + a.val = _; omega
  rw [accAt_last V c n hn h, k1_pay3_apply, k1_pay3_apply, k1_pay3_apply, k1_pay3_apply, k1_pay1_apply]
  rw [chunk_of_block V c (iblk1 V c 0 ⟨n + 3, hn⟩) 3 a j _ (noise_block V c n 3 hn h a j _ hI),
    chunk_of_block V c (iblk1 V c 0 ⟨n + 2, by omega⟩) 2 a j _ (noise_block V c n 2 (by show n + 2 < cfg1.N; omega) h a j _ hI),
    chunk_of_block V c (iblk1 V c 0 ⟨n + 1, by omega⟩) 1 a j _ (noise_block V c n 1 (by show n + 1 < cfg1.N; omega) h a j _ hI),
    chunk_of_block V c (iblk1 V c 0 ⟨n, by omega⟩) 0 a j _ (noise_block V c n 0 (by show n + 0 < cfg1.N; omega) h a j _ hI)]
  rfl

/-- A tile's last chunk writes back the log-probability block of the one whole-array function. -/
theorem flushed1_5_eq (t : Fin cfg1.N) (hf : (cfg1.win 5).flush t = true) :
    (dat1 V c).flushed 5 t = ((cfg1.win 5).blk t).view.read (Elt Ideal) (G5 V c) := by
  have h1 : t.val % 4 = 3 := (flush1_5 t).mp hf
  show (cfg1.win 5).cut (grid1.coords t) ((dat1 V c).after 5 t) = _
  rw [after1_5_last V c t h1]
  funext y
  obtain ⟨a, j, rfl⟩ : ∃ (a : Fin 32) (j : Fin 192), y = ix2 a j := ⟨y 0, y 1, eq_ix2 y⟩
  have hR := blk1_5_read (F := Ideal) (G5 V c) t a j
  refine Eq.trans ?_ ((show G5At V c (tileRow t a) j = G5 V c (ix2 (tileRow t a) j) from rfl).trans hR.symm)
  show k1_pay4 (iblk1 V c 3 t) (accAt V c t.val t.isLt) (ix2 a j) = _
  rw [k1_pay4_apply, iblk1_3_eq]
  obtain ⟨tv, ht⟩ := t
  obtain ⟨n, rfl⟩ : ∃ n, tv = n + 3 := ⟨tv - 3, by have : tv % 4 = 3 := h1; omega⟩
  rw [accAt_last_apply V c n ht (by have : (n + 3) % 4 = 3 := h1; omega) a j]
  rfl

/-- So the two result arrays end holding the two whole-array functions. -/
theorem final1_4 : (dat1 V c).arrAt 4 cfg1.N = G4 V c :=
  (dat1 V c).arrAt_eq_of_cover 4 (G4 V c) (fun t _ => flushed1_4_eq V c t) cover1_4
theorem final1_5 : (dat1 V c).arrAt 5 cfg1.N = G5 V c :=
  (dat1 V c).arrAt_eq_of_cover 5 (G5 V c) (flushed1_5_eq V c) cover1_5

end

end Cert.KernelIdeal.Fr

end
-- ==== Proof.KI.HeadValue.lean ====
/-
  The head kernel's three output blocks and the host stretch before it, read at an index, at the ideal values.

  The body's three whole-block stores leave the mean head, the scale `exp (lv / 4)` and the row of half log-determinants
  of the thirteen input blocks; each is read here at an index written by its coordinates, in the shared vocabulary's
  three-layer head. The host operations before the kernel only lay its operands out — each weight matrix transposed, each
  bias vector made a one-row matrix — and each result is read at an index as the launch memory's argument at the
  matching index.
-/
import proofs.«152655_j7894149890238_2_alg».proof.Proof.KI.Head
import proofs.«152655_j7894149890238_2_alg».proof.Proof.Payloads
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.HeadV

open Cert.KernelIdeal Cert.KernelIdeal.Gen Cert.KernelIdeal.Fr Idealize.ShloMosaic Idealize.ShloMosaic.ValueIdx Idealize.SL.Sem

/-! ## What the head kernel leaves in its three output buffers, at an index -/

/-- Two zero offsets are the zero offset function. -/
theorem hz2 : (![0, 0] : Fin 2 → Nat) = fun _ => 0 := by
  funext a
  match a with
  | ⟨0, _⟩ => rfl
  | ⟨1, _⟩ => rfl

/-- The mean block at `(i, d)`: the three-layer head of the first seven input blocks. -/
theorem out0_13_apply (x0 : Vec Ideal S192x2048 .f32) (x1 : Vec Ideal S2048x128 .f32) (x2 : Vec Ideal S1x128 .f32)
    (x3 : Vec Ideal S128x128 .f32) (x4 : Vec Ideal S1x128 .f32) (x5 : Vec Ideal S128x2048 .f32) (x6 : Vec Ideal S1x2048 .f32)
    (x7 : Vec Ideal S2048x128 .f32) (x8 : Vec Ideal S1x128 .f32) (x9 : Vec Ideal S128x128 .f32) (x10 : Vec Ideal S1x128 .f32)
    (x11 : Vec Ideal S128x2048 .f32) (x12 : Vec Ideal S1x2048 .f32) (i : Fin 192) (d : Fin 2048) :
    out0_13 x0 x1 x2 x3 x4 x5 x6 x7 x8 x9 x10 x11 x12 (ix2 i d)
      = Cert.Spec.head (fun i k => x0 (ix2 i k)) (fun h k => x1 (ix2 k h)) (fun h => x2 (ix2 0 h))
          (fun h k => x3 (ix2 k h)) (fun h => x4 (ix2 0 h)) (fun d k => x5 (ix2 k d)) (fun d => x6 (ix2 0 d)) i d := by
  unfold out0_13
  rw [View.canon_unit_zero hz2]
  simp only [View.ld_unit_zero (S := S192x2048) hz2, View.ld_unit_zero (S := S2048x128) hz2, View.ld_unit_zero (S := S1x128) hz2,
    View.ld_unit_zero (S := S128x128) hz2, View.ld_unit_zero (S := S128x2048) hz2, View.ld_unit_zero (S := S1x2048) hz2]
  exact Pay.k0_pay4_apply x0 x1 x2 x3 x4 x5 x6 i d

/-- The scale block at `(i, d)`: the exponential of a quarter of the log-variance head of the input and the last six blocks. -/
theorem out0_14_apply (x0 : Vec Ideal S192x2048 .f32) (x1 : Vec Ideal S2048x128 .f32) (x2 : Vec Ideal S1x128 .f32)
    (x3 : Vec Ideal S128x128 .f32) (x4 : Vec Ideal S1x128 .f32) (x5 : Vec Ideal S128x2048 .f32) (x6 : Vec Ideal S1x2048 .f32)
    (x7 : Vec Ideal S2048x128 .f32) (x8 : Vec Ideal S1x128 .f32) (x9 : Vec Ideal S128x128 .f32) (x10 : Vec Ideal S1x128 .f32)
    (x11 : Vec Ideal S128x2048 .f32) (x12 : Vec Ideal S1x2048 .f32) (i : Fin 192) (d : Fin 2048) :
    out0_14 x0 x1 x2 x3 x4 x5 x6 x7 x8 x9 x10 x11 x12 (ix2 i d)
      = Ideal.exp (Ideal.ofBits .f32 0x3E800000#32 *
          Cert.Spec.head (fun i k => x0 (ix2 i k)) (fun h k => x7 (ix2 k h)) (fun h => x8 (ix2 0 h))
          (fun h k => x9 (ix2 k h)) (fun h => x10 (ix2 0 h)) (fun d k => x11 (ix2 k d)) (fun d => x12 (ix2 0 d)) i d) := by
  unfold out0_14
  rw [View.canon_unit_zero hz2]
  simp only [View.ld_unit_zero (S := S192x2048) hz2, View.ld_unit_zero (S := S2048x128) hz2, View.ld_unit_zero (S := S1x128) hz2,
    View.ld_unit_zero (S := S128x128) hz2, View.ld_unit_zero (S := S128x2048) hz2, View.ld_unit_zero (S := S1x2048) hz2]
  exact Pay.k0_pay2_head x0 x7 x8 x9 x10 x11 x12 i d

/-- The log-determinant row at `(u, j)`: half the sum over the feature axis of the log-variance head's row `j`. -/
theorem out0_15_apply (x0 : Vec Ideal S192x2048 .f32) (x1 : Vec Ideal S2048x128 .f32) (x2 : Vec Ideal S1x128 .f32)
    (x3 : Vec Ideal S128x128 .f32) (x4 : Vec Ideal S1x128 .f32) (x5 : Vec Ideal S128x2048 .f32) (x6 : Vec Ideal S1x2048 .f32)
    (x7 : Vec Ideal S2048x128 .f32) (x8 : Vec Ideal S1x128 .f32) (x9 : Vec Ideal S128x128 .f32) (x10 : Vec Ideal S1x128 .f32)
    (x11 : Vec Ideal S128x2048 .f32) (x12 : Vec Ideal S1x2048 .f32) (u : Fin 1) (j : Fin 192) :
    out0_15 x0 x1 x2 x3 x4 x5 x6 x7 x8 x9 x10 x11 x12 (ix2 u j)
      = Ideal.ofBits .f32 0x3F000000#32 * ∑ d : Fin 2048,
          Cert.Spec.head (fun i k => x0 (ix2 i k)) (fun h k => x7 (ix2 k h)) (fun h => x8 (ix2 0 h))
          (fun h k => x9 (ix2 k h)) (fun h => x10 (ix2 0 h)) (fun d k => x11 (ix2 k d)) (fun d => x12 (ix2 0 d)) j d := by
  unfold out0_15
  rw [View.canon_unit_zero hz2]
  simp only [View.ld_unit_zero (S := S192x2048) hz2, View.ld_unit_zero (S := S2048x128) hz2, View.ld_unit_zero (S := S1x128) hz2,
    View.ld_unit_zero (S := S128x128) hz2, View.ld_unit_zero (S := S128x2048) hz2, View.ld_unit_zero (S := S1x2048) hz2]
  exact Pay.k0_pay3_head x0 x7 x8 x9 x10 x11 x12 u j

/-! ## The host stretch before the head kernel, read at an index

Six transposes put each weight matrix input-major and six reshapes make each bias vector a one-row matrix; the input
itself is written by no operation. `m` is the launch memory, `c` a device. -/

variable (m : (ℓ : Loc nD τ sig) → Buf (Elt Ideal) ℓ) (c : Dev nD)

/-- After the host stretch `main_v0` holds the transpose of argument 2. -/
theorem W_main_v0_eq :
    (StableHlo.after (hostOps0 (F := Ideal)) (fun b => m ((c : Dev nD), b)) (Proc.devRef .tc main_v0) : S2048x128.Idx → EReal)
      = transpose S2048x128 [1, 0] (m ((c.tc : Thread nD τ).loc main_arg2) : S128x2048.Idx → EReal) transposes_S128x2048_S2048x128_1_0 := by
  dsimp only [hostOps0]
  after_results <;> rfl
/-- … so at `(k, h)` it reads the argument at `(h, k)`. -/
theorem W_main_v0_apply (k : Fin 2048) (h : Fin 128) :
    (StableHlo.after (hostOps0 (F := Ideal)) (fun b => m ((c : Dev nD), b)) (Proc.devRef .tc main_v0) : S2048x128.Idx → EReal) (ix2 k h)
      = (m ((c.tc : Thread nD τ).loc main_arg2) : S128x2048.Idx → EReal) (ix2 h k) := by
  rw [W_main_v0_eq]
  exact transpose_ix2_apply _ _ k h

/-- After the host stretch `main_v1` holds the transpose of argument 4. -/
theorem W_main_v1_eq :
    (StableHlo.after (hostOps0 (F := Ideal)) (fun b => m ((c : Dev nD), b)) (Proc.devRef .tc main_v1) : S128x128.Idx → EReal)
      = transpose S128x128 [1, 0] (m ((c.tc : Thread nD τ).loc main_arg4) : S128x128.Idx → EReal) transposes_S128x128_S128x128_1_0 := by
  dsimp only [hostOps0]
  after_results <;> rfl
/-- … so at `(k, h)` it reads the argument at `(h, k)`. -/
theorem W_main_v1_apply (k : Fin 128) (h : Fin 128) :
    (StableHlo.after (hostOps0 (F := Ideal)) (fun b => m ((c : Dev nD), b)) (Proc.devRef .tc main_v1) : S128x128.Idx → EReal) (ix2 k h)
      = (m ((c.tc : Thread nD τ).loc main_arg4) : S128x128.Idx → EReal) (ix2 h k) := by
  rw [W_main_v1_eq]
  exact transpose_ix2_apply _ _ k h

/-- After the host stretch `main_v2` holds the transpose of argument 6. -/
theorem W_main_v2_eq :
    (StableHlo.after (hostOps0 (F := Ideal)) (fun b => m ((c : Dev nD), b)) (Proc.devRef .tc main_v2) : S128x2048.Idx → EReal)
      = transpose S128x2048 [1, 0] (m ((c.tc : Thread nD τ).loc main_arg6) : S2048x128.Idx → EReal) transposes_S2048x128_S128x2048_1_0 := by
  dsimp only [hostOps0]
  after_results <;> rfl
/-- … so at `(k, h)` it reads the argument at `(h, k)`. -/
theorem W_main_v2_apply (k : Fin 128) (h : Fin 2048) :
    (StableHlo.after (hostOps0 (F := Ideal)) (fun b => m ((c : Dev nD), b)) (Proc.devRef .tc main_v2) : S128x2048.Idx → EReal) (ix2 k h)
      = (m ((c.tc : Thread nD τ).loc main_arg6) : S2048x128.Idx → EReal) (ix2 h k) := by
  rw [W_main_v2_eq]
  exact transpose_ix2_apply _ _ k h

/-- After the host stretch `main_v3` holds the transpose of argument 8. -/
theorem W_main_v3_eq :
    (StableHlo.after (hostOps0 (F := Ideal)) (fun b => m ((c : Dev nD), b)) (Proc.devRef .tc main_v3) : S2048x128.Idx → EReal)
      = transpose S2048x128 [1, 0] (m ((c.tc : Thread nD τ).loc main_arg8) : S128x2048.Idx → EReal) transposes_S128x2048_S2048x128_1_0 := by
  dsimp only [hostOps0]
  after_results <;> rfl
/-- … so at `(k, h)` it reads the argument at `(h, k)`. -/
theorem W_main_v3_apply (k : Fin 2048) (h : Fin 128) :
    (StableHlo.after (hostOps0 (F := Ideal)) (fun b => m ((c : Dev nD), b)) (Proc.devRef .tc main_v3) : S2048x128.Idx → EReal) (ix2 k h)
      = (m ((c.tc : Thread nD τ).loc main_arg8) : S128x2048.Idx → EReal) (ix2 h k) := by
  rw [W_main_v3_eq]
  exact transpose_ix2_apply _ _ k h

/-- After the host stretch `main_v4` holds the transpose of argument 10. -/
theorem W_main_v4_eq :
    (StableHlo.after (hostOps0 (F := Ideal)) (fun b => m ((c : Dev nD), b)) (Proc.devRef .tc main_v4) : S128x128.Idx → EReal)
      = transpose S128x128 [1, 0] (m ((c.tc : Thread nD τ).loc main_arg10) : S128x128.Idx → EReal) transposes_S128x128_S128x128_1_0 := by
  dsimp only [hostOps0]
  after_results <;> rfl
/-- … so at `(k, h)` it reads the argument at `(h, k)`. -/
theorem W_main_v4_apply (k : Fin 128) (h : Fin 128) :
    (StableHlo.after (hostOps0 (F := Ideal)) (fun b => m ((c : Dev nD), b)) (Proc.devRef .tc main_v4) : S128x128.Idx → EReal) (ix2 k h)
      = (m ((c.tc : Thread nD τ).loc main_arg10) : S128x128.Idx → EReal) (ix2 h k) := by
  rw [W_main_v4_eq]
  exact transpose_ix2_apply _ _ k h

/-- After the host stretch `main_v5` holds the transpose of argument 12. -/
theorem W_main_v5_eq :
    (StableHlo.after (hostOps0 (F := Ideal)) (fun b => m ((c : Dev nD), b)) (Proc.devRef .tc main_v5) : S128x2048.Idx → EReal)
      = transpose S128x2048 [1, 0] (m ((c.tc : Thread nD τ).loc main_arg12) : S2048x128.Idx → EReal) transposes_S2048x128_S128x2048_1_0 := by
  dsimp only [hostOps0]
  after_results <;> rfl
/-- … so at `(k, h)` it reads the argument at `(h, k)`. -/
theorem W_main_v5_apply (k : Fin 128) (h : Fin 2048) :
    (StableHlo.after (hostOps0 (F := Ideal)) (fun b => m ((c : Dev nD), b)) (Proc.devRef .tc main_v5) : S128x2048.Idx → EReal) (ix2 k h)
      = (m ((c.tc : Thread nD τ).loc main_arg12) : S2048x128.Idx → EReal) (ix2 h k) := by
  rw [W_main_v5_eq]
  exact transpose_ix2_apply _ _ k h

/-- After the host stretch `main_v6` holds argument 3 as a one-row matrix. -/
theorem W_main_v6_eq :
    (StableHlo.after (hostOps0 (F := Ideal)) (fun b => m ((c : Dev nD), b)) (Proc.devRef .tc main_v6) : S1x128.Idx → EReal)
      = shapeCast S1x128 (m ((c.tc : Thread nD τ).loc main_arg3) : S128.Idx → EReal) shapeCasts_S128_S1x128 := by
  dsimp only [hostOps0]
  after_results <;> rfl
/-- … so at `(u, h)` it reads the argument at `h`. -/
theorem W_main_v6_apply (u : Fin 1) (h : Fin 128) :
    (StableHlo.after (hostOps0 (F := Ideal)) (fun b => m ((c : Dev nD), b)) (Proc.devRef .tc main_v6) : S1x128.Idx → EReal) (ix2 u h)
      = (m ((c.tc : Thread nD τ).loc main_arg3) : S128.Idx → EReal) (ix1 h) := by
  rw [W_main_v6_eq]
  exact shapeCast_a_1a_apply _ _ u h

/-- After the host stretch `main_v7` holds argument 5 as a one-row matrix. -/
theorem W_main_v7_eq :
    (StableHlo.after (hostOps0 (F := Ideal)) (fun b => m ((c : Dev nD), b)) (Proc.devRef .tc main_v7) : S1x128.Idx → EReal)
      = shapeCast S1x128 (m ((c.tc : Thread nD τ).loc main_arg5) : S128.Idx → EReal) shapeCasts_S128_S1x128 := by
  dsimp only [hostOps0]
  after_results <;> rfl
/-- … so at `(u, h)` it reads the argument at `h`. -/
theorem W_main_v7_apply (u : Fin 1) (h : Fin 128) :
    (StableHlo.after (hostOps0 (F := Ideal)) (fun b => m ((c : Dev nD), b)) (Proc.devRef .tc main_v7) : S1x128.Idx → EReal) (ix2 u h)
      = (m ((c.tc : Thread nD τ).loc main_arg5) : S128.Idx → EReal) (ix1 h) := by
  rw [W_main_v7_eq]
  exact shapeCast_a_1a_apply _ _ u h

/-- After the host stretch `main_v8` holds argument 7 as a one-row matrix. -/
theorem W_main_v8_eq :
    (StableHlo.after (hostOps0 (F := Ideal)) (fun b => m ((c : Dev nD), b)) (Proc.devRef .tc main_v8) : S1x2048.Idx → EReal)
      = shapeCast S1x2048 (m ((c.tc : Thread nD τ).loc main_arg7) : S2048.Idx → EReal) shapeCasts_S2048_S1x2048 := by
  dsimp only [hostOps0]
  after_results <;> rfl
/-- … so at `(u, h)` it reads the argument at `h`. -/
theorem W_main_v8_apply (u : Fin 1) (h : Fin 2048) :
    (StableHlo.after (hostOps0 (F := Ideal)) (fun b => m ((c : Dev nD), b)) (Proc.devRef .tc main_v8) : S1x2048.Idx → EReal) (ix2 u h)
      = (m ((c.tc : Thread nD τ).loc main_arg7) : S2048.Idx → EReal) (ix1 h) := by
  rw [W_main_v8_eq]
  exact shapeCast_a_1a_apply _ _ u h

/-- After the host stretch `main_v9` holds argument 9 as a one-row matrix. -/
theorem W_main_v9_eq :
    (StableHlo.after (hostOps0 (F := Ideal)) (fun b => m ((c : Dev nD), b)) (Proc.devRef .tc main_v9) : S1x128.Idx → EReal)
      = shapeCast S1x128 (m ((c.tc : Thread nD τ).loc main_arg9) : S128.Idx → EReal) shapeCasts_S128_S1x128 := by
  dsimp only [hostOps0]
  after_results <;> rfl
/-- … so at `(u, h)` it reads the argument at `h`. -/
theorem W_main_v9_apply (u : Fin 1) (h : Fin 128) :
    (StableHlo.after (hostOps0 (F := Ideal)) (fun b => m ((c : Dev nD), b)) (Proc.devRef .tc main_v9) : S1x128.Idx → EReal) (ix2 u h)
      = (m ((c.tc : Thread nD τ).loc main_arg9) : S128.Idx → EReal) (ix1 h) := by
  rw [W_main_v9_eq]
  exact shapeCast_a_1a_apply _ _ u h

/-- After the host stretch `main_v10` holds argument 11 as a one-row matrix. -/
theorem W_main_v10_eq :
    (StableHlo.after (hostOps0 (F := Ideal)) (fun b => m ((c : Dev nD), b)) (Proc.devRef .tc main_v10) : S1x128.Idx → EReal)
      = shapeCast S1x128 (m ((c.tc : Thread nD τ).loc main_arg11) : S128.Idx → EReal) shapeCasts_S128_S1x128 := by
  dsimp only [hostOps0]
  after_results <;> rfl
/-- … so at `(u, h)` it reads the argument at `h`. -/
theorem W_main_v10_apply (u : Fin 1) (h : Fin 128) :
    (StableHlo.after (hostOps0 (F := Ideal)) (fun b => m ((c : Dev nD), b)) (Proc.devRef .tc main_v10) : S1x128.Idx → EReal) (ix2 u h)
      = (m ((c.tc : Thread nD τ).loc main_arg11) : S128.Idx → EReal) (ix1 h) := by
  rw [W_main_v10_eq]
  exact shapeCast_a_1a_apply _ _ u h

/-- After the host stretch `main_v11` holds argument 13 as a one-row matrix. -/
theorem W_main_v11_eq :
    (StableHlo.after (hostOps0 (F := Ideal)) (fun b => m ((c : Dev nD), b)) (Proc.devRef .tc main_v11) : S1x2048.Idx → EReal)
      = shapeCast S1x2048 (m ((c.tc : Thread nD τ).loc main_arg13) : S2048.Idx → EReal) shapeCasts_S2048_S1x2048 := by
  dsimp only [hostOps0]
  after_results <;> rfl
/-- … so at `(u, h)` it reads the argument at `h`. -/
theorem W_main_v11_apply (u : Fin 1) (h : Fin 2048) :
    (StableHlo.after (hostOps0 (F := Ideal)) (fun b => m ((c : Dev nD), b)) (Proc.devRef .tc main_v11) : S1x2048.Idx → EReal) (ix2 u h)
      = (m ((c.tc : Thread nD τ).loc main_arg13) : S2048.Idx → EReal) (ix1 h) := by
  rw [W_main_v11_eq]
  exact shapeCast_a_1a_apply _ _ u h

/-- No host operation writes the input: after the stretch it holds its launch contents. -/
theorem W_main_arg0_eq :
    StableHlo.after (hostOps0 (F := Ideal)) (fun b => m ((c : Dev nD), b)) (Proc.devRef .tc main_arg0) = m ((c.tc : Thread nD τ).loc main_arg0) := by
  dsimp only [hostOps0]
  after_results <;> rfl

end Cert.KernelIdeal.HeadV

end
-- ==== Proof.RefG.lean ====
/-
  The reference's two results as closed functions of its fourteen argument arrays, at the ideal instance (every float
  an extended real, every operation exact).

  Both heads are the three-layer network of Spec.lean (`Cert.Spec.head`): the mean head `refMu` from the first weight set,
  the log-variance head `refLv` from the second. With `σ² = exp (½ · lv)` and `scale = √σ²` the reference returns

    p[i,j,d]       = mu[j,d] + eps[i,j,d] · scale[j,d]
    logprob[i,j]   = (-½) · ((0 + Σ_d ((p[i,j,d] - mu[j,d]) · (p[i,j,d] - mu[j,d])) / σ²[j,d]) + C) - ½ · (½ · (0 + Σ_d lv[j,d]))

  with every product, sum and quotient associated and ordered as the program has them, and the three float literals
  (½, -½ and C) left as the bit patterns they are written with. `refP_eq` and `refL_eq` say the last stages of the
  generated reading of the program are these functions; `run` restates the generated run over them.
-/
import proofs.«152655_j7894149890238_2_alg».proof.Proof.Gen.ReferenceIdeal.Read
import proofs.«152655_j7894149890238_2_alg».proof.Proof.Spec

noncomputable section

namespace Cert.RefG

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## The functions -/

/-- One head of the reference, as the three-layer network over the arrays read by coordinates: `q` the batch of inputs,
    `(w1, b1)`, `(w2, b2)`, `(w3, b3)` the layers, each weight stored output-major. -/
def refHead (q : FVec Ideal S192x2048 .f32) (w1 : FVec Ideal S128x2048 .f32) (b1 : FVec Ideal S128 .f32)
    (w2 : FVec Ideal S128x128 .f32) (b2 : FVec Ideal S128 .f32) (w3 : FVec Ideal S2048x128 .f32) (b3 : FVec Ideal S2048 .f32) :
    Fin 192 → Fin 2048 → EReal :=
  Cert.Spec.head (fun i k => q (ix2 i k)) (fun h k => w1 (ix2 h k)) (fun h => b1 (ix1 h)) (fun h k => w2 (ix2 h k))
    (fun h => b2 (ix1 h)) (fun d k => w3 (ix2 d k)) (fun d => b3 (ix1 d))

/-- The mean head: the network over the first weight set. -/
def refMu (a0 : FVec Ideal S192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) : Fin 192 → Fin 2048 → EReal :=
  refHead a0 a2 a3 a4 a5 a6 a7

/-- The log-variance head: the network over the second weight set. -/
def refLv (a0 : FVec Ideal S192x2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) : Fin 192 → Fin 2048 → EReal :=
  refHead a0 a8 a9 a10 a11 a12 a13

/-- The variance `exp (½ · lv[j,d])`, the literal ½ as its bit pattern. -/
def refVar (a0 : FVec Ideal S192x2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) (j : Fin 192) (d : Fin 2048) : EReal :=
  Ideal.exp (Ideal.ofBits .f32 0x3F000000#32 * refLv a0 a8 a9 a10 a11 a12 a13 j d)

/-- The sample at coordinates: `mu[j,d] + eps[i,j,d] · √(exp (½ · lv[j,d]))`. -/
def refPAt (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) (i j : Fin 192) (d : Fin 2048) : EReal :=
  refMu a0 a2 a3 a4 a5 a6 a7 j d + a1 (ix3 i j d) * Ideal.sqrt (refVar a0 a8 a9 a10 a11 a12 a13 j d)

/-- The reference's first result, the samples, as an array. -/
def refP (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) : FVec Ideal S192x192x2048 .f32 :=
  fun t => refPAt a0 a1 a2 a3 a4 a5 a6 a7 a8 a9 a10 a11 a12 a13 (t 0) (t 1) (t 2)

/-- The log-probability at coordinates, every operation in the program's order. -/
def refLAt (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) (i j : Fin 192) : EReal :=
  Ideal.ofBits .f32 0xBF000000#32
      * ((0 + ∑ d : Fin 2048,
            Ideal.div ((refPAt a0 a1 a2 a3 a4 a5 a6 a7 a8 a9 a10 a11 a12 a13 i j d - refMu a0 a2 a3 a4 a5 a6 a7 j d) * (refPAt a0 a1 a2 a3 a4 a5 a6 a7 a8 a9 a10 a11 a12 a13 i j d - refMu a0 a2 a3 a4 a5 a6 a7 j d))
              (refVar a0 a8 a9 a10 a11 a12 a13 j d))
          + Ideal.ofBits .f32 0x456B3F8E#32)
    - Ideal.ofBits .f32 0x3F000000#32 * (Ideal.ofBits .f32 0x3F000000#32 * (0 + ∑ d : Fin 2048, refLv a0 a8 a9 a10 a11 a12 a13 j d))

/-- The reference's second result, the log-probabilities, as an array. -/
def refL (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) : FVec Ideal S192x192 .f32 :=
  fun t => refLAt a0 a1 a2 a3 a4 a5 a6 a7 a8 a9 a10 a11 a12 a13 (t 0) (t 1)

theorem refP_apply (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) (i j : Fin 192) (d : Fin 2048) :
    refP a0 a1 a2 a3 a4 a5 a6 a7 a8 a9 a10 a11 a12 a13 (ix3 i j d) = refPAt a0 a1 a2 a3 a4 a5 a6 a7 a8 a9 a10 a11 a12 a13 i j d := rfl

theorem refL_apply (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) (i j : Fin 192) :
    refL a0 a1 a2 a3 a4 a5 a6 a7 a8 a9 a10 a11 a12 a13 (ix2 i j) = refLAt a0 a1 a2 a3 a4 a5 a6 a7 a8 a9 a10 a11 a12 a13 i j := rfl

/-! ## Index bookkeeping

Each composed index function of the generated reading, at an index built from coordinates, is the index built from the
coordinates it selects. -/

theorem pair_eq {n0 n1 : Nat} (f : (⟨2, ![n0, n1]⟩ : Shape).Idx) (a : Fin n0) (b : Fin n1)
    (h0 : (f 0).val = a.val) (h1 : (f 1).val = b.val) : f = ix2 a b :=
  funext fun x => Fin.ext (by match x with | ⟨0, _⟩ => exact h0 | ⟨1, _⟩ => exact h1)

theorem single_eq {n : Nat} (f : (⟨1, ![n]⟩ : Shape).Idx) (a : Fin n) (h0 : (f 0).val = a.val) : f = ix1 a :=
  funext fun x => Fin.ext (by match x with | ⟨0, _⟩ => exact h0)

/-! ## One layer at a time -/

theorem layer1 (q : FVec Ideal S192x2048 .f32) (w1 : FVec Ideal S128x2048 .f32) (b1 : FVec Ideal S128 .f32)
    (r : Fin 192) (h : Fin 128) :
    val_main_v5 (F := Ideal) q w1 b1 (ix2 r h)
      = Cert.Spec.dense (fun i k => q (ix2 i k)) (fun h k => w1 (ix2 h k)) (fun h => b1 (ix1 h)) r h := by
  rw [val_main_v5_apply, val_main_v4_apply, val_main_v1_apply, val_main_v3_apply, val_main_v2_apply,
    val_main_call0_v0_apply, val_main_call0_cst_apply]
  simp only [Ideal.maximumf_def, Ideal.addf_def, Ideal.ofBits_def, Ideal.ofBits_zero_f32, val_main_v0_apply]
  have e1 : ∀ x : Fin 2048, lidx_main_v1 (ix2 r h) x = ix2 r x := fun x => pair_eq _ _ _ rfl rfl
  have e2 : ∀ x : Fin 2048, idx_main_v0 (ridx_main_v1 (ix2 r h) x) = ix2 h x := fun x => pair_eq _ _ _ rfl rfl
  have e3 : idx_main_v2 (idx_main_v3 (ix2 r h)) = ix1 h := single_eq _ _ rfl
  simp only [e1, e2, e3]
  rfl

theorem layer2 (q : FVec Ideal S192x2048 .f32) (w1 : FVec Ideal S128x2048 .f32) (b1 : FVec Ideal S128 .f32)
    (w2 : FVec Ideal S128x128 .f32) (b2 : FVec Ideal S128 .f32) (r : Fin 192) (h : Fin 128) :
    val_main_v11 (F := Ideal) q w1 b1 w2 b2 (ix2 r h)
      = Cert.Spec.dense (Cert.Spec.dense (fun i k => q (ix2 i k)) (fun h k => w1 (ix2 h k)) (fun h => b1 (ix1 h)))
          (fun h k => w2 (ix2 h k)) (fun h => b2 (ix1 h)) r h := by
  rw [val_main_v11_apply, val_main_v10_apply, val_main_v7_apply, val_main_v9_apply, val_main_v8_apply,
    val_main_call1_v0_apply, val_main_call1_cst_apply]
  simp only [Ideal.maximumf_def, Ideal.addf_def, Ideal.ofBits_def, Ideal.ofBits_zero_f32, val_main_v6_apply]
  have e1 : ∀ x : Fin 128, lidx_main_v7 (ix2 r h) x = ix2 r x := fun x => pair_eq _ _ _ rfl rfl
  have e2 : ∀ x : Fin 128, idx_main_v6 (ridx_main_v7 (ix2 r h) x) = ix2 h x := fun x => pair_eq _ _ _ rfl rfl
  have e3 : idx_main_v8 (idx_main_v9 (ix2 r h)) = ix1 h := single_eq _ _ rfl
  simp only [e1, e2, e3, layer1]
  rfl

theorem layer3 (q : FVec Ideal S192x2048 .f32) (w1 : FVec Ideal S128x2048 .f32) (b1 : FVec Ideal S128 .f32)
    (w2 : FVec Ideal S128x128 .f32) (b2 : FVec Ideal S128 .f32) (w3 : FVec Ideal S2048x128 .f32) (b3 : FVec Ideal S2048 .f32)
    (r : Fin 192) (d : Fin 2048) :
    val_main_v17 (F := Ideal) q w1 b1 w2 b2 w3 b3 (ix2 r d) = refHead q w1 b1 w2 b2 w3 b3 r d := by
  rw [val_main_v17_apply, val_main_v16_apply, val_main_v13_apply, val_main_v15_apply, val_main_v14_apply,
    val_main_call2_v0_apply, val_main_call2_cst_apply]
  simp only [Ideal.maximumf_def, Ideal.addf_def, Ideal.ofBits_def, Ideal.ofBits_zero_f32, val_main_v12_apply]
  have e1 : ∀ x : Fin 128, lidx_main_v13 (ix2 r d) x = ix2 r x := fun x => pair_eq _ _ _ rfl rfl
  have e2 : ∀ x : Fin 128, idx_main_v12 (ridx_main_v13 (ix2 r d) x) = ix2 d x := fun x => pair_eq _ _ _ rfl rfl
  have e3 : idx_main_v14 (idx_main_v15 (ix2 r d)) = ix1 d := single_eq _ _ rfl
  simp only [e1, e2, e3, layer2]
  rfl

/-- The second head is the same composition of the same operations as the first, over the other weight set. -/
theorem v35_eq_v17 (q : FVec Ideal S192x2048 .f32) (w1 : FVec Ideal S128x2048 .f32) (b1 : FVec Ideal S128 .f32)
    (w2 : FVec Ideal S128x128 .f32) (b2 : FVec Ideal S128 .f32) (w3 : FVec Ideal S2048x128 .f32) (b3 : FVec Ideal S2048 .f32) :
    val_main_v35 (F := Ideal) q w1 b1 w2 b2 w3 b3 = val_main_v17 (F := Ideal) q w1 b1 w2 b2 w3 b3 := rfl

/-! ## The stages after the two heads, at coordinates -/

theorem triple_eq {n0 n1 n2 : Nat} (f : (⟨3, ![n0, n1, n2]⟩ : Shape).Idx) (a : Fin n0) (b : Fin n1) (c : Fin n2)
    (h0 : (f 0).val = a.val) (h1 : (f 1).val = b.val) (h2 : (f 2).val = c.val) : f = ix3 a b c :=
  funext fun x => Fin.ext (by match x with | ⟨0, _⟩ => exact h0 | ⟨1, _⟩ => exact h1 | ⟨2, _⟩ => exact h2)

theorem mu_at (a0 : FVec Ideal S192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (j : Fin 192) (d : Fin 2048) :
    val_main_v17 (F := Ideal) a0 a2 a3 a4 a5 a6 a7 (ix2 j d) = refMu a0 a2 a3 a4 a5 a6 a7 j d := layer3 ..

theorem lv_at (a0 : FVec Ideal S192x2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) (j : Fin 192) (d : Fin 2048) :
    val_main_v35 (F := Ideal) a0 a8 a9 a10 a11 a12 a13 (ix2 j d) = refLv a0 a8 a9 a10 a11 a12 a13 j d := by
  rw [v35_eq_v17]; exact layer3 ..

theorem var_at (a0 : FVec Ideal S192x2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) (j : Fin 192) (d : Fin 2048) :
    val_main_v38 (F := Ideal) a0 a8 a9 a10 a11 a12 a13 (ix2 j d) = refVar a0 a8 a9 a10 a11 a12 a13 j d := by
  rw [val_main_v38_apply, val_main_v37_apply, val_main_v36_apply, val_main_cst_apply, lv_at]
  rfl

theorem p_at (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) (i j : Fin 192) (d : Fin 2048) :
    val_main_v45 (F := Ideal) a0 a1 a2 a3 a4 a5 a6 a7 a8 a9 a10 a11 a12 a13 (ix3 i j d) = refPAt a0 a1 a2 a3 a4 a5 a6 a7 a8 a9 a10 a11 a12 a13 i j d := by
  rw [val_main_v45_apply, val_main_v44_apply, val_main_v40_apply, val_main_v43_apply, val_main_v42_apply,
    val_main_v41_apply, val_main_v39_apply]
  have e1 : idx_main_v40 (idx_main_v44 (ix3 i j d)) = ix2 j d := pair_eq _ _ _ rfl rfl
  have e2 : idx_main_v41 (idx_main_v42 (ix3 i j d)) = ix2 j d := pair_eq _ _ _ rfl rfl
  rw [e1, e2, mu_at, var_at]
  rfl

/-- The summand of the quadratic form: the squared deviation over the variance. -/
theorem quad_at (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) (i j : Fin 192) (d : Fin 2048) :
    val_main_v52 (F := Ideal) a0 a1 a2 a3 a4 a5 a6 a7 a8 a9 a10 a11 a12 a13 (ix3 i j d)
      = Ideal.div ((refPAt a0 a1 a2 a3 a4 a5 a6 a7 a8 a9 a10 a11 a12 a13 i j d - refMu a0 a2 a3 a4 a5 a6 a7 j d) * (refPAt a0 a1 a2 a3 a4 a5 a6 a7 a8 a9 a10 a11 a12 a13 i j d - refMu a0 a2 a3 a4 a5 a6 a7 j d))
          (refVar a0 a8 a9 a10 a11 a12 a13 j d) := by
  rw [val_main_v52_apply, val_main_v49_apply, val_main_v48_apply, val_main_v47_apply, val_main_v46_apply,
    val_main_v51_apply, val_main_v50_apply]
  have e1 : idx_main_v46 (idx_main_v47 (ix3 i j d)) = ix2 j d := pair_eq _ _ _ rfl rfl
  have e2 : idx_main_v50 (idx_main_v51 (ix3 i j d)) = ix2 j d := pair_eq _ _ _ rfl rfl
  rw [e1, e2, p_at, mu_at, var_at]
  rfl

theorem l_at (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) (i j : Fin 192) :
    val_main_v65 (F := Ideal) a0 a1 a2 a3 a4 a5 a6 a7 a8 a9 a10 a11 a12 a13 (ix2 i j) = refLAt a0 a1 a2 a3 a4 a5 a6 a7 a8 a9 a10 a11 a12 a13 i j := by
  rw [val_main_v65_apply, val_main_v60_apply, val_main_v59_apply, val_main_cst_4_apply, val_main_v58_apply,
    val_main_v53_apply, val_main_cst_0_apply, val_main_v57_apply, val_main_cst_3_apply, val_main_v64_apply,
    val_main_v63_apply, val_main_v62_apply, val_main_cst_5_apply, val_main_v61_apply, val_main_v56_apply,
    val_main_v55_apply, val_main_cst_2_apply, val_main_v54_apply, val_main_cst_1_apply]
  have e1 : ∀ k : Fin 2048, idx_main_v53 (ix2 i j) k = ix3 i j k := fun k => triple_eq _ _ _ _ rfl rfl rfl
  have e2 : idx_main_v61 (idx_main_v64 (ix2 i j)) = ix1 j := single_eq _ _ rfl
  rw [e2]
  have e3 : ∀ k : Fin 2048, idx_main_v54 (ix1 j) k = ix2 j k := fun k => pair_eq _ _ _ rfl rfl
  simp only [e1, e3, quad_at, lv_at, Ideal.ofBits_def, Ideal.ofBits_zero_f32, Ideal.subf_def, Ideal.mulf_def, Ideal.addf_def]
  rfl

/-! ## The two results -/

theorem refP_eq (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) :
    val_main_v45 (F := Ideal) a0 a1 a2 a3 a4 a5 a6 a7 a8 a9 a10 a11 a12 a13 = refP a0 a1 a2 a3 a4 a5 a6 a7 a8 a9 a10 a11 a12 a13 := by
  funext t
  obtain ⟨i, j, d, rfl⟩ : ∃ (i j : Fin 192) (d : Fin 2048), t = ix3 i j d := ⟨t 0, t 1, t 2, eq_ix3 t⟩
  exact p_at ..

theorem refL_eq (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) :
    val_main_v65 (F := Ideal) a0 a1 a2 a3 a4 a5 a6 a7 a8 a9 a10 a11 a12 a13 = refL a0 a1 a2 a3 a4 a5 a6 a7 a8 a9 a10 a11 a12 a13 := by
  funext t
  obtain ⟨i, j, rfl⟩ : ∃ (i j : Fin 192), t = ix2 i j := ⟨t 0, t 1, eq_ix2 t⟩
  exact l_at ..

/-! ## The run, restated over the two functions -/

/-- On every device, from any memory with zero counters: every weakly fair execution of the reference terminates with
    its two results at `refP` and `refL` of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = refP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v65) = refL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      ⟨(h c).1.trans ((val_main_v45_eq (F := Ideal) ..).trans (refP_eq ..)),
        (h c).2.1.trans ((val_main_v65_eq (F := Ideal) m c).trans (refL_eq ..)),
        (h c).2.2⟩)
    (Cert.ReferenceIdeal.Value.run (F := Ideal) m ρ)

end Cert.RefG

end
-- ==== Proof.KI.HeadFinal.lean ====
/-
  Region 0's final arrays, at the ideal values: what the head kernel's three output arrays hold when its region is left,
  in the launch memory's arguments.

  The head kernel's grid has one point and every window's block is its whole array, so each output array ends holding the
  one stored block and each input block is its array after the host stretch; the stored blocks are the three-layer heads
  of those arrays (the mean, `exp` of a quarter of the log-variance, half the log-variance's row sums), and the host
  stretch only transposed the weights and made the biases rows, so the heads are the reference's heads of the arguments.
-/
import proofs.«152655_j7894149890238_2_alg».proof.Proof.KI.Run
import proofs.«152655_j7894149890238_2_alg».proof.Proof.KI.HeadValue
import proofs.«152655_j7894149890238_2_alg».proof.Proof.RefG
import Idealize.ShloMosaic.Lib.Pipeline.Value
import Idealize.ShloMosaic.Lib.Tactic

set_option maxRecDepth 16384

noncomputable section

namespace Cert.KernelIdeal.Fr

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

/-! ## The one grid point's blocks are the whole arrays

The head kernel's grid has one point and every window's block is its whole array at zero offsets: an input block read
off its array is the array, and an output array ends holding what the one write-back stored. -/

section Blocks
variable (V : (c : Dev nD) → (b : Ref sig .tc) → Buf (Elt Ideal) ((c : Thread nD τ).loc b)) (c : Dev nD)

/-- Input window 0's block at the one point is its whole array. -/
theorem iblk0_0_eq : iblk0 V c 0 t0_0 = V c main_arg0 := by
  unfold iblk0
  have hz' : (fun a => win0_0.index t0_0 a * main_arg0.ty.shape.size a) = fun _ => 0 := funext fun a => by fin_cases a <;> decide
  exact Memref.read_access_unit_zero (Elt Ideal) main_arg0 hz' (fun a => by rw [congrFun hz' a]; simp) (V c main_arg0)

/-- Input window 1's block at the one point is its whole array. -/
theorem iblk0_1_eq : iblk0 V c 1 t0_0 = V c main_v0 := by
  unfold iblk0
  have hz' : (fun a => win0_1.index t0_0 a * main_v0.ty.shape.size a) = fun _ => 0 := funext fun a => by fin_cases a <;> decide
  exact Memref.read_access_unit_zero (Elt Ideal) main_v0 hz' (fun a => by rw [congrFun hz' a]; simp) (V c main_v0)

/-- Input window 2's block at the one point is its whole array. -/
theorem iblk0_2_eq : iblk0 V c 2 t0_0 = V c main_v6 := by
  unfold iblk0
  have hz' : (fun a => win0_2.index t0_0 a * main_v6.ty.shape.size a) = fun _ => 0 := funext fun a => by fin_cases a <;> decide
  exact Memref.read_access_unit_zero (Elt Ideal) main_v6 hz' (fun a => by rw [congrFun hz' a]; simp) (V c main_v6)

/-- Input window 3's block at the one point is its whole array. -/
theorem iblk0_3_eq : iblk0 V c 3 t0_0 = V c main_v1 := by
  unfold iblk0
  have hz' : (fun a => win0_3.index t0_0 a * main_v1.ty.shape.size a) = fun _ => 0 := funext fun a => by fin_cases a <;> decide
  exact Memref.read_access_unit_zero (Elt Ideal) main_v1 hz' (fun a => by rw [congrFun hz' a]; simp) (V c main_v1)

/-- Input window 4's block at the one point is its whole array. -/
theorem iblk0_4_eq : iblk0 V c 4 t0_0 = V c main_v7 := by
  unfold iblk0
  have hz' : (fun a => win0_4.index t0_0 a * main_v7.ty.shape.size a) = fun _ => 0 := funext fun a => by fin_cases a <;> decide
  exact Memref.read_access_unit_zero (Elt Ideal) main_v7 hz' (fun a => by rw [congrFun hz' a]; simp) (V c main_v7)

/-- Input window 5's block at the one point is its whole array. -/
theorem iblk0_5_eq : iblk0 V c 5 t0_0 = V c main_v2 := by
  unfold iblk0
  have hz' : (fun a => win0_5.index t0_0 a * main_v2.ty.shape.size a) = fun _ => 0 := funext fun a => by fin_cases a <;> decide
  exact Memref.read_access_unit_zero (Elt Ideal) main_v2 hz' (fun a => by rw [congrFun hz' a]; simp) (V c main_v2)

/-- Input window 6's block at the one point is its whole array. -/
theorem iblk0_6_eq : iblk0 V c 6 t0_0 = V c main_v8 := by
  unfold iblk0
  have hz' : (fun a => win0_6.index t0_0 a * main_v8.ty.shape.size a) = fun _ => 0 := funext fun a => by fin_cases a <;> decide
  exact Memref.read_access_unit_zero (Elt Ideal) main_v8 hz' (fun a => by rw [congrFun hz' a]; simp) (V c main_v8)

/-- Input window 7's block at the one point is its whole array. -/
theorem iblk0_7_eq : iblk0 V c 7 t0_0 = V c main_v3 := by
  unfold iblk0
  have hz' : (fun a => win0_7.index t0_0 a * main_v3.ty.shape.size a) = fun _ => 0 := funext fun a => by fin_cases a <;> decide
  exact Memref.read_access_unit_zero (Elt Ideal) main_v3 hz' (fun a => by rw [congrFun hz' a]; simp) (V c main_v3)

/-- Input window 8's block at the one point is its whole array. -/
theorem iblk0_8_eq : iblk0 V c 8 t0_0 = V c main_v9 := by
  unfold iblk0
  have hz' : (fun a => win0_8.index t0_0 a * main_v9.ty.shape.size a) = fun _ => 0 := funext fun a => by fin_cases a <;> decide
  exact Memref.read_access_unit_zero (Elt Ideal) main_v9 hz' (fun a => by rw [congrFun hz' a]; simp) (V c main_v9)

/-- Input window 9's block at the one point is its whole array. -/
theorem iblk0_9_eq : iblk0 V c 9 t0_0 = V c main_v4 := by
  unfold iblk0
  have hz' : (fun a => win0_9.index t0_0 a * main_v4.ty.shape.size a) = fun _ => 0 := funext fun a => by fin_cases a <;> decide
  exact Memref.read_access_unit_zero (Elt Ideal) main_v4 hz' (fun a => by rw [congrFun hz' a]; simp) (V c main_v4)

/-- Input window 10's block at the one point is its whole array. -/
theorem iblk0_10_eq : iblk0 V c 10 t0_0 = V c main_v10 := by
  unfold iblk0
  have hz' : (fun a => win0_10.index t0_0 a * main_v10.ty.shape.size a) = fun _ => 0 := funext fun a => by fin_cases a <;> decide
  exact Memref.read_access_unit_zero (Elt Ideal) main_v10 hz' (fun a => by rw [congrFun hz' a]; simp) (V c main_v10)

/-- Input window 11's block at the one point is its whole array. -/
theorem iblk0_11_eq : iblk0 V c 11 t0_0 = V c main_v5 := by
  unfold iblk0
  have hz' : (fun a => win0_11.index t0_0 a * main_v5.ty.shape.size a) = fun _ => 0 := funext fun a => by fin_cases a <;> decide
  exact Memref.read_access_unit_zero (Elt Ideal) main_v5 hz' (fun a => by rw [congrFun hz' a]; simp) (V c main_v5)

/-- Input window 12's block at the one point is its whole array. -/
theorem iblk0_12_eq : iblk0 V c 12 t0_0 = V c main_v11 := by
  unfold iblk0
  have hz' : (fun a => win0_12.index t0_0 a * main_v11.ty.shape.size a) = fun _ => 0 := funext fun a => by fin_cases a <;> decide
  exact Memref.read_access_unit_zero (Elt Ideal) main_v11 hz' (fun a => by rw [congrFun hz' a]; simp) (V c main_v11)

/-- The mean's array ends holding the one point's stored block. -/
theorem arr13_eq : (dat0 V c).arrAt 13 cfg0.N
      = out0_13 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0) (iblk0 V c 9 t0_0) (iblk0 V c 10 t0_0) (iblk0 V c 11 t0_0) (iblk0 V c 12 t0_0) := by
  refine (dat0 V c).arrAt_eq_of_cover 13 _ (fun t hf => ?_) (fun i => ⟨t0_0, flush0_13 t0_0, ?_⟩)
  · obtain rfl := fin_N0 t
    show (cfg0.win 13).cut (grid0.coords t0_0) ((dat0 V c).after 13 t0_0) = _
    rw [after0_13]
    have hz' : (fun a => win0_13.index t0_0 a * main_v12_0.ty.shape.size a) = fun _ => 0 := funext fun a => by fin_cases a <;> decide
    exact (Memref.read_access_unit_zero (Elt Ideal) main_v12_0 hz' (fun a => by rw [congrFun hz' a]; simp) _).symm
  · show i ∈ ((View.whole main_v12_0).slice (win0_13.rect t0_0)).set
    rw [View.set_slice_whole, Rect.mem_set_unit]
    intro a
    have h0 : (i 0 : Nat) < 192 := (i 0).isLt
    have h1 : (i 1 : Nat) < 2048 := (i 1).isLt
    match a with
    | ⟨0, _⟩ =>
      show win0_13.index t0_0 0 * win0_13.size 0 ≤ (i 0 : Nat) ∧ (i 0 : Nat) < win0_13.index t0_0 0 * win0_13.size 0 + win0_13.xsize (grid0.coords t0_0) 0
      rw [show win0_13.index t0_0 0 * win0_13.size 0 = 0 from by decide +kernel, show win0_13.xsize (grid0.coords t0_0) 0 = 192 from by decide +kernel]; omega
    | ⟨1, _⟩ =>
      show win0_13.index t0_0 1 * win0_13.size 1 ≤ (i 1 : Nat) ∧ (i 1 : Nat) < win0_13.index t0_0 1 * win0_13.size 1 + win0_13.xsize (grid0.coords t0_0) 1
      rw [show win0_13.index t0_0 1 * win0_13.size 1 = 0 from by decide +kernel, show win0_13.xsize (grid0.coords t0_0) 1 = 2048 from by decide +kernel]; omega

/-- The scale's array ends holding the one point's stored block. -/
theorem arr14_eq : (dat0 V c).arrAt 14 cfg0.N
      = out0_14 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0) (iblk0 V c 9 t0_0) (iblk0 V c 10 t0_0) (iblk0 V c 11 t0_0) (iblk0 V c 12 t0_0) := by
  refine (dat0 V c).arrAt_eq_of_cover 14 _ (fun t hf => ?_) (fun i => ⟨t0_0, flush0_14 t0_0, ?_⟩)
  · obtain rfl := fin_N0 t
    show (cfg0.win 14).cut (grid0.coords t0_0) ((dat0 V c).after 14 t0_0) = _
    rw [after0_14]
    have hz' : (fun a => win0_14.index t0_0 a * main_v12_1.ty.shape.size a) = fun _ => 0 := funext fun a => by fin_cases a <;> decide
    exact (Memref.read_access_unit_zero (Elt Ideal) main_v12_1 hz' (fun a => by rw [congrFun hz' a]; simp) _).symm
  · show i ∈ ((View.whole main_v12_1).slice (win0_14.rect t0_0)).set
    rw [View.set_slice_whole, Rect.mem_set_unit]
    intro a
    have h0 : (i 0 : Nat) < 192 := (i 0).isLt
    have h1 : (i 1 : Nat) < 2048 := (i 1).isLt
    match a with
    | ⟨0, _⟩ =>
      show win0_14.index t0_0 0 * win0_14.size 0 ≤ (i 0 : Nat) ∧ (i 0 : Nat) < win0_14.index t0_0 0 * win0_14.size 0 + win0_14.xsize (grid0.coords t0_0) 0
      rw [show win0_14.index t0_0 0 * win0_14.size 0 = 0 from by decide +kernel, show win0_14.xsize (grid0.coords t0_0) 0 = 192 from by decide +kernel]; omega
    | ⟨1, _⟩ =>
      show win0_14.index t0_0 1 * win0_14.size 1 ≤ (i 1 : Nat) ∧ (i 1 : Nat) < win0_14.index t0_0 1 * win0_14.size 1 + win0_14.xsize (grid0.coords t0_0) 1
      rw [show win0_14.index t0_0 1 * win0_14.size 1 = 0 from by decide +kernel, show win0_14.xsize (grid0.coords t0_0) 1 = 2048 from by decide +kernel]; omega

/-- The log-determinant row's array ends holding the one point's stored block. -/
theorem arr15_eq : (dat0 V c).arrAt 15 cfg0.N
      = out0_15 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0) (iblk0 V c 9 t0_0) (iblk0 V c 10 t0_0) (iblk0 V c 11 t0_0) (iblk0 V c 12 t0_0) := by
  refine (dat0 V c).arrAt_eq_of_cover 15 _ (fun t hf => ?_) (fun i => ⟨t0_0, flush0_15 t0_0, ?_⟩)
  · obtain rfl := fin_N0 t
    show (cfg0.win 15).cut (grid0.coords t0_0) ((dat0 V c).after 15 t0_0) = _
    rw [after0_15]
    have hz' : (fun a => win0_15.index t0_0 a * main_v12_2.ty.shape.size a) = fun _ => 0 := funext fun a => by fin_cases a <;> decide
    exact (Memref.read_access_unit_zero (Elt Ideal) main_v12_2 hz' (fun a => by rw [congrFun hz' a]; simp) _).symm
  · show i ∈ ((View.whole main_v12_2).slice (win0_15.rect t0_0)).set
    rw [View.set_slice_whole, Rect.mem_set_unit]
    intro a
    have h0 : (i 0 : Nat) < 1 := (i 0).isLt
    have h1 : (i 1 : Nat) < 192 := (i 1).isLt
    match a with
    | ⟨0, _⟩ =>
      show win0_15.index t0_0 0 * win0_15.size 0 ≤ (i 0 : Nat) ∧ (i 0 : Nat) < win0_15.index t0_0 0 * win0_15.size 0 + win0_15.xsize (grid0.coords t0_0) 0
      rw [show win0_15.index t0_0 0 * win0_15.size 0 = 0 from by decide +kernel, show win0_15.xsize (grid0.coords t0_0) 0 = 1 from by decide +kernel]; omega
    | ⟨1, _⟩ =>
      show win0_15.index t0_0 1 * win0_15.size 1 ≤ (i 1 : Nat) ∧ (i 1 : Nat) < win0_15.index t0_0 1 * win0_15.size 1 + win0_15.xsize (grid0.coords t0_0) 1
      rw [show win0_15.index t0_0 1 * win0_15.size 1 = 0 from by decide +kernel, show win0_15.xsize (grid0.coords t0_0) 1 = 192 from by decide +kernel]; omega

end Blocks

/-! ## Region 0's final arrays in the launch memory's arguments -/

/-- The three-layer head depends on its seven operands only through their values. -/
theorem head_ext {q q' : Fin 192 → Fin 2048 → EReal} {w1 w1' : Fin 128 → Fin 2048 → EReal} {b1 b1' : Fin 128 → EReal}
    {w2 w2' : Fin 128 → Fin 128 → EReal} {b2 b2' : Fin 128 → EReal} {w3 w3' : Fin 2048 → Fin 128 → EReal} {b3 b3' : Fin 2048 → EReal}
    (hq : ∀ i k, q i k = q' i k) (hw1 : ∀ h k, w1 h k = w1' h k) (hb1 : ∀ h, b1 h = b1' h) (hw2 : ∀ h k, w2 h k = w2' h k)
    (hb2 : ∀ h, b2 h = b2' h) (hw3 : ∀ h k, w3 h k = w3' h k) (hb3 : ∀ h, b3 h = b3' h) (i : Fin 192) (d : Fin 2048) :
    Cert.Spec.head q w1 b1 w2 b2 w3 b3 i d = Cert.Spec.head q' w1' b1' w2' b2' w3' b3' i d := by
  rw [show q = q' from funext fun i => funext fun k => hq i k, show w1 = w1' from funext fun h => funext fun k => hw1 h k,
    show b1 = b1' from funext hb1, show w2 = w2' from funext fun h => funext fun k => hw2 h k, show b2 = b2' from funext hb2,
    show w3 = w3' from funext fun h => funext fun k => hw3 h k, show b3 = b3' from funext hb3]

variable (m : (ℓ : Loc nD τ sig) → Buf (Elt Ideal) ℓ) (ρ : Dev nD → PrngReg) (c : Dev nD)

/-- The mean head over the host stretch's results is the reference's mean head over the arguments. -/
theorem mu_blocks (j : Fin 192) (d : Fin 2048) :
    Cert.Spec.head (fun i k => (Ve0 m ρ c main_arg0 : S192x2048.Idx → EReal) (ix2 i k))
        (fun h k => (Ve0 m ρ c main_v0 : S2048x128.Idx → EReal) (ix2 k h)) (fun h => (Ve0 m ρ c main_v6 : S1x128.Idx → EReal) (ix2 0 h))
        (fun h k => (Ve0 m ρ c main_v1 : S128x128.Idx → EReal) (ix2 k h)) (fun h => (Ve0 m ρ c main_v7 : S1x128.Idx → EReal) (ix2 0 h))
        (fun d k => (Ve0 m ρ c main_v2 : S128x2048.Idx → EReal) (ix2 k d)) (fun d => (Ve0 m ρ c main_v8 : S1x2048.Idx → EReal) (ix2 0 d)) j d
      = Cert.RefG.refMu (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) j d := by
  unfold Cert.RefG.refMu Cert.RefG.refHead
  exact head_ext (fun i k => congrFun (HeadV.W_main_arg0_eq m c) (ix2 i k)) (fun h k => HeadV.W_main_v0_apply m c k h)
    (fun h => HeadV.W_main_v6_apply m c 0 h) (fun h k => HeadV.W_main_v1_apply m c k h) (fun h => HeadV.W_main_v7_apply m c 0 h)
    (fun h k => HeadV.W_main_v2_apply m c k h) (fun h => HeadV.W_main_v8_apply m c 0 h) j d

/-- The log-variance head over the host stretch's results is the reference's log-variance head over the arguments. -/
theorem lv_blocks (j : Fin 192) (d : Fin 2048) :
    Cert.Spec.head (fun i k => (Ve0 m ρ c main_arg0 : S192x2048.Idx → EReal) (ix2 i k))
        (fun h k => (Ve0 m ρ c main_v3 : S2048x128.Idx → EReal) (ix2 k h)) (fun h => (Ve0 m ρ c main_v9 : S1x128.Idx → EReal) (ix2 0 h))
        (fun h k => (Ve0 m ρ c main_v4 : S128x128.Idx → EReal) (ix2 k h)) (fun h => (Ve0 m ρ c main_v10 : S1x128.Idx → EReal) (ix2 0 h))
        (fun d k => (Ve0 m ρ c main_v5 : S128x2048.Idx → EReal) (ix2 k d)) (fun d => (Ve0 m ρ c main_v11 : S1x2048.Idx → EReal) (ix2 0 d)) j d
      = Cert.RefG.refLv (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) j d := by
  unfold Cert.RefG.refLv Cert.RefG.refHead
  exact head_ext (fun i k => congrFun (HeadV.W_main_arg0_eq m c) (ix2 i k)) (fun h k => HeadV.W_main_v3_apply m c k h)
    (fun h => HeadV.W_main_v9_apply m c 0 h) (fun h k => HeadV.W_main_v4_apply m c k h) (fun h => HeadV.W_main_v10_apply m c 0 h)
    (fun h k => HeadV.W_main_v5_apply m c k h) (fun h => HeadV.W_main_v11_apply m c 0 h) j d

/-- The mean array at region 0's exit: the reference's mean head of the arguments. -/
theorem v12_0_apply (j : Fin 192) (d : Fin 2048) :
    (Ve1 m ρ c main_v12_0 : S192x2048.Idx → EReal) (ix2 j d)
      = Cert.RefG.refMu (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) j d := by
  have e1 : Ve1 m ρ c main_v12_0 = (dat0 (Ve0 m ρ) c).arrAt 13 cfg0.N := W2_arr m ρ c 13
  rw [e1, arr13_eq, HeadV.out0_13_apply, iblk0_0_eq, iblk0_1_eq, iblk0_2_eq, iblk0_3_eq, iblk0_4_eq, iblk0_5_eq, iblk0_6_eq]
  exact mu_blocks m ρ c j d

/-- The scale array at region 0's exit: `exp (lv / 4)` of the reference's log-variance head of the arguments. -/
theorem v12_1_apply (j : Fin 192) (d : Fin 2048) :
    (Ve1 m ρ c main_v12_1 : S192x2048.Idx → EReal) (ix2 j d)
      = Ideal.exp (Ideal.ofBits .f32 0x3E800000#32 * Cert.RefG.refLv (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) j d) := by
  have e1 : Ve1 m ρ c main_v12_1 = (dat0 (Ve0 m ρ) c).arrAt 14 cfg0.N := W2_arr m ρ c 14
  rw [e1, arr14_eq, HeadV.out0_14_apply, iblk0_0_eq, iblk0_7_eq, iblk0_8_eq, iblk0_9_eq, iblk0_10_eq, iblk0_11_eq, iblk0_12_eq]
  exact congrArg (fun x => Ideal.exp (Ideal.ofBits .f32 0x3E800000#32 * x)) (lv_blocks m ρ c j d)

/-- The log-determinant row at region 0's exit: half the sum over the feature axis of the reference's log-variance head. -/
theorem v12_2_apply (u : Fin 1) (j : Fin 192) :
    (Ve1 m ρ c main_v12_2 : S1x192.Idx → EReal) (ix2 u j)
      = Ideal.ofBits .f32 0x3F000000#32 * ∑ d : Fin 2048, Cert.RefG.refLv (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) j d := by
  have e1 : Ve1 m ρ c main_v12_2 = (dat0 (Ve0 m ρ) c).arrAt 15 cfg0.N := W2_arr m ρ c 15
  rw [e1, arr15_eq, HeadV.out0_15_apply, iblk0_0_eq, iblk0_7_eq, iblk0_8_eq, iblk0_9_eq, iblk0_10_eq, iblk0_11_eq, iblk0_12_eq]
  exact congrArg (Ideal.ofBits .f32 0x3F000000#32 * ·) (Finset.sum_congr rfl fun d _ => lv_blocks m ρ c j d)

/-- The noise argument is no window of region 0 and no host operation writes it: at region 0's exit it holds its launch contents. -/
theorem ve1_main_arg1 : Ve1 m ρ c main_arg1 = m ((c.tc : Thread nD τ).loc main_arg1) :=
  (W2_of_ne m ρ c main_arg1 (by decide)).trans
    (StableHlo.after_of_writes_sub (hostOps0 (F := Ideal)) _ hostOps0_writes (by decide))

end Cert.KernelIdeal.Fr

end
-- ==== Proof.Finite.lean ====
/-
  Finite inputs are real. The precondition says, for each of the fourteen argument arrays, that every entry x
  has |x| < +∞; an extended real with max x (-x) < ⊤ is neither ⊤ nor ⊥, so it is a real number.
-/
import proofs.«152655_j7894149890238_2_alg».proof.Defs
import Idealize.ShloMosaic.Lib.ReduceAll
import Idealize.ShloMosaic.Lib.ValueIdx

noncomputable section

namespace Cert.Finite

open Idealize.ShloMosaic Idealize.SL.Sem Idealize.ShloMosaic.ValueIdx

/-- The scalar shape has one index. -/
instance : Subsingleton Cert.Pre_finite_inputs.S_.Idx := ⟨fun _ _ => funext fun d => d.elim0⟩

/-- The pattern 0x7F800000 denotes +∞. -/
theorem ofBits_inf : Ideal.ofBits .f32 0x7F800000#32 = ⊤ := by simp [Ideal.ofBits, Ideal.ieee]

/-- An extended real whose absolute value is below +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One array: if "all entries have absolute value below +∞" came out true, every entry is a real. -/
theorem all_real {s : Shape} {axes : List (Fin s.rank)} (x : FVec Ideal s .f32)
    (hb : Cert.Pre_finite_inputs.S_.BroadcastsInDim s ![]) (hr : s.ReducesTo axes Cert.Pre_finite_inputs.S_)
    (hu : 0 < Cert.Pre_finite_inputs.S_.numel)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu ix0 = 1#1) (i : s.Idx) :
    ∃ r : ℝ, x i = (r : EReal) :=
  real_of_abs_lt_inf (x i) (Host.reduce_andi_all _ _ hr hu ix0 e i)

/-- The precondition, over any fourteen arrays: every entry of every array is a real. -/
theorem fn_real [Cert.Pre_finite_inputs.Facts]
    (a0 : FVec Ideal Cert.Pre_finite_inputs.S192x2048 .f32) (a1 : FVec Ideal Cert.Pre_finite_inputs.S192x192x2048 .f32) (a2 : FVec Ideal Cert.Pre_finite_inputs.S128x2048 .f32) (a3 : FVec Ideal Cert.Pre_finite_inputs.S128 .f32) (a4 : FVec Ideal Cert.Pre_finite_inputs.S128x128 .f32) (a5 : FVec Ideal Cert.Pre_finite_inputs.S128 .f32) (a6 : FVec Ideal Cert.Pre_finite_inputs.S2048x128 .f32) (a7 : FVec Ideal Cert.Pre_finite_inputs.S2048 .f32) (a8 : FVec Ideal Cert.Pre_finite_inputs.S128x2048 .f32) (a9 : FVec Ideal Cert.Pre_finite_inputs.S128 .f32) (a10 : FVec Ideal Cert.Pre_finite_inputs.S128x128 .f32) (a11 : FVec Ideal Cert.Pre_finite_inputs.S128 .f32) (a12 : FVec Ideal Cert.Pre_finite_inputs.S2048x128 .f32) (a13 : FVec Ideal Cert.Pre_finite_inputs.S2048 .f32)
    (h : Cert.Pre_finite_inputs.fn (F := Ideal) a0 a1 a2 a3 a4 a5 a6 a7 a8 a9 a10 a11 a12 a13 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal)) := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, andi] at h0
  simp only [IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h0
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7,
    all_real a8 _ _ _ e8, all_real a9 _ _ _ e9, all_real a10 _ _ _ e10, all_real a11 _ _ _ e11,
    all_real a12 _ _ _ e12, all_real a13 _ _ _ e13⟩

/-- Every entry of argument 0 is a real. -/
theorem arg0_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (fn_real _ _ _ _ _ _ _ _ _ _ _ _ _ _ (h c)).1

/-- The same by coordinates. -/
theorem arg0_real_ix [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 192) (j : Fin 2048) :
    ∃ r : ℝ, m ((c.tc : Thread Cert.KernelIdeal.nD Cert.KernelIdeal.τ).loc Cert.KernelIdeal.main_arg0) (ix2 i j) = (r : EReal) :=
  arg0_real m h c (ix2 i j)

/-- Every entry of argument 1 is a real. -/
theorem arg1_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) :=
  (fn_real _ _ _ _ _ _ _ _ _ _ _ _ _ _ (h c)).2.1

/-- The same by coordinates. -/
theorem arg1_real_ix [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 192) (j : Fin 192) (k : Fin 2048) :
    ∃ r : ℝ, m ((c.tc : Thread Cert.KernelIdeal.nD Cert.KernelIdeal.τ).loc Cert.KernelIdeal.main_arg1) (ix3 i j k) = (r : EReal) :=
  arg1_real m h c (ix3 i j k)

/-- Every entry of argument 2 is a real. -/
theorem arg2_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  (fn_real _ _ _ _ _ _ _ _ _ _ _ _ _ _ (h c)).2.2.1

/-- The same by coordinates. -/
theorem arg2_real_ix [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 128) (j : Fin 2048) :
    ∃ r : ℝ, m ((c.tc : Thread Cert.KernelIdeal.nD Cert.KernelIdeal.τ).loc Cert.KernelIdeal.main_arg2) (ix2 i j) = (r : EReal) :=
  arg2_real m h c (ix2 i j)

/-- Every entry of argument 3 is a real. -/
theorem arg3_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  (fn_real _ _ _ _ _ _ _ _ _ _ _ _ _ _ (h c)).2.2.2.1

/-- The same by coordinates. -/
theorem arg3_real_ix [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 128) :
    ∃ r : ℝ, m ((c.tc : Thread Cert.KernelIdeal.nD Cert.KernelIdeal.τ).loc Cert.KernelIdeal.main_arg3) (ix1 i) = (r : EReal) :=
  arg3_real m h c (ix1 i)

/-- Every entry of argument 4 is a real. -/
theorem arg4_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  (fn_real _ _ _ _ _ _ _ _ _ _ _ _ _ _ (h c)).2.2.2.2.1

/-- The same by coordinates. -/
theorem arg4_real_ix [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 128) (j : Fin 128) :
    ∃ r : ℝ, m ((c.tc : Thread Cert.KernelIdeal.nD Cert.KernelIdeal.τ).loc Cert.KernelIdeal.main_arg4) (ix2 i j) = (r : EReal) :=
  arg4_real m h c (ix2 i j)

/-- Every entry of argument 5 is a real. -/
theorem arg5_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg5) i = (r : EReal) :=
  (fn_real _ _ _ _ _ _ _ _ _ _ _ _ _ _ (h c)).2.2.2.2.2.1

/-- The same by coordinates. -/
theorem arg5_real_ix [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 128) :
    ∃ r : ℝ, m ((c.tc : Thread Cert.KernelIdeal.nD Cert.KernelIdeal.τ).loc Cert.KernelIdeal.main_arg5) (ix1 i) = (r : EReal) :=
  arg5_real m h c (ix1 i)

/-- Every entry of argument 6 is a real. -/
theorem arg6_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg6) i = (r : EReal) :=
  (fn_real _ _ _ _ _ _ _ _ _ _ _ _ _ _ (h c)).2.2.2.2.2.2.1

/-- The same by coordinates. -/
theorem arg6_real_ix [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 2048) (j : Fin 128) :
    ∃ r : ℝ, m ((c.tc : Thread Cert.KernelIdeal.nD Cert.KernelIdeal.τ).loc Cert.KernelIdeal.main_arg6) (ix2 i j) = (r : EReal) :=
  arg6_real m h c (ix2 i j)

/-- Every entry of argument 7 is a real. -/
theorem arg7_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg7) i = (r : EReal) :=
  (fn_real _ _ _ _ _ _ _ _ _ _ _ _ _ _ (h c)).2.2.2.2.2.2.2.1

/-- The same by coordinates. -/
theorem arg7_real_ix [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 2048) :
    ∃ r : ℝ, m ((c.tc : Thread Cert.KernelIdeal.nD Cert.KernelIdeal.τ).loc Cert.KernelIdeal.main_arg7) (ix1 i) = (r : EReal) :=
  arg7_real m h c (ix1 i)

/-- Every entry of argument 8 is a real. -/
theorem arg8_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg8) i = (r : EReal) :=
  (fn_real _ _ _ _ _ _ _ _ _ _ _ _ _ _ (h c)).2.2.2.2.2.2.2.2.1

/-- The same by coordinates. -/
theorem arg8_real_ix [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 128) (j : Fin 2048) :
    ∃ r : ℝ, m ((c.tc : Thread Cert.KernelIdeal.nD Cert.KernelIdeal.τ).loc Cert.KernelIdeal.main_arg8) (ix2 i j) = (r : EReal) :=
  arg8_real m h c (ix2 i j)

/-- Every entry of argument 9 is a real. -/
theorem arg9_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg9) i = (r : EReal) :=
  (fn_real _ _ _ _ _ _ _ _ _ _ _ _ _ _ (h c)).2.2.2.2.2.2.2.2.2.1

/-- The same by coordinates. -/
theorem arg9_real_ix [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 128) :
    ∃ r : ℝ, m ((c.tc : Thread Cert.KernelIdeal.nD Cert.KernelIdeal.τ).loc Cert.KernelIdeal.main_arg9) (ix1 i) = (r : EReal) :=
  arg9_real m h c (ix1 i)

/-- Every entry of argument 10 is a real. -/
theorem arg10_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg10) i = (r : EReal) :=
  (fn_real _ _ _ _ _ _ _ _ _ _ _ _ _ _ (h c)).2.2.2.2.2.2.2.2.2.2.1

/-- The same by coordinates. -/
theorem arg10_real_ix [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 128) (j : Fin 128) :
    ∃ r : ℝ, m ((c.tc : Thread Cert.KernelIdeal.nD Cert.KernelIdeal.τ).loc Cert.KernelIdeal.main_arg10) (ix2 i j) = (r : EReal) :=
  arg10_real m h c (ix2 i j)

/-- Every entry of argument 11 is a real. -/
theorem arg11_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg11) i = (r : EReal) :=
  (fn_real _ _ _ _ _ _ _ _ _ _ _ _ _ _ (h c)).2.2.2.2.2.2.2.2.2.2.2.1

/-- The same by coordinates. -/
theorem arg11_real_ix [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 128) :
    ∃ r : ℝ, m ((c.tc : Thread Cert.KernelIdeal.nD Cert.KernelIdeal.τ).loc Cert.KernelIdeal.main_arg11) (ix1 i) = (r : EReal) :=
  arg11_real m h c (ix1 i)

/-- Every entry of argument 12 is a real. -/
theorem arg12_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg12) i = (r : EReal) :=
  (fn_real _ _ _ _ _ _ _ _ _ _ _ _ _ _ (h c)).2.2.2.2.2.2.2.2.2.2.2.2.1

/-- The same by coordinates. -/
theorem arg12_real_ix [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 2048) (j : Fin 128) :
    ∃ r : ℝ, m ((c.tc : Thread Cert.KernelIdeal.nD Cert.KernelIdeal.τ).loc Cert.KernelIdeal.main_arg12) (ix2 i j) = (r : EReal) :=
  arg12_real m h c (ix2 i j)

/-- Every entry of argument 13 is a real. -/
theorem arg13_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg13) i = (r : EReal) :=
  (fn_real _ _ _ _ _ _ _ _ _ _ _ _ _ _ (h c)).2.2.2.2.2.2.2.2.2.2.2.2.2

/-- The same by coordinates. -/
theorem arg13_real_ix [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 2048) :
    ∃ r : ℝ, m ((c.tc : Thread Cert.KernelIdeal.nD Cert.KernelIdeal.τ).loc Cert.KernelIdeal.main_arg13) (ix1 i) = (r : EReal) :=
  arg13_real m h c (ix1 i)

end Cert.Finite

end
-- ==== Proof.KerG.lean ====
/-
  The kernel's two results as closed functions of the fourteen argument arrays, and their agreement with the
  reference's for real-valued arrays.

  The kernel computes the same two heads mu and lv as the reference, then
    p[i,j,d]     = mu[j,d] + eps[i,j,d] · exp (¼ · lv[j,d])
    logprob[i,j] = (-½) · (acc[i,j] + C) - ½ · (½ · Σ_d lv[j,d])
  where acc[i,j] is Σ_d eps[i,j,d]², summed in four consecutive blocks of 512 starting from the zero pattern.

  With every entry of the arrays a real number both heads are real-valued, so √(exp (½ lv)) = exp (¼ lv), and
  ((p - mu) · (p - mu)) / exp (½ lv) = eps · eps term by term; the sums the reference starts from zero lose the zero.
-/
import proofs.«152655_j7894149890238_2_alg».proof.Proof.RefG
import proofs.«152655_j7894149890238_2_alg».proof.Proof.Algebra
import proofs.«152655_j7894149890238_2_alg».proof.Proof.Finite

noncomputable section

namespace Cert.KerG

open Cert.ReferenceIdeal Cert.RefG
open Idealize.ShloMosaic Idealize.SL.Sem Idealize.ShloMosaic.ValueIdx

/-! ## The functions -/

/-- The kernel's sample at coordinates: mu[j,d] + eps[i,j,d] · exp (¼ · lv[j,d]). -/
def kerPAt (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) (i j : Fin 192) (d : Fin 2048) : EReal :=
  refMu a0 a2 a3 a4 a5 a6 a7 j d
    + a1 (ix3 i j d) * Ideal.exp (Ideal.ofBits .f32 0x3E800000#32 * refLv a0 a8 a9 a10 a11 a12 a13 j d)

/-- The kernel's first result, the samples, as an array. -/
def kerP (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) : FVec Ideal S192x192x2048 .f32 :=
  fun t => kerPAt a0 a1 a2 a3 a4 a5 a6 a7 a8 a9 a10 a11 a12 a13 (t 0) (t 1) (t 2)

/-- The squares of eps along the last axis at (i, j). -/
def sq (a1 : FVec Ideal S192x192x2048 .f32) (i j : Fin 192) : Fin 2048 → EReal :=
  fun d => a1 (ix3 i j d) * a1 (ix3 i j d)

/-- The kernel's accumulator at (i, j): the four blocks of squares added in turn to the zero pattern. -/
def kerAcc (a1 : FVec Ideal S192x192x2048 .f32) (i j : Fin 192) : EReal :=
  (((Ideal.ofBits .f32 0x00000000#32 + Cert.Alg.chunk (sq a1 i j) 0) + Cert.Alg.chunk (sq a1 i j) 1)
      + Cert.Alg.chunk (sq a1 i j) 2)
    + Cert.Alg.chunk (sq a1 i j) 3

/-- The kernel's log-probability at coordinates. -/
def kerLAt (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) (i j : Fin 192) : EReal :=
  Ideal.ofBits .f32 0xBF000000#32 * (kerAcc a1 i j + Ideal.ofBits .f32 0x456B3F8E#32)
    - Ideal.ofBits .f32 0x3F000000#32
        * (Ideal.ofBits .f32 0x3F000000#32 * ∑ d : Fin 2048, refLv a0 a8 a9 a10 a11 a12 a13 j d)

/-- The kernel's second result, the log-probabilities, as an array. -/
def kerL (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) : FVec Ideal S192x192 .f32 :=
  fun t => kerLAt a0 a1 a2 a3 a4 a5 a6 a7 a8 a9 a10 a11 a12 a13 (t 0) (t 1)

theorem kerP_apply (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) (i j : Fin 192) (d : Fin 2048) :
    kerP a0 a1 a2 a3 a4 a5 a6 a7 a8 a9 a10 a11 a12 a13 (ix3 i j d) = kerPAt a0 a1 a2 a3 a4 a5 a6 a7 a8 a9 a10 a11 a12 a13 i j d := rfl

theorem kerL_apply (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32) (i j : Fin 192) :
    kerL a0 a1 a2 a3 a4 a5 a6 a7 a8 a9 a10 a11 a12 a13 (ix2 i j) = kerLAt a0 a1 a2 a3 a4 a5 a6 a7 a8 a9 a10 a11 a12 a13 i j := rfl

/-! ## Real-valued heads -/

/-- A head over entrywise-real arrays is real-valued (and not negative). -/
theorem refHead_real (q : FVec Ideal S192x2048 .f32) (w1 : FVec Ideal S128x2048 .f32) (b1 : FVec Ideal S128 .f32)
    (w2 : FVec Ideal S128x128 .f32) (b2 : FVec Ideal S128 .f32) (w3 : FVec Ideal S2048x128 .f32)
    (b3 : FVec Ideal S2048 .f32)
    (hq : ∀ t, ∃ r : ℝ, q t = (r : EReal)) (hw1 : ∀ t, ∃ r : ℝ, w1 t = (r : EReal))
    (hb1 : ∀ t, ∃ r : ℝ, b1 t = (r : EReal)) (hw2 : ∀ t, ∃ r : ℝ, w2 t = (r : EReal))
    (hb2 : ∀ t, ∃ r : ℝ, b2 t = (r : EReal)) (hw3 : ∀ t, ∃ r : ℝ, w3 t = (r : EReal))
    (hb3 : ∀ t, ∃ r : ℝ, b3 t = (r : EReal)) :
    ∃ r : Fin 192 → Fin 2048 → ℝ, (∀ j d, 0 ≤ r j d) ∧ ∀ j d, refHead q w1 b1 w2 b2 w3 b3 j d = (r j d : EReal) :=
  Cert.Alg.head_real (fun i k => hq (ix2 i k)) (fun h k => hw1 (ix2 h k)) (fun h => hb1 (ix1 h))
    (fun h k => hw2 (ix2 h k)) (fun h => hb2 (ix1 h)) (fun h k => hw3 (ix2 h k)) (fun h => hb3 (ix1 h))

/-! ## The reference's results are the kernel's -/

/-- The samples at coordinates. -/
theorem refPAt_eq (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32)
    (h0 : ∀ t, ∃ r : ℝ, a0 t = (r : EReal))
    (h1 : ∀ t, ∃ r : ℝ, a1 t = (r : EReal))
    (h2 : ∀ t, ∃ r : ℝ, a2 t = (r : EReal))
    (h3 : ∀ t, ∃ r : ℝ, a3 t = (r : EReal))
    (h4 : ∀ t, ∃ r : ℝ, a4 t = (r : EReal))
    (h5 : ∀ t, ∃ r : ℝ, a5 t = (r : EReal))
    (h6 : ∀ t, ∃ r : ℝ, a6 t = (r : EReal))
    (h7 : ∀ t, ∃ r : ℝ, a7 t = (r : EReal))
    (h8 : ∀ t, ∃ r : ℝ, a8 t = (r : EReal))
    (h9 : ∀ t, ∃ r : ℝ, a9 t = (r : EReal))
    (h10 : ∀ t, ∃ r : ℝ, a10 t = (r : EReal))
    (h11 : ∀ t, ∃ r : ℝ, a11 t = (r : EReal))
    (h12 : ∀ t, ∃ r : ℝ, a12 t = (r : EReal))
    (h13 : ∀ t, ∃ r : ℝ, a13 t = (r : EReal))
    (i j : Fin 192) (d : Fin 2048) :
    refPAt a0 a1 a2 a3 a4 a5 a6 a7 a8 a9 a10 a11 a12 a13 i j d = kerPAt a0 a1 a2 a3 a4 a5 a6 a7 a8 a9 a10 a11 a12 a13 i j d := by
  obtain ⟨l, -, hl⟩ := refHead_real a0 a8 a9 a10 a11 a12 a13 h0 h8 h9 h10 h11 h12 h13
  unfold refPAt refVar kerPAt
  rw [show refLv a0 a8 a9 a10 a11 a12 a13 j d = ((l j d : ℝ) : EReal) from hl j d]
  exact Cert.Alg.sample_eq _ _ (l j d)

/-- The log-probabilities at coordinates. -/
theorem refLAt_eq (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32)
    (h0 : ∀ t, ∃ r : ℝ, a0 t = (r : EReal))
    (h1 : ∀ t, ∃ r : ℝ, a1 t = (r : EReal))
    (h2 : ∀ t, ∃ r : ℝ, a2 t = (r : EReal))
    (h3 : ∀ t, ∃ r : ℝ, a3 t = (r : EReal))
    (h4 : ∀ t, ∃ r : ℝ, a4 t = (r : EReal))
    (h5 : ∀ t, ∃ r : ℝ, a5 t = (r : EReal))
    (h6 : ∀ t, ∃ r : ℝ, a6 t = (r : EReal))
    (h7 : ∀ t, ∃ r : ℝ, a7 t = (r : EReal))
    (h8 : ∀ t, ∃ r : ℝ, a8 t = (r : EReal))
    (h9 : ∀ t, ∃ r : ℝ, a9 t = (r : EReal))
    (h10 : ∀ t, ∃ r : ℝ, a10 t = (r : EReal))
    (h11 : ∀ t, ∃ r : ℝ, a11 t = (r : EReal))
    (h12 : ∀ t, ∃ r : ℝ, a12 t = (r : EReal))
    (h13 : ∀ t, ∃ r : ℝ, a13 t = (r : EReal))
    (i j : Fin 192) :
    refLAt a0 a1 a2 a3 a4 a5 a6 a7 a8 a9 a10 a11 a12 a13 i j = kerLAt a0 a1 a2 a3 a4 a5 a6 a7 a8 a9 a10 a11 a12 a13 i j := by
  obtain ⟨mr, -, hm⟩ := refHead_real a0 a2 a3 a4 a5 a6 a7 h0 h2 h3 h4 h5 h6 h7
  obtain ⟨l, -, hl⟩ := refHead_real a0 a8 a9 a10 a11 a12 a13 h0 h8 h9 h10 h11 h12 h13
  unfold kerLAt kerAcc
  rw [Ideal.ofBits_zero_f32]
  exact Cert.Alg.logprob_eq _ _ _ (fun d => refMu a0 a2 a3 a4 a5 a6 a7 j d)
    (fun d => refLv a0 a8 a9 a10 a11 a12 a13 j d) (fun d => a1 (ix3 i j d))
    (fun d => ⟨mr j d, hm j d⟩) (fun d => ⟨l j d, hl j d⟩) (fun d => h1 (ix3 i j d))

/-- The samples, as arrays. -/
theorem bridgeP (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32)
    (h0 : ∀ t, ∃ r : ℝ, a0 t = (r : EReal))
    (h1 : ∀ t, ∃ r : ℝ, a1 t = (r : EReal))
    (h2 : ∀ t, ∃ r : ℝ, a2 t = (r : EReal))
    (h3 : ∀ t, ∃ r : ℝ, a3 t = (r : EReal))
    (h4 : ∀ t, ∃ r : ℝ, a4 t = (r : EReal))
    (h5 : ∀ t, ∃ r : ℝ, a5 t = (r : EReal))
    (h6 : ∀ t, ∃ r : ℝ, a6 t = (r : EReal))
    (h7 : ∀ t, ∃ r : ℝ, a7 t = (r : EReal))
    (h8 : ∀ t, ∃ r : ℝ, a8 t = (r : EReal))
    (h9 : ∀ t, ∃ r : ℝ, a9 t = (r : EReal))
    (h10 : ∀ t, ∃ r : ℝ, a10 t = (r : EReal))
    (h11 : ∀ t, ∃ r : ℝ, a11 t = (r : EReal))
    (h12 : ∀ t, ∃ r : ℝ, a12 t = (r : EReal))
    (h13 : ∀ t, ∃ r : ℝ, a13 t = (r : EReal)) :
    refP a0 a1 a2 a3 a4 a5 a6 a7 a8 a9 a10 a11 a12 a13 = kerP a0 a1 a2 a3 a4 a5 a6 a7 a8 a9 a10 a11 a12 a13 :=
  funext fun t => refPAt_eq a0 a1 a2 a3 a4 a5 a6 a7 a8 a9 a10 a11 a12 a13 h0 h1 h2 h3 h4 h5 h6 h7 h8 h9 h10 h11 h12 h13 (t 0) (t 1) (t 2)

/-- The log-probabilities, as arrays. -/
theorem bridgeL (a0 : FVec Ideal S192x2048 .f32) (a1 : FVec Ideal S192x192x2048 .f32) (a2 : FVec Ideal S128x2048 .f32) (a3 : FVec Ideal S128 .f32) (a4 : FVec Ideal S128x128 .f32) (a5 : FVec Ideal S128 .f32) (a6 : FVec Ideal S2048x128 .f32) (a7 : FVec Ideal S2048 .f32) (a8 : FVec Ideal S128x2048 .f32) (a9 : FVec Ideal S128 .f32) (a10 : FVec Ideal S128x128 .f32) (a11 : FVec Ideal S128 .f32) (a12 : FVec Ideal S2048x128 .f32) (a13 : FVec Ideal S2048 .f32)
    (h0 : ∀ t, ∃ r : ℝ, a0 t = (r : EReal))
    (h1 : ∀ t, ∃ r : ℝ, a1 t = (r : EReal))
    (h2 : ∀ t, ∃ r : ℝ, a2 t = (r : EReal))
    (h3 : ∀ t, ∃ r : ℝ, a3 t = (r : EReal))
    (h4 : ∀ t, ∃ r : ℝ, a4 t = (r : EReal))
    (h5 : ∀ t, ∃ r : ℝ, a5 t = (r : EReal))
    (h6 : ∀ t, ∃ r : ℝ, a6 t = (r : EReal))
    (h7 : ∀ t, ∃ r : ℝ, a7 t = (r : EReal))
    (h8 : ∀ t, ∃ r : ℝ, a8 t = (r : EReal))
    (h9 : ∀ t, ∃ r : ℝ, a9 t = (r : EReal))
    (h10 : ∀ t, ∃ r : ℝ, a10 t = (r : EReal))
    (h11 : ∀ t, ∃ r : ℝ, a11 t = (r : EReal))
    (h12 : ∀ t, ∃ r : ℝ, a12 t = (r : EReal))
    (h13 : ∀ t, ∃ r : ℝ, a13 t = (r : EReal)) :
    refL a0 a1 a2 a3 a4 a5 a6 a7 a8 a9 a10 a11 a12 a13 = kerL a0 a1 a2 a3 a4 a5 a6 a7 a8 a9 a10 a11 a12 a13 :=
  funext fun t => refLAt_eq a0 a1 a2 a3 a4 a5 a6 a7 a8 a9 a10 a11 a12 a13 h0 h1 h2 h3 h4 h5 h6 h7 h8 h9 h10 h11 h12 h13 (t 0) (t 1)

/-- Under the precondition, on every device: the reference's two results of the argument arrays are the kernel's. -/
theorem bridge [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    refP
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
      = kerP
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
    ∧ refL
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
      = kerL
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)) :=
  ⟨bridgeP _ _ _ _ _ _ _ _ _ _ _ _ _ _ (Cert.Finite.arg0_real m h c) (Cert.Finite.arg1_real m h c) (Cert.Finite.arg2_real m h c) (Cert.Finite.arg3_real m h c) (Cert.Finite.arg4_real m h c) (Cert.Finite.arg5_real m h c) (Cert.Finite.arg6_real m h c) (Cert.Finite.arg7_real m h c) (Cert.Finite.arg8_real m h c) (Cert.Finite.arg9_real m h c) (Cert.Finite.arg10_real m h c) (Cert.Finite.arg11_real m h c) (Cert.Finite.arg12_real m h c) (Cert.Finite.arg13_real m h c),
   bridgeL _ _ _ _ _ _ _ _ _ _ _ _ _ _ (Cert.Finite.arg0_real m h c) (Cert.Finite.arg1_real m h c) (Cert.Finite.arg2_real m h c) (Cert.Finite.arg3_real m h c) (Cert.Finite.arg4_real m h c) (Cert.Finite.arg5_real m h c) (Cert.Finite.arg6_real m h c) (Cert.Finite.arg7_real m h c) (Cert.Finite.arg8_real m h c) (Cert.Finite.arg9_real m h c) (Cert.Finite.arg10_real m h c) (Cert.Finite.arg11_real m h c) (Cert.Finite.arg12_real m h c) (Cert.Finite.arg13_real m h c)⟩

end Cert.KerG

end
-- ==== Proof.KI.Value.lean ====
/-
  The kernel's two results as functions of the launch memory's arguments. Region 1's write-backs leave the sample array
  at `mean + noise · scale` and the log-probability array at the closed form over the tile accumulators, both over the
  arrays region 1 is entered with; those are what region 0 left — the mean head, `exp (lv / 4)` and the row of half
  log-determinants, the two heads being the three-layer networks over the arguments read through the host's transposes and
  reshapes — and the noise argument itself. So the results are the functions the reference's results are proved equal to.
-/
import proofs.«152655_j7894149890238_2_alg».proof.Proof.KI.Frame
import proofs.«152655_j7894149890238_2_alg».proof.Proof.KI.SampleValue
import proofs.«152655_j7894149890238_2_alg».proof.Proof.KI.HeadFinal
import proofs.«152655_j7894149890238_2_alg».proof.Proof.KerG

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ValueIdx

variable (m : (ℓ : Loc nD τ sig) → Buf (Elt Ideal) ℓ) (ρ : Dev nD → PrngReg) (c : Dev nD)

/-- The sample array's function, over the arrays region 1 is entered with, is the samples' function of the arguments. -/
theorem G4_eq : G4 (Ve1 m ρ) c = Cert.KerG.kerP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  funext y
  obtain ⟨I, j, D, rfl⟩ : ∃ (I j : Fin 192) (D : Fin 2048), y = ix3 I j D := ⟨y 0, y 1, y 2, eq_ix3 y⟩
  show G4At (Ve1 m ρ) c I j D = Cert.KerG.kerPAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) I j D
  unfold G4At meanAt noiseAt scaleAt Cert.KerG.kerPAt
  rw [v12_0_apply, v12_1_apply, ve1_main_arg1]

/-- The log-probability array's function likewise. -/
theorem G5_eq : G5 (Ve1 m ρ) c = Cert.KerG.kerL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  funext y
  obtain ⟨I, j, rfl⟩ : ∃ (I j : Fin 192), y = ix2 I j := ⟨y 0, y 1, eq_ix2 y⟩
  show G5At (Ve1 m ρ) c I j = Cert.KerG.kerLAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) I j
  unfold G5At Cert.KerG.kerLAt accTile Cert.KerG.kerAcc sqN Cert.KerG.sq logdetAt noiseAt
  rw [v12_2_apply, ve1_main_arg1]

theorem value4 : (dat1 (Ve1 m ρ) c).arrAt 4 cfg1.N = Cert.KerG.kerP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (final1_4 (Ve1 m ρ) c).trans (G4_eq m ρ c)
theorem value5 : (dat1 (Ve1 m ρ) c).arrAt 5 cfg1.N = Cert.KerG.kerL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (final1_5 (Ve1 m ρ) c).trans (G5_eq m ρ c)

/-- The run at the exact instance with both results at their functions of the arguments, the arguments unchanged. -/
theorem run_values : θ_run defs (onTc (τ := τ) (main (F := Ideal))) ⟨m, fun _ => 0, ρ⟩ (fun r => ∀ c : Dev nD,
      r.2.mem ((c.tc : Thread nD τ).loc main_v13_0) = Cert.KerG.kerP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v13_1) = Cert.KerG.kerL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (value4 m ρ c), (h c).2.1.trans (value5 m ρ c), (h c).2.2⟩) (run_results m ρ)

end Cert.KernelIdeal.Fr

end
-- ==== Proof.lean ====
/-
  The certificate's five claims. The kernel is two pallas_calls: a head kernel (two three-layer networks of the input,
  each layer clamped at zero: the mean `mu` and the log-variance `lv`; it stores `mu`, the scale `exp (lv / 4)` and the row
  of half log-determinants `½ · Σ_d lv`) and a sample kernel over a 6 × 4 grid (sample-axis tiles × feature chunks) that
  stores `p = mu + eps · scale` block by block and accumulates `Σ_d eps²` chunk by chunk in a scratch buffer, writing
  `-½ · (Σ_d eps² + C) - ½ · logdet` at a tile's last chunk. The reference computes `var = exp (lv / 2)`,
  `scale = √var`, the same `p`, `Σ_d ((p - mu)² / var)` and the same tail. Over the extended reals the two agree because
  the inputs are finite: then `mu` and `lv` are reals (finite sums of products, clamped), `√(exp (lv / 2)) = exp (lv / 4)`
  is a positive real `s`, `(mu + e · s) - mu = e · s` and `(e · s)² / s² = e²`; a sum over 2048 is its four chunks of 512
  added in order. The frames: each program runs to the end, faults nowhere and leaves its arguments unchanged — for the
  kernel (at the word-level instance and at the exact one, one proof at any instance) from the run of @main over its
  segments, region 1's invariant carrying the accumulator from point to point; for the reference from its run.
-/
import proofs.«152655_j7894149890238_2_alg».proof.Defs
import proofs.«152655_j7894149890238_2_alg».proof.Proof.Gen.Kernel
import proofs.«152655_j7894149890238_2_alg».proof.Proof.Gen.KernelIdeal
import proofs.«152655_j7894149890238_2_alg».proof.Proof.Gen.ReferenceIdeal
import proofs.«152655_j7894149890238_2_alg».proof.Proof.Gen.ReferenceIdeal.Run
import proofs.«152655_j7894149890238_2_alg».proof.Proof.Gen.ReferenceIdeal.Read
import proofs.«152655_j7894149890238_2_alg».proof.Proof.Gen.Pre_finite_inputs
import proofs.«152655_j7894149890238_2_alg».proof.Proof.K.Frame
import proofs.«152655_j7894149890238_2_alg».proof.Proof.KI.Frame
import proofs.«152655_j7894149890238_2_alg».proof.Proof.KI.Value
import proofs.«152655_j7894149890238_2_alg».proof.Proof.RefG
import proofs.«152655_j7894149890238_2_alg».proof.Proof.KerG
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealization is the kernel's own text read at the exact instance. -/
theorem preserves : Cert.preserves_Kernel_KernelIdeal := trivial

/-- At the exact instance the kernel's results are `kerP`, `kerL` of its arguments and the reference's are `refP`, `refL`
    of arguments that agree; under finite inputs these are the same functions. -/
theorem algebraic : Cert.algebraic_KernelIdeal_ReferenceIdeal := by
  intro m ρ m' ρ' hpre hagree
  refine ⟨_, _, Cert.KernelIdeal.Fr.run_values m ρ, ?_⟩
  refine (θ_run Cert.ReferenceIdeal.defs _ _).mono (fun _ h c => ⟨(h c).1.trans ?_, (h c).2.1.trans ?_, (h c).2.2⟩)
    (Cert.RefG.run m' ρ')
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    exact (Cert.KerG.bridge m hpre c).1
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    exact (Cert.KerG.bridge m hpre c).2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
